-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v106)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v106) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x28 : Shape := ⟨2, ![131072, 28]⟩
abbrev S131072x1 : Shape := ⟨2, ![131072, 1]⟩
abbrev S28x128 : Shape := ⟨2, ![28, 128]⟩
abbrev S4x256x128 : Shape := ⟨3, ![4, 256, 128]⟩
abbrev S4x128 : Shape := ⟨2, ![4, 128]⟩
abbrev S128x128 : Shape := ⟨2, ![128, 128]⟩
abbrev S128x1 : Shape := ⟨2, ![128, 1]⟩
abbrev S1 : Shape := ⟨1, ![1]⟩
abbrev S2097152 : Shape := ⟨1, ![2097152]⟩
abbrev S131072 : Shape := ⟨1, ![131072]⟩
abbrev S_ : Shape := ⟨0, ![]⟩

class Facts : Prop where
  bcast_S_S131072x28 : S_.BroadcastsInDim S131072x28 (![] : Fin 0 → Fin S131072x28.rank)
  reducesTo_S131072x28_S_d0_1 : S131072x28.ReducesTo [0, 1] S_
  h_S_ : 0 < S_.numel
  bcast_S_S131072x1 : S_.BroadcastsInDim S131072x1 (![] : Fin 0 → Fin S131072x1.rank)
  reducesTo_S131072x1_S_d0_1 : S131072x1.ReducesTo [0, 1] S_
  bcast_S_S28x128 : S_.BroadcastsInDim S28x128 (![] : Fin 0 → Fin S28x128.rank)
  reducesTo_S28x128_S_d0_1 : S28x128.ReducesTo [0, 1] S_
  bcast_S_S4x256x128 : S_.BroadcastsInDim S4x256x128 (![] : Fin 0 → Fin S4x256x128.rank)
  reducesTo_S4x256x128_S_d0_1_2 : S4x256x128.ReducesTo [0, 1, 2] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S4x128 .f32) (main_arg5 : FVec F S128x128 .f32) (main_arg6 : FVec F S128x1 .f32) (main_arg7 : FVec F S1 .f32) (main_v13 : IVec S_ 1) (main_v16 : IVec S4x256x128 1) : IVec S_ 1 :=
  let main_c_5 : IVec S_ 1 := constantI S_ 1 1#1
  let main_v17 : IVec S_ 1 := (fun x v => Host.reduce IntOp.andi x v reducesTo_S4x256x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x1 .f32 := Host.absf main_arg6
  let main_cst_10 : FVec F S_ .f32 := constant S_ .f32 0x7F800000#32
  let main_v30 : FVec F S128x1 .f32 := broadcastInDim S128x1 ![] bcast_S_S128x1 main_cst_10
  let main_v31 : IVec S128x1 1 := cmpf .olt main_v29 main_v30
  let main_c_11 : IVec S_ 1 := constantI S_ 1 1#1
  let main_v32 : IVec S_ 1 := (fun x v => Host.reduce IntOp.andi x v reducesTo_S128x1_S_d0_1 h_S_) main_v31 main_c_11
  let main_v33 : IVec S_ 1 := andi main_v28 main_v32
  fn_part2 (F := F) main_arg7 main_v33

def fn {F : FTy → Type} [FloatOps F] (main_arg0 : FVec F S131072x28 .f32) (main_arg1 : FVec F S131072x1 .f32) (main_arg2 : FVec F S28x128 .f32) (main_arg3 : FVec F S4x256x128 .f32) (main_arg4 : FVec F S4x128 .f32) (main_arg5 : FVec F S128x128 .f32) (main_arg6 : FVec F S128x1 .f32) (main_arg7 : FVec F S1 .f32) (main_arg8 : IVec S2097152 32) (main_arg9 : IVec S2097152 32) (main_arg10 : IVec S131072 32) : IVec S_ 1 :=
  let main_v0 : FVec F S131072x28 .f32 := Host.absf main_arg0
  let main_cst : FVec F S_ .f32 := constant S_ .f32 0x7F800000#32
  let main_v1 : FVec F S131072x28 .f32 := broadcastInDim S131072x28 ![] bcast_S_S131072x28 main_cst
  let main_v2 : IVec S131072x28 1 := cmpf .olt main_v0 main_v1
  let main_c : IVec S_ 1 := constantI S_ 1 1#1
  let main_v3 : IVec S_ 1 := (fun x v => Host.reduce IntOp.andi x v reducesTo_S131072x28_S_d0_1 h_S_) main_v2 main_c
  let main_v4 : FVec F S131072x1 .f32 := Host.absf main_arg1
  let main_cst_0 : FVec F S_ .f32 := constant S_ .f32 0x7F800000#32
  let main_v5 : FVec F S131072x1 .f32 := broadcastInDim S131072x1 ![] bcast_S_S131072x1 main_cst_0
  let main_v6 : IVec S131072x1 1 := cmpf .olt main_v4 main_v5
  let main_c_1 : IVec S_ 1 := constantI S_ 1 1#1
  let main_v7 : IVec S_ 1 := (fun x v => Host.reduce IntOp.andi x v reducesTo_S131072x1_S_d0_1 h_S_) main_v6 main_c_1
  let main_v8 : IVec S_ 1 := andi main_v3 main_v7
  let main_v9 : FVec F S28x128 .f32 := Host.absf main_arg2
  let main_cst_2 : FVec F S_ .f32 := constant S_ .f32 0x7F800000#32
  let main_v10 : FVec F S28x128 .f32 := broadcastInDim S28x128 ![] bcast_S_S28x128 main_cst_2
  let main_v11 : IVec S28x128 1 := cmpf .olt main_v9 main_v10
  let main_c_3 : IVec S_ 1 := constantI S_ 1 1#1
  let main_v12 : IVec S_ 1 := (fun x v => Host.reduce IntOp.andi x v reducesTo_S28x128_S_d0_1 h_S_) main_v11 main_c_3
  let main_v13 : IVec S_ 1 := andi main_v8 main_v12
  let main_v14 : FVec F S4x256x128 .f32 := Host.absf main_arg3
  let main_cst_4 : FVec F S_ .f32 := constant S_ .f32 0x7F800000#32
  let main_v15 : FVec F S4x256x128 .f32 := broadcastInDim S4x256x128 ![] bcast_S_S4x256x128 main_cst_4
  let main_v16 : IVec S4x256x128 1 := cmpf .olt main_v14 main_v15
  fn_part1 (F := F) main_arg4 main_arg5 main_arg6 main_arg7 main_v13 main_v16
-- ==== Kernel.lean ====
abbrev S131072x28 : Shape := ⟨2, ![131072, 28]⟩
abbrev S131072x1 : Shape := ⟨2, ![131072, 1]⟩
abbrev S28x128 : Shape := ⟨2, ![28, 128]⟩
abbrev S4x256x128 : Shape := ⟨3, ![4, 256, 128]⟩
abbrev S4x128 : Shape := ⟨2, ![4, 128]⟩
abbrev S128x128 : Shape := ⟨2, ![128, 128]⟩
abbrev S128x1 : Shape := ⟨2, ![128, 1]⟩
abbrev S1 : Shape := ⟨1, ![1]⟩
abbrev S2097152 : Shape := ⟨1, ![2097152]⟩
abbrev S131072 : Shape := ⟨1, ![131072]⟩
abbrev S_ : Shape := ⟨0, ![]⟩
abbrev S2097152x1 : Shape := ⟨2, ![2097152, 1]⟩
abbrev S8192 : Shape := ⟨1, ![8192]⟩
abbrev S8192x1 : Shape := ⟨2, ![8192, 1]⟩
abbrev S131072x128 : Shape := ⟨2, ![131072, 128]⟩
abbrev S2048x28 : Shape := ⟨2, ![2048, 28]⟩
abbrev S2048x128 : Shape := ⟨2, ![2048, 128]⟩
abbrev S2097152x128 : Shape := ⟨2, ![2097152, 128]⟩
abbrev S1x128x128 : Shape := ⟨3, ![1, 128, 128]⟩
abbrev S1x128 : Shape := ⟨2, ![1, 128]⟩
abbrev S128 : Shape := ⟨1, ![128]⟩
abbrev S2048x1 : Shape := ⟨2, ![2048, 1]⟩
abbrev S8192x128 : Shape := ⟨2, ![8192, 128]⟩
abbrev S1x1 : Shape := ⟨2, ![1, 1]⟩

abbrev nBuf : Space → Nat
  | .hbm => 139
  | .vmem => 60
  | .smem => 0
  | _ => 0

abbrev hbmTy0_0 (i : Nat) : BufTy := match i % 128 with
  | 0 => ⟨S131072x28, .f32⟩
  | 1 => ⟨S131072x1, .f32⟩
  | 2 => ⟨S28x128, .f32⟩
  | 3 => ⟨S4x256x128, .f32⟩
  | 4 => ⟨S4x128, .f32⟩
  | 5 => ⟨S128x128, .f32⟩
  | 6 => ⟨S128x1, .f32⟩
  | 7 => ⟨S1, .f32⟩
  | 8 => ⟨S2097152, .i32⟩
  | 9 => ⟨S2097152, .i32⟩
  | 10 => ⟨S131072, .i32⟩
  | 11 => ⟨S_, .f32⟩
  | 12 => ⟨S2097152, .f32⟩
  | 13 => ⟨S_, .f32⟩
  | 14 => ⟨S131072, .f32⟩
  | 15 => ⟨S2097152x1, .i32⟩
  | 16 => ⟨S131072, .f32⟩
  | 17 => ⟨S_, .f32⟩
  | 18 => ⟨S131072, .f32⟩
  | 19 => ⟨S131072, .f32⟩
  | 20 => ⟨S_, .f32⟩
  | 21 => ⟨S131072, .f32⟩
  | 22 => ⟨S131072, .f32⟩
  | 23 => ⟨S131072x1, .f32⟩
  | 24 => ⟨S_, .f32⟩
  | 25 => ⟨S131072, .f32⟩
  | 26 => ⟨S_, .f32⟩
  | 27 => ⟨S8192, .f32⟩
  | 28 => ⟨S131072x1, .i32⟩
  | 29 => ⟨S8192, .f32⟩
  | 30 => ⟨S_, .f32⟩
  | 31 => ⟨S8192, .f32⟩
  | 32 => ⟨S8192, .f32⟩
  | 33 => ⟨S_, .f32⟩
  | 34 => ⟨S8192, .f32⟩
  | 35 => ⟨S8192, .f32⟩
  | 36 => ⟨S8192x1, .f32⟩
  | 37 => ⟨S131072x128, .f32⟩
  | 38 => ⟨S_, .i32⟩
  | 39 => ⟨S2097152, .i32⟩
  | 40 => ⟨S2097152, .i1⟩
  | 41 => ⟨S_, .i32⟩
  | 42 => ⟨S2097152, .i32⟩
  | 43 => ⟨S2097152, .i32⟩
  | 44 => ⟨S2097152, .i32⟩
  | 45 => ⟨S2097152x1, .i32⟩
  | 46 => ⟨S2097152x128, .f32⟩
  | 47 => ⟨S_, .f32⟩
  | 48 => ⟨S131072x128, .f32⟩
  | 49 => ⟨S2097152x1, .i32⟩
  | 50 => ⟨S131072x128, .f32⟩
  | 51 => ⟨S131072x128, .f32⟩
  | 52 => ⟨S131072x128, .f32⟩
  | 53 => ⟨S1x128x128, .f32⟩
  | 54 => ⟨S128x128, .f32⟩
  | 55 => ⟨S1x128x128, .f32⟩
  | 56 => ⟨S128x128, .f32⟩
  | 57 => ⟨S1x128, .f32⟩
  | 58 => ⟨S128, .f32⟩
  | 59 => ⟨S1x128, .f32⟩
  | 60 => ⟨S131072x128, .f32⟩
  | 61 => ⟨S_, .i32⟩
  | 62 => ⟨S2097152, .i32⟩
  | 63 => ⟨S2097152, .i1⟩
  | 64 => ⟨S_, .i32⟩
  | 65 => ⟨S2097152, .i32⟩
  | 66 => ⟨S2097152, .i32⟩
  | 67 => ⟨S2097152, .i32⟩
  | 68 => ⟨S2097152x1, .i32⟩
  | 69 => ⟨S2097152x128, .f32⟩
  | 70 => ⟨S_, .f32⟩
  | 71 => ⟨S131072x128, .f32⟩
  | 72 => ⟨S2097152x1, .i32⟩
  | 73 => ⟨S131072x128, .f32⟩
  | 74 => ⟨S131072x128, .f32⟩
  | 75 => ⟨S131072x128, .f32⟩
  | 76 => ⟨S1x128x128, .f32⟩
  | 77 => ⟨S128x128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S131072x128, .f32⟩
  | 84 => ⟨S_, .i32⟩
  | 85 => ⟨S2097152, .i32⟩
  | 86 => ⟨S2097152, .i1⟩
  | 87 => ⟨S_, .i32⟩
  | 88 => ⟨S2097152, .i32⟩
  | 89 => ⟨S2097152, .i32⟩
  | 90 => ⟨S2097152, .i32⟩
  | 91 => ⟨S2097152x1, .i32⟩
  | 92 => ⟨S2097152x128, .f32⟩
  | 93 => ⟨S_, .f32⟩
  | 94 => ⟨S131072x128, .f32⟩
  | 95 => ⟨S2097152x1, .i32⟩
  | 96 => ⟨S131072x128, .f32⟩
  | 97 => ⟨S131072x128, .f32⟩
  | 98 => ⟨S131072x128, .f32⟩
  | 99 => ⟨S1x128x128, .f32⟩
  | 100 => ⟨S128x128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S131072x128, .f32⟩
  | 107 => ⟨S_, .i32⟩
  | 108 => ⟨S2097152, .i32⟩
  | 109 => ⟨S2097152, .i1⟩
  | 110 => ⟨S_, .i32⟩
  | 111 => ⟨S2097152, .i32⟩
  | 112 => ⟨S2097152, .i32⟩
  | 113 => ⟨S2097152, .i32⟩
  | 114 => ⟨S2097152x1, .i32⟩
  | 115 => ⟨S2097152x128, .f32⟩
  | 116 => ⟨S_, .f32⟩
  | 117 => ⟨S131072x128, .f32⟩
  | 118 => ⟨S2097152x1, .i32⟩
  | 119 => ⟨S131072x128, .f32⟩
  | 120 => ⟨S131072x128, .f32⟩
  | 121 => ⟨S131072x128, .f32⟩
  | 122 => ⟨S1x128x128, .f32⟩
  | 123 => ⟨S128x128, .f32⟩
  | 124 => ⟨S1x128x128, .f32⟩
  | 125 => ⟨S128x128, .f32⟩
  | 126 => ⟨S1x128, .f32⟩
  | 127 => ⟨S128, .f32⟩
  | _ => ⟨S131072x28, .f32⟩

abbrev hbmTy0_1 (i : Nat) : BufTy := match i % 128 with
  | 0 => ⟨S1x128, .f32⟩
  | 1 => ⟨S131072x128, .f32⟩
  | 2 => ⟨S131072x128, .f32⟩
  | 3 => ⟨S_, .f32⟩
  | 4 => ⟨S8192x128, .f32⟩
  | 5 => ⟨S131072x1, .i32⟩
  | 6 => ⟨S8192x128, .f32⟩
  | 7 => ⟨S8192x128, .f32⟩
  | 8 => ⟨S8192x128, .f32⟩
  | 9 => ⟨S1x1, .f32⟩
  | 10 => ⟨S8192x1, .f32⟩
  | _ => ⟨S131072x28, .f32⟩

abbrev hbmTy (i : Nat) : BufTy := match i / 128 with
  | 0 => hbmTy0_0 i
  | 1 => hbmTy0_1 i
  | _ => ⟨S131072x28, .f32⟩

abbrev bufTy : (tb : Table) → Fin (tcTables nBuf tb) → BufTy
  | .hbm, ⟨i, _⟩ => hbmTy i
  | .local _ .vmem, ⟨0, _⟩ => ⟨S2048x28, .f32⟩
  | .local _ .vmem, ⟨1, _⟩ => ⟨S2048x28, .f32⟩
  | .local _ .vmem, ⟨2, _⟩ => ⟨S28x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x1, .f32⟩
  | .local _ .vmem, ⟨10, _⟩ => ⟨S2048x1, .f32⟩
  | .local _ .vmem, ⟨11, _⟩ => ⟨S128x128, .f32⟩
  | .local _ .vmem, ⟨12, _⟩ => ⟨S128x128, .f32⟩
  | .local _ .vmem, ⟨13, _⟩ => ⟨S1x128, .f32⟩
  | .local _ .vmem, ⟨14, _⟩ => ⟨S2048x128, .f32⟩
  | .local _ .vmem, ⟨15, _⟩ => ⟨S2048x128, .f32⟩
  | .local _ .vmem, ⟨16, _⟩ => ⟨S2048x128, .f32⟩
  | .local _ .vmem, ⟨17, _⟩ => ⟨S2048x128, .f32⟩
  | .local _ .vmem, ⟨18, _⟩ => ⟨S2048x128, .f32⟩
  | .local _ .vmem, ⟨19, _⟩ => ⟨S2048x128, .f32⟩
  | .local _ .vmem, ⟨20, _⟩ => ⟨S2048x1, .f32⟩
  | .local _ .vmem, ⟨21, _⟩ => ⟨S2048x1, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S2048x128, .f32⟩
  | .local _ .vmem, ⟨26, _⟩ => ⟨S2048x128, .f32⟩
  | .local _ .vmem, ⟨27, _⟩ => ⟨S2048x128, .f32⟩
  | .local _ .vmem, ⟨28, _⟩ => ⟨S2048x128, .f32⟩
  | .local _ .vmem, ⟨29, _⟩ => ⟨S2048x128, .f32⟩
  | .local _ .vmem, ⟨30, _⟩ => ⟨S2048x128, .f32⟩
  | .local _ .vmem, ⟨31, _⟩ => ⟨S2048x1, .f32⟩
  | .local _ .vmem, ⟨32, _⟩ => ⟨S2048x1, .f32⟩
  | .local _ .vmem, ⟨33, _⟩ => ⟨S128x128, .f32⟩
  | .local _ .vmem, ⟨34, _⟩ => ⟨S128x128, .f32⟩
  | .local _ .vmem, ⟨35, _⟩ => ⟨S1x128, .f32⟩
  | .local _ .vmem, ⟨36, _⟩ => ⟨S2048x128, .f32⟩
  | .local _ .vmem, ⟨37, _⟩ => ⟨S2048x128, .f32⟩
  | .local _ .vmem, ⟨38, _⟩ => ⟨S2048x128, .f32⟩
  | .local _ .vmem, ⟨39, _⟩ => ⟨S2048x128, .f32⟩
  | .local _ .vmem, ⟨40, _⟩ => ⟨S2048x128, .f32⟩
  | .local _ .vmem, ⟨41, _⟩ => ⟨S2048x128, .f32⟩
  | .local _ .vmem, ⟨42, _⟩ => ⟨S2048x1, .f32⟩
  | .local _ .vmem, ⟨43, _⟩ => ⟨S2048x1, .f32⟩
  | .local _ .vmem, ⟨44, _⟩ => ⟨S128x128, .f32⟩
  | .local _ .vmem, ⟨45, _⟩ => ⟨S128x128, .f32⟩
  | .local _ .vmem, ⟨46, _⟩ => ⟨S1x128, .f32⟩
  | .local _ .vmem, ⟨47, _⟩ => ⟨S2048x128, .f32⟩
  | .local _ .vmem, ⟨48, _⟩ => ⟨S2048x128, .f32⟩
  | .local _ .vmem, ⟨49, _⟩ => ⟨S2048x128, .f32⟩
  | .local _ .vmem, ⟨50, _⟩ => ⟨S2048x128, .f32⟩
  | .local _ .vmem, ⟨51, _⟩ => ⟨S128x128, .f32⟩
  | .local _ .vmem, ⟨52, _⟩ => ⟨S2048x128, .f32⟩
  | .local _ .vmem, ⟨53, _⟩ => ⟨S2048x128, .f32⟩
  | .local _ .vmem, ⟨54, _⟩ => ⟨S2048x128, .f32⟩
  | .local _ .vmem, ⟨55, _⟩ => ⟨S2048x128, .f32⟩
  | .local _ .vmem, ⟨56, _⟩ => ⟨S128x1, .f32⟩
  | .local _ .vmem, ⟨57, _⟩ => ⟨S1x1, .f32⟩
  | .local _ .vmem, ⟨58, _⟩ => ⟨S2048x1, .f32⟩
  | .local _ .vmem, ⟨59, _⟩ => ⟨S2048x1, .f32⟩
  | _, _ => ⟨S131072x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_c_9 : Ref sig .tc := ⟨.hbm, 61, rfl⟩
abbrev main_v39 : Ref sig .tc := ⟨.hbm, 62, rfl⟩
abbrev main_v40 : Ref sig .tc := ⟨.hbm, 63, rfl⟩
abbrev main_c_10 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_c_12 : Ref sig .tc := ⟨.hbm, 84, rfl⟩
abbrev main_v59 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_14 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c_15 : Ref sig .tc := ⟨.hbm, 107, rfl⟩
abbrev main_v79 : Ref sig .tc := ⟨.hbm, 108, rfl⟩
abbrev main_v80 : Ref sig .tc := ⟨.hbm, 109, rfl⟩
abbrev main_c_16 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_17 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_18 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg6_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg6_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg2_1 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg6_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg2_1 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem5_0 : DmaSem sig := 35
abbrev cc3_sem6_0 : DmaSem sig := 36
abbrev cc3_sem6_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem2_1 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem6_1 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem2_1 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S28x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2048x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S2048x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2048x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2048x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![64], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2048x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S2048x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S2048x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![64], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2048x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![4], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2048x1 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S_S8192 : S_.BroadcastsInDim S8192 (![] : Fin 0 → Fin S8192.rank)
  bcast_S8192_S8192x1_0 : S8192.BroadcastsInDim S8192x1 (![0] : Fin 1 → Fin S8192x1.rank)
  inb_S2048x28_S2048x28_0_0 : ∀ a, (![0, 0] : Fin 2 → Nat) a + S2048x28.size a ≤ S2048x28.size a
  h_S2048x28 : 0 < S2048x28.numel
  bitsLt_bf16_f32 : FTy.bits .bf16 < FTy.bits .f32
  inb_S28x128_S28x128_0_0 : ∀ a, (![0, 0] : Fin 2 → Nat) a + S28x128.size a ≤ S28x128.size a
  h_S28x128 : 0 < S28x128.numel
  inb_S2048x128_S2048x128_0_0 : ∀ a, (![0, 0] : Fin 2 → Nat) a + S2048x128.size a ≤ S2048x128.size a
  h_S2048x128 : 0 < S2048x128.numel
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  slices_S4x256x128_S1x128x128_0_0_0 : S4x256x128.Slices ![0, 0, 0] S1x128x128
  shapeCasts_S1x128x128_S128x128 : S1x128x128.ShapeCasts S128x128
  slices_S4x256x128_S1x128x128_0_128_0 : S4x256x128.Slices ![0, 128, 0] S1x128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S2048x1_S2048x1_0_0 : ∀ a, (![0, 0] : Fin 2 → Nat) a + S2048x1.size a ≤ S2048x1.size a
  h_S2048x1 : 0 < S2048x1.numel
  broadcasts_S2048x1_S2048x128 : S2048x1.Broadcasts S2048x128
  slices_S4x256x128_S1x128x128_1_0_0 : S4x256x128.Slices ![1, 0, 0] S1x128x128
  slices_S4x256x128_S1x128x128_1_128_0 : S4x256x128.Slices ![1, 128, 0] S1x128x128
  slices_S4x128_S1x128_1_0 : S4x128.Slices ![1, 0] S1x128
  slices_S4x256x128_S1x128x128_2_0_0 : S4x256x128.Slices ![2, 0, 0] S1x128x128
  slices_S4x256x128_S1x128x128_2_128_0 : S4x256x128.Slices ![2, 128, 0] S1x128x128
  slices_S4x128_S1x128_2_0 : S4x128.Slices ![2, 0] S1x128
  slices_S4x256x128_S1x128x128_3_0_0 : S4x256x128.Slices ![3, 0, 0] S1x128x128
  slices_S4x256x128_S1x128x128_3_128_0 : S4x256x128.Slices ![3, 128, 0] S1x128x128
  slices_S4x128_S1x128_3_0 : S4x128.Slices ![3, 0] S1x128
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  shapeCasts_S1_S1x1 : S1.ShapeCasts S1x1
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  scatter_S131072_S2097152x1_S2097152_n_0_0_1_wf : ScatterDims.WF S131072 S2097152x1 S2097152 [] [0] [0] 1
  scatter_S8192_S131072x1_S131072_n_0_0_1_wf : ScatterDims.WF S8192 S131072x1 S131072 [] [0] [0] 1
  dot_S2048x28_S28x128_S2048x128_1_0_0_1_n_n_wf : DotDims.WF S2048x28 S28x128 S2048x128 [1] [0] [0] [1] [] []
  gather_S131072x128_S2097152x1_S2097152x128_1_0_n_n_0_1_1128_wf : GatherDims.WF S131072x128 S2097152x1 S2097152x128 [1] [0] [] [0] [] 1 ![1, 128]
  scatter_S131072x128_S2097152x1_S2097152x128_1_0_0_1_wf : ScatterDims.WF S131072x128 S2097152x1 S2097152x128 [1] [0] [0] 1
  dot_S2048x128_S128x128_S2048x128_1_0_0_1_n_n_wf : DotDims.WF S2048x128 S128x128 S2048x128 [1] [0] [0] [1] [] []
  scatter_S8192x128_S131072x1_S131072x128_1_0_0_1_wf : ScatterDims.WF S8192x128 S131072x1 S131072x128 [1] [0] [0] 1
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x28.size a ≤ S131072x28.size a
  hwx0_0 : ∀ i : grid0.Coords, EltTy.bits .f32 = 32 ∨ (Rect.block (s := S131072x28) S2048x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S28x128.size a ≤ S28x128.size a
  hwx0_1 : ∀ i : grid0.Coords, EltTy.bits .f32 = 32 ∨ (Rect.block (s := S28x128) S28x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S131072x128.size a
  hwx0_2 : ∀ i : grid0.Coords, EltTy.bits .f32 = 32 ∨ (Rect.block (s := S131072x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S131072x128.size a
  hwx1_0 : ∀ i : grid1.Coords, EltTy.bits .f32 = 32 ∨ (Rect.block (s := S131072x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S131072x128.size a
  hwx1_1 : ∀ i : grid1.Coords, EltTy.bits .f32 = 32 ∨ (Rect.block (s := S131072x128) S2048x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S131072x1.size a
  hwx1_2 : ∀ i : grid1.Coords, EltTy.bits .f32 = 32 ∨ (Rect.block (s := S131072x1) S2048x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x128.size a ≤ S131072x128.size a
  hwx1_6 : ∀ i : grid1.Coords, EltTy.bits .f32 = 32 ∨ (Rect.block (s := S131072x128) S2048x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x128.size a ≤ S131072x128.size a
  hwx2_0 : ∀ i : grid2.Coords, EltTy.bits .f32 = 32 ∨ (Rect.block (s := S131072x128) S2048x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S131072x128.size a
  hwx2_1 : ∀ i : grid2.Coords, EltTy.bits .f32 = 32 ∨ (Rect.block (s := S131072x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1.size a ≤ S131072x1.size a
  hwx2_2 : ∀ i : grid2.Coords, EltTy.bits .f32 = 32 ∨ (Rect.block (s := S131072x1) S2048x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2048x128.size a ≤ S131072x128.size a
  hwx2_6 : ∀ i : grid2.Coords, EltTy.bits .f32 = 32 ∨ (Rect.block (s := S131072x128) S2048x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x128.size a ≤ S131072x128.size a
  hwx3_0 : ∀ i : grid3.Coords, EltTy.bits .f32 = 32 ∨ (Rect.block (s := S131072x128) S2048x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S131072x128.size a
  hwx3_1 : ∀ i : grid3.Coords, EltTy.bits .f32 = 32 ∨ (Rect.block (s := S131072x128) S2048x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1.size a ≤ S131072x1.size a
  hwx3_2 : ∀ i : grid3.Coords, EltTy.bits .f32 = 32 ∨ (Rect.block (s := S131072x1) S2048x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2048x128.size a ≤ S131072x128.size a
  hwx3_6 : ∀ i : grid3.Coords, EltTy.bits .f32 = 32 ∨ (Rect.block (s := S131072x128) S2048x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x128.size a ≤ S131072x128.size a
  hwx4_0 : ∀ i : grid4.Coords, EltTy.bits .f32 = 32 ∨ (Rect.block (s := S131072x128) S2048x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S131072x128.size a
  hwx4_1 : ∀ i : grid4.Coords, EltTy.bits .f32 = 32 ∨ (Rect.block (s := S131072x128) S2048x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1.size a ≤ S131072x1.size a
  hwx4_2 : ∀ i : grid4.Coords, EltTy.bits .f32 = 32 ∨ (Rect.block (s := S131072x1) S2048x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S2048x128.size a ≤ S131072x128.size a
  hwx4_6 : ∀ i : grid4.Coords, EltTy.bits .f32 = 32 ∨ (Rect.block (s := S131072x128) S2048x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x128.size a ≤ S131072x128.size a
  hwx5_0 : ∀ i : grid5.Coords, EltTy.bits .f32 = 32 ∨ (Rect.block (s := S131072x128) S2048x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2048x128.size a ≤ S131072x128.size a
  hwx5_2 : ∀ i : grid5.Coords, EltTy.bits .f32 = 32 ∨ (Rect.block (s := S131072x128) S2048x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x128.size a ≤ S8192x128.size a
  hwx6_0 : ∀ i : grid6.Coords, EltTy.bits .f32 = 32 ∨ (Rect.block (s := S8192x128) S2048x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2048x1.size a ≤ S8192x1.size a
  hwx6_3 : ∀ i : grid6.Coords, EltTy.bits .f32 = 32 ∨ (Rect.block (s := S8192x1) S2048x1.size (cc6_transform_3 i) (hinb6_3 i)).WholeWords (EltTy.packing .f32)

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def dot_S2048x28_S28x128_S2048x128_1_0_0_1_n_n : DotDims S2048x28 S28x128 S2048x128 where
  lhsContracting := [1]
  rhsContracting := [0]
  lhsNonContracting := [0]
  rhsNonContracting := [1]
  lhsBatch := []
  rhsBatch := []
  wf := dot_S2048x28_S28x128_S2048x128_1_0_0_1_n_n_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S2048x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S28x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v18) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S2048x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S2048x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S2048x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v50) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S2048x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v52) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S2048x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v58) S2048x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v70) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S2048x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v72) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v77) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v78) S2048x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v78) S2048x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v90) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg1) S2048x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v92) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v94) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v97) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v98) S2048x128.size cc4_transform_6 reads4_6 true false 2 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v98) S2048x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg5) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v99) S2048x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v104) S2048x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg6) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v105) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v106) S2048x1.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S131072x28 : Shape := ⟨2, ![131072, 28]⟩
abbrev S131072x1 : Shape := ⟨2, ![131072, 1]⟩
abbrev S28x128 : Shape := ⟨2, ![28, 128]⟩
abbrev S4x256x128 : Shape := ⟨3, ![4, 256, 128]⟩
abbrev S4x128 : Shape := ⟨2, ![4, 128]⟩
abbrev S128x128 : Shape := ⟨2, ![128, 128]⟩
abbrev S128x1 : Shape := ⟨2, ![128, 1]⟩
abbrev S1 : Shape := ⟨1, ![1]⟩
abbrev S2097152 : Shape := ⟨1, ![2097152]⟩
abbrev S131072 : Shape := ⟨1, ![131072]⟩
abbrev S_ : Shape := ⟨0, ![]⟩
abbrev S2097152x1 : Shape := ⟨2, ![2097152, 1]⟩
abbrev S8192 : Shape := ⟨1, ![8192]⟩
abbrev S8192x1 : Shape := ⟨2, ![8192, 1]⟩
abbrev S131072x128 : Shape := ⟨2, ![131072, 128]⟩
abbrev S2097152x128 : Shape := ⟨2, ![2097152, 128]⟩
abbrev S131072x256 : Shape := ⟨2, ![131072, 256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S8192x128 : Shape := ⟨2, ![8192, 128]⟩
abbrev S1x1 : Shape := ⟨2, ![1, 1]⟩

abbrev nBuf : Space → Nat
  | .hbm => 169
  | .vmem => 0
  | .smem => 0
  | _ => 0

abbrev hbmTy0_0 (i : Nat) : BufTy := match i % 128 with
  | 0 => ⟨S131072x28, .f32⟩
  | 1 => ⟨S131072x1, .f32⟩
  | 2 => ⟨S28x128, .f32⟩
  | 3 => ⟨S4x256x128, .f32⟩
  | 4 => ⟨S4x128, .f32⟩
  | 5 => ⟨S128x128, .f32⟩
  | 6 => ⟨S128x1, .f32⟩
  | 7 => ⟨S1, .f32⟩
  | 8 => ⟨S2097152, .i32⟩
  | 9 => ⟨S2097152, .i32⟩
  | 10 => ⟨S131072, .i32⟩
  | 11 => ⟨S_, .f32⟩
  | 12 => ⟨S2097152, .f32⟩
  | 13 => ⟨S_, .f32⟩
  | 14 => ⟨S131072, .f32⟩
  | 15 => ⟨S2097152x1, .i32⟩
  | 16 => ⟨S131072, .f32⟩
  | 17 => ⟨S_, .f32⟩
  | 18 => ⟨S131072, .f32⟩
  | 19 => ⟨S131072, .f32⟩
  | 20 => ⟨S_, .f32⟩
  | 21 => ⟨S131072, .f32⟩
  | 22 => ⟨S131072, .f32⟩
  | 23 => ⟨S131072x1, .f32⟩
  | 24 => ⟨S_, .f32⟩
  | 25 => ⟨S131072, .f32⟩
  | 26 => ⟨S_, .f32⟩
  | 27 => ⟨S8192, .f32⟩
  | 28 => ⟨S131072x1, .i32⟩
  | 29 => ⟨S8192, .f32⟩
  | 30 => ⟨S_, .f32⟩
  | 31 => ⟨S8192, .f32⟩
  | 32 => ⟨S8192, .f32⟩
  | 33 => ⟨S_, .f32⟩
  | 34 => ⟨S8192, .f32⟩
  | 35 => ⟨S8192, .f32⟩
  | 36 => ⟨S8192x1, .f32⟩
  | 37 => ⟨S131072x128, .f32⟩
  | 38 => ⟨S_, .i32⟩
  | 39 => ⟨S2097152, .i32⟩
  | 40 => ⟨S2097152, .i1⟩
  | 41 => ⟨S_, .i32⟩
  | 42 => ⟨S2097152, .i32⟩
  | 43 => ⟨S2097152, .i32⟩
  | 44 => ⟨S2097152, .i32⟩
  | 45 => ⟨S2097152x1, .i32⟩
  | 46 => ⟨S2097152x128, .f32⟩
  | 47 => ⟨S_, .f32⟩
  | 48 => ⟨S131072x128, .f32⟩
  | 49 => ⟨S2097152x1, .i32⟩
  | 50 => ⟨S131072x128, .f32⟩
  | 51 => ⟨S131072x128, .f32⟩
  | 52 => ⟨S131072x128, .f32⟩
  | 53 => ⟨S131072x256, .f32⟩
  | 54 => ⟨S1x256x128, .f32⟩
  | 55 => ⟨S256x128, .f32⟩
  | 56 => ⟨S131072x128, .f32⟩
  | 57 => ⟨S1x128, .f32⟩
  | 58 => ⟨S128, .f32⟩
  | 59 => ⟨S1x128, .f32⟩
  | 60 => ⟨S131072x128, .f32⟩
  | 61 => ⟨S131072x128, .f32⟩
  | 62 => ⟨S_, .f32⟩
  | 63 => ⟨S131072x128, .f32⟩
  | 64 => ⟨S131072x128, .f32⟩
  | 65 => ⟨S131072x128, .f32⟩
  | 66 => ⟨S131072x128, .f32⟩
  | 67 => ⟨S131072x128, .f32⟩
  | 68 => ⟨S_, .i32⟩
  | 69 => ⟨S2097152, .i32⟩
  | 70 => ⟨S2097152, .i1⟩
  | 71 => ⟨S_, .i32⟩
  | 72 => ⟨S2097152, .i32⟩
  | 73 => ⟨S2097152, .i32⟩
  | 74 => ⟨S2097152, .i32⟩
  | 75 => ⟨S2097152x1, .i32⟩
  | 76 => ⟨S2097152x128, .f32⟩
  | 77 => ⟨S_, .f32⟩
  | 78 => ⟨S131072x128, .f32⟩
  | 79 => ⟨S2097152x1, .i32⟩
  | 80 => ⟨S131072x128, .f32⟩
  | 81 => ⟨S131072x128, .f32⟩
  | 82 => ⟨S131072x128, .f32⟩
  | 83 => ⟨S131072x256, .f32⟩
  | 84 => ⟨S1x256x128, .f32⟩
  | 85 => ⟨S256x128, .f32⟩
  | 86 => ⟨S131072x128, .f32⟩
  | 87 => ⟨S1x128, .f32⟩
  | 88 => ⟨S128, .f32⟩
  | 89 => ⟨S1x128, .f32⟩
  | 90 => ⟨S131072x128, .f32⟩
  | 91 => ⟨S131072x128, .f32⟩
  | 92 => ⟨S_, .f32⟩
  | 93 => ⟨S131072x128, .f32⟩
  | 94 => ⟨S131072x128, .f32⟩
  | 95 => ⟨S131072x128, .f32⟩
  | 96 => ⟨S131072x128, .f32⟩
  | 97 => ⟨S131072x128, .f32⟩
  | 98 => ⟨S_, .i32⟩
  | 99 => ⟨S2097152, .i32⟩
  | 100 => ⟨S2097152, .i1⟩
  | 101 => ⟨S_, .i32⟩
  | 102 => ⟨S2097152, .i32⟩
  | 103 => ⟨S2097152, .i32⟩
  | 104 => ⟨S2097152, .i32⟩
  | 105 => ⟨S2097152x1, .i32⟩
  | 106 => ⟨S2097152x128, .f32⟩
  | 107 => ⟨S_, .f32⟩
  | 108 => ⟨S131072x128, .f32⟩
  | 109 => ⟨S2097152x1, .i32⟩
  | 110 => ⟨S131072x128, .f32⟩
  | 111 => ⟨S131072x128, .f32⟩
  | 112 => ⟨S131072x128, .f32⟩
  | 113 => ⟨S131072x256, .f32⟩
  | 114 => ⟨S1x256x128, .f32⟩
  | 115 => ⟨S256x128, .f32⟩
  | 116 => ⟨S131072x128, .f32⟩
  | 117 => ⟨S1x128, .f32⟩
  | 118 => ⟨S128, .f32⟩
  | 119 => ⟨S1x128, .f32⟩
  | 120 => ⟨S131072x128, .f32⟩
  | 121 => ⟨S131072x128, .f32⟩
  | 122 => ⟨S_, .f32⟩
  | 123 => ⟨S131072x128, .f32⟩
  | 124 => ⟨S131072x128, .f32⟩
  | 125 => ⟨S131072x128, .f32⟩
  | 126 => ⟨S131072x128, .f32⟩
  | 127 => ⟨S131072x128, .f32⟩
  | _ => ⟨S131072x28, .f32⟩

abbrev hbmTy0_1 (i : Nat) : BufTy := match i % 128 with
  | 0 => ⟨S_, .i32⟩
  | 1 => ⟨S2097152, .i32⟩
  | 2 => ⟨S2097152, .i1⟩
  | 3 => ⟨S_, .i32⟩
  | 4 => ⟨S2097152, .i32⟩
  | 5 => ⟨S2097152, .i32⟩
  | 6 => ⟨S2097152, .i32⟩
  | 7 => ⟨S2097152x1, .i32⟩
  | 8 => ⟨S2097152x128, .f32⟩
  | 9 => ⟨S_, .f32⟩
  | 10 => ⟨S131072x128, .f32⟩
  | 11 => ⟨S2097152x1, .i32⟩
  | 12 => ⟨S131072x128, .f32⟩
  | 13 => ⟨S131072x128, .f32⟩
  | 14 => ⟨S131072x128, .f32⟩
  | 15 => ⟨S131072x256, .f32⟩
  | 16 => ⟨S1x256x128, .f32⟩
  | 17 => ⟨S256x128, .f32⟩
  | 18 => ⟨S131072x128, .f32⟩
  | 19 => ⟨S1x128, .f32⟩
  | 20 => ⟨S128, .f32⟩
  | 21 => ⟨S1x128, .f32⟩
  | 22 => ⟨S131072x128, .f32⟩
  | 23 => ⟨S131072x128, .f32⟩
  | 24 => ⟨S_, .f32⟩
  | 25 => ⟨S131072x128, .f32⟩
  | 26 => ⟨S131072x128, .f32⟩
  | 27 => ⟨S131072x128, .f32⟩
  | 28 => ⟨S131072x128, .f32⟩
  | 29 => ⟨S131072x128, .f32⟩
  | 30 => ⟨S131072x128, .f32⟩
  | 31 => ⟨S_, .f32⟩
  | 32 => ⟨S8192x128, .f32⟩
  | 33 => ⟨S131072x1, .i32⟩
  | 34 => ⟨S8192x128, .f32⟩
  | 35 => ⟨S8192x128, .f32⟩
  | 36 => ⟨S8192x128, .f32⟩
  | 37 => ⟨S8192x1, .f32⟩
  | 38 => ⟨S1x1, .f32⟩
  | 39 => ⟨S8192x1, .f32⟩
  | 40 => ⟨S8192x1, .f32⟩
  | _ => ⟨S131072x28, .f32⟩

abbrev hbmTy (i : Nat) : BufTy := match i / 128 with
  | 0 => hbmTy0_0 i
  | 1 => hbmTy0_1 i
  | _ => ⟨S131072x28, .f32⟩

abbrev bufTy : (tb : Table) → Fin (tcTables nBuf tb) → BufTy
  | .hbm, ⟨i, _⟩ => hbmTy i
  | _, _ => ⟨S131072x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_cst_2 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_3 : Ref sig .tc := ⟨.hbm, 24, rfl⟩
abbrev main_v9 : Ref sig .tc := ⟨.hbm, 25, rfl⟩
abbrev main_cst_4 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_5 : Ref sig .tc := ⟨.hbm, 30, rfl⟩
abbrev main_v13 : Ref sig .tc := ⟨.hbm, 31, rfl⟩
abbrev main_v14 : Ref sig .tc := ⟨.hbm, 32, rfl⟩
abbrev main_cst_6 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c : Ref sig .tc := ⟨.hbm, 38, rfl⟩
abbrev main_v19 : Ref sig .tc := ⟨.hbm, 39, rfl⟩
abbrev main_v20 : Ref sig .tc := ⟨.hbm, 40, rfl⟩
abbrev main_c_7 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_call0_cst : Ref sig .tc := ⟨.hbm, 62, rfl⟩
abbrev main_call0_v0 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_9 : Ref sig .tc := ⟨.hbm, 68, rfl⟩
abbrev main_v44 : Ref sig .tc := ⟨.hbm, 69, rfl⟩
abbrev main_v45 : Ref sig .tc := ⟨.hbm, 70, rfl⟩
abbrev main_c_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_call1_cst : Ref sig .tc := ⟨.hbm, 92, rfl⟩
abbrev main_call1_v0 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_12 : Ref sig .tc := ⟨.hbm, 98, rfl⟩
abbrev main_v69 : Ref sig .tc := ⟨.hbm, 99, rfl⟩
abbrev main_v70 : Ref sig .tc := ⟨.hbm, 100, rfl⟩
abbrev main_c_13 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_14 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_call2_cst : Ref sig .tc := ⟨.hbm, 122, rfl⟩
abbrev main_call2_v0 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_15 : Ref sig .tc := ⟨.hbm, 128, rfl⟩
abbrev main_v94 : Ref sig .tc := ⟨.hbm, 129, rfl⟩
abbrev main_v95 : Ref sig .tc := ⟨.hbm, 130, rfl⟩
abbrev main_c_16 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_17 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_call3_cst : Ref sig .tc := ⟨.hbm, 152, rfl⟩
abbrev main_call3_v0 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_18 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S131072x128 : S_.BroadcastsInDim S131072x128 (![] : Fin 0 → Fin S131072x128.rank)
  bcast_S131072x1_S131072x128_0_1 : S131072x1.BroadcastsInDim S131072x128 (![0, 1] : Fin 2 → Fin S131072x128.rank)
  concatenates_S131072x128_S131072x128_S131072x256_d1 : Shape.Concatenates [S131072x128, S131072x128] S131072x256 1
  slices_S4x256x128_S1x256x128_0_0_0 : S4x256x128.Slices ![0, 0, 0] S1x256x128
  shapeCasts_S1x256x128_S256x128 : S1x256x128.ShapeCasts S256x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  slices_S4x256x128_S1x256x128_1_0_0 : S4x256x128.Slices ![1, 0, 0] S1x256x128
  slices_S4x128_S1x128_1_0 : S4x128.Slices ![1, 0] S1x128
  slices_S4x256x128_S1x256x128_2_0_0 : S4x256x128.Slices ![2, 0, 0] S1x256x128
  slices_S4x128_S1x128_2_0 : S4x128.Slices ![2, 0] S1x128
  slices_S4x256x128_S1x256x128_3_0_0 : S4x256x128.Slices ![3, 0, 0] S1x256x128
  slices_S4x128_S1x128_3_0 : S4x128.Slices ![3, 0] S1x128
  bcast_S_S8192x128 : S_.BroadcastsInDim S8192x128 (![] : Fin 0 → Fin S8192x128.rank)
  bcast_S8192x1_S8192x128_0_1 : S8192x1.BroadcastsInDim S8192x128 (![0, 1] : Fin 2 → Fin S8192x128.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  scatter_S131072_S2097152x1_S2097152_n_0_0_1_wf : ScatterDims.WF S131072 S2097152x1 S2097152 [] [0] [0] 1
  scatter_S8192_S131072x1_S131072_n_0_0_1_wf : ScatterDims.WF S8192 S131072x1 S131072 [] [0] [0] 1
  dot_S131072x28_S28x128_S131072x128_1_0_0_1_n_n_wf : DotDims.WF S131072x28 S28x128 S131072x128 [1] [0] [0] [1] [] []
  gather_S131072x128_S2097152x1_S2097152x128_1_0_n_n_0_1_1128_wf : GatherDims.WF S131072x128 S2097152x1 S2097152x128 [1] [0] [] [0] [] 1 ![1, 128]
  scatter_S131072x128_S2097152x1_S2097152x128_1_0_0_1_wf : ScatterDims.WF S131072x128 S2097152x1 S2097152x128 [1] [0] [0] 1
  dot_S131072x256_S256x128_S131072x128_1_0_0_1_n_n_wf : DotDims.WF S131072x256 S256x128 S131072x128 [1] [0] [0] [1] [] []
  dot_S131072x128_S128x128_S131072x128_1_0_0_1_n_n_wf : DotDims.WF S131072x128 S128x128 S131072x128 [1] [0] [0] [1] [] []
  scatter_S8192x128_S131072x1_S131072x128_1_0_0_1_wf : ScatterDims.WF S8192x128 S131072x1 S131072x128 [1] [0] [0] 1
  dot_S8192x128_S128x1_S8192x1_1_0_0_1_n_n_wf : DotDims.WF S8192x128 S128x1 S8192x1 [1] [0] [0] [1] [] []

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def scatter_S8192_S131072x1_S131072_n_0_0_1 : ScatterDims S8192 S131072x1 S131072 where
  updateWindowDims := []
  insertedWindowDims := [0]
  scatterDimsToOperandDims := [0]
  indexVectorDim := 1
  wf := scatter_S8192_S131072x1_S131072_n_0_0_1_wf
def dot_S131072x28_S28x128_S131072x128_1_0_0_1_n_n : DotDims S131072x28 S28x128 S131072x128 where
  lhsContracting := [1]
  rhsContracting := [0]
  lhsNonContracting := [0]
  rhsNonContracting := [1]
  lhsBatch := []
  rhsBatch := []
  wf := dot_S131072x28_S28x128_S131072x128_1_0_0_1_n_n_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def scatter_S8192x128_S131072x1_S131072x128_1_0_0_1 : ScatterDims S8192x128 S131072x1 S131072x128 where
  updateWindowDims := [1]
  insertedWindowDims := [0]
  scatterDimsToOperandDims := [0]
  indexVectorDim := 1
  wf := scatter_S8192x128_S131072x1_S131072x128_1_0_0_1_wf
def dot_S8192x128_S128x1_S8192x1_1_0_0_1_n_n : DotDims S8192x128 S128x1 S8192x1 where
  lhsContracting := [1]
  rhsContracting := [0]
  lhsNonContracting := [0]
  rhsNonContracting := [1]
  lhsBatch := []
  rhsBatch := []
  wf := dot_S8192x128_S128x1_S8192x1_1_0_0_1_n_n_wf

class Facts : Prop extends Facts₀ where

variable [Facts]
-- ==== Proof.KernelRun.lean ====
/-
  The idealized kernel's run with its result named. Every weakly fair execution of the kernel's program from
  a memory with zero counters terminates, nothing faulting, with the argument arrays as launched and the
  result buffer holding what the last boundary of the segment fold holds there: the launch of the thirteen
  segments exactly as in the frame's run, the final thread state read at the result buffer as well as at the
  arguments.
-/
import proofs.«153788_j67645734912961_1_alg».proof.Proof.Gen.KernelIdeal.Frame
import Idealize.ShloMosaic.PureOps.Ideal

set_option maxRecDepth 16384

noncomputable section

namespace Cert.Sage.Fold

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- The run of the idealized kernel's program: the arguments end as launched and the result buffer at the last
    boundary's contents. -/
theorem run_fold : θ_run defs (onTc (τ := τ) (main (F := Ideal))) ⟨m, fun _ => 0, ρ⟩ (fun r => ∀ c : Dev nD,
      r.2.mem ((c.tc : Thread nD τ).loc main_v106) = W13 (F := Ideal) m ρ c (Proc.devRef .tc main_v106)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v106 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c)⟩)

end Cert.Sage.Fold

end
-- ==== Proof.Spec.lean ====
/-
  The mathematics of the network, shared by the kernel's side and the reference's side of the bridge.

  A graph of 131072 nodes and 2097152 edges (source and destination node numbers as 32-bit words), node
  features of width 128, 8192 graphs. Every array is over the extended reals, every operation the exact one.

  * `embed x W`            : the input embedding, row p of x (28 atom features) times W.
  * `invDeg dst`           : 1 / max(in-degree, 1) per node, as a column; `invCount gid` the same per graph.
  * `aggregate src dst d x`: the mean over in-neighbours: rows of x gathered at the (wrapped) source numbers,
                              summed into the destination rows, each row scaled by the column d.
  * `nodeApply x c s Wh Wc b`: one layer's update, entry (p, j):
                              max (Σ_k x(p,k)·Wh(k,j) + Σ_k c(p,k)·Wc(k,j) + b(0,j)) 0 · s(p,0) + x(p,j).
  * `wSelf W l`, `wNbr W l`, `biasRow b l`: layer l's two 128×128 halves of W[l] (rows 0..127 act on the node's
                              own features, rows 128..255 on the aggregated ones) and its bias as a row.
  * `project x W`          : x times W (the read-out projection).
  * `graphMean gid d z`    : rows of z summed per graph number, each row scaled by the column d.
  * `predict g W b`        : entry (q, 0) is Σ_k g(q,k)·W(k,0) + b(0,0).
  * `net`                  : their composition, the whole network as one function of the eleven arguments.

  The gather and the two kinds of accumulating scatter are the SAME host operations in both programs, so they
  are carried as the operations themselves and never read at an index; the two programs differ only in how a
  layer's product with W[l] is arranged (two 128-term sums against one 256-term sum over the concatenation).
-/
import proofs.«153788_j67645734912961_1_alg».proof.Proof.Gen.KernelIdeal
import Idealize.ShloMosaic.PureOps.Ideal
import Idealize.ShloMosaic.Lib.ValueIdx

noncomputable section

open scoped BigOperators

namespace Cert.Sage

open Idealize.ShloMosaic Idealize.ShloMosaic.ValueIdx Cert.KernelIdeal Cert.KernelIdeal.Gen

/-- The input embedding: entry (p, j) is Σ_k x(p,k)·W(k,j) over the 28 atom features. -/
def embed (x : FVec Ideal S131072x28 .f32) (W : FVec Ideal S28x128 .f32) : FVec Ideal S131072x128 .f32 :=
  fun i => ∑ k : Fin 28, x (ix2 (i 0) k) * W (ix2 k (i 1))

/-- One layer's node update from the node's own features x, the aggregated features c, the per-node scale s,
    the two halves of the layer's weight and its bias row. -/
def nodeApply (x c : FVec Ideal S131072x128 .f32) (s : FVec Ideal S131072x1 .f32)
    (Wh Wc : FVec Ideal S128x128 .f32) (b : FVec Ideal S1x128 .f32) : FVec Ideal S131072x128 .f32 :=
  fun i => max ((∑ k : Fin 128, x (ix2 (i 0) k) * Wh (ix2 k (i 1))) + (∑ k : Fin 128, c (ix2 (i 0) k) * Wc (ix2 k (i 1)))
      + b (ix2 0 (i 1))) 0 * s (ix2 (i 0) 0) + x i

/-- The read-out projection: entry (p, j) is Σ_k x(p,k)·W(k,j). -/
def project (x : FVec Ideal S131072x128 .f32) (W : FVec Ideal S128x128 .f32) : FVec Ideal S131072x128 .f32 :=
  fun i => ∑ k : Fin 128, x (ix2 (i 0) k) * W (ix2 k (i 1))

/-- The prediction head: entry (q, 0) is Σ_k g(q,k)·W(k,0) + b(0,0). -/
def predict (g : FVec Ideal S8192x128 .f32) (W : FVec Ideal S128x1 .f32) (b : FVec Ideal S1x1 .f32) : FVec Ideal S8192x1 .f32 :=
  fun i => (∑ k : Fin 128, g (ix2 (i 0) k) * W (ix2 k (i 1))) + b (ix2 0 0)

/-- Rows 0..127 of W[l]: the half acting on the node's own features. -/
def wSelf (W : FVec Ideal S4x256x128 .f32) (l : Fin 4) : FVec Ideal S128x128 .f32 :=
  fun i => W (ix3 l ⟨(i 0).val, by have := (i 0).isLt; simp at this; omega⟩ (i 1))

/-- Rows 128..255 of W[l]: the half acting on the aggregated features. -/
def wNbr (W : FVec Ideal S4x256x128 .f32) (l : Fin 4) : FVec Ideal S128x128 .f32 :=
  fun i => W (ix3 l ⟨128 + (i 0).val, by have := (i 0).isLt; simp at this; omega⟩ (i 1))

/-- Layer l's bias as a row. -/
def biasRow (b : FVec Ideal S4x128 .f32) (l : Fin 4) : FVec Ideal S1x128 .f32 :=
  fun i => b (ix2 l (i 1))

/-- The prediction bias as a 1×1 array. -/
def biasCell (b : FVec Ideal S1 .f32) : FVec Ideal S1x1 .f32 :=
  fun _ => b (ix1 0)

/-- 1 / max(in-degree, 1) per node, as a column: ones summed into the destination nodes. -/
def invDeg (dst : IVec S2097152 32) : FVec Ideal S131072x1 .f32 :=
  broadcastInDim S131072x1 ![0] bcast_S131072_S131072x1_0
    (Host.divf (broadcastInDim S131072 ![] bcast_S_S131072 (constant (F := Ideal) S_ .f32 0x3F800000#32))
      (maximumf
        (Host.scatterAdd scatter_S131072_S2097152x1_S2097152_n_0_0_1
          (broadcastInDim S131072 ![] bcast_S_S131072 (constant (F := Ideal) S_ .f32 0x00000000#32))
          (broadcastInDim S2097152x1 ![0] bcast_S2097152_S2097152x1_0 dst)
          (broadcastInDim S2097152 ![] bcast_S_S2097152 (constant (F := Ideal) S_ .f32 0x3F800000#32)))
        (broadcastInDim S131072 ![] bcast_S_S131072 (constant (F := Ideal) S_ .f32 0x3F800000#32))))

/-- 1 / max(node count, 1) per graph, as a column: ones summed into the graph numbers. -/
def invCount (gid : IVec S131072 32) : FVec Ideal S8192x1 .f32 :=
  broadcastInDim S8192x1 ![0] bcast_S8192_S8192x1_0
    (Host.divf (broadcastInDim S8192 ![] bcast_S_S8192 (constant (F := Ideal) S_ .f32 0x3F800000#32))
      (maximumf
        (Host.scatterAdd scatter_S8192_S131072x1_S131072_n_0_0_1
          (broadcastInDim S8192 ![] bcast_S_S8192 (constant (F := Ideal) S_ .f32 0x00000000#32))
          (broadcastInDim S131072x1 ![0] bcast_S131072_S131072x1_0 gid)
          (broadcastInDim S131072 ![] bcast_S_S131072 (constant (F := Ideal) S_ .f32 0x3F800000#32)))
        (broadcastInDim S8192 ![] bcast_S_S8192 (constant (F := Ideal) S_ .f32 0x3F800000#32))))

/-- The mean over in-neighbours: rows of x gathered at the source numbers (a negative number wrapped by the
    node count), summed into the destination rows, each row scaled by the column d. -/
def aggregate (src dst : IVec S2097152 32) (d : FVec Ideal S131072x1 .f32) (x : FVec Ideal S131072x128 .f32) :
    FVec Ideal S131072x128 .f32 :=
  mulf
    (Host.scatterAdd scatter_S131072x128_S2097152x1_S2097152x128_1_0_0_1
      (broadcastInDim S131072x128 ![] bcast_S_S131072x128 (constant (F := Ideal) S_ .f32 0x00000000#32))
      (broadcastInDim S2097152x1 ![0] bcast_S2097152_S2097152x1_0 dst)
      (Host.gather gather_S131072x128_S2097152x1_S2097152x128_1_0_n_n_0_1_1128 x
        (broadcastInDim S2097152x1 ![0] bcast_S2097152_S2097152x1_0
          (select (cmpi .slt src (broadcastInDim S2097152 ![] bcast_S_S2097152 (constantI S_ 32 0#32)))
            (addi src (broadcastInDim S2097152 ![] bcast_S_S2097152 (constantI S_ 32 131072#32))) src))))
    (broadcastInDim S131072x128 ![0, 1] bcast_S131072x1_S131072x128_0_1 d)

/-- The mean per graph: rows of z summed into their graph's row, each row scaled by the column d. -/
def graphMean (gid : IVec S131072 32) (d : FVec Ideal S8192x1 .f32) (z : FVec Ideal S131072x128 .f32) :
    FVec Ideal S8192x128 .f32 :=
  mulf
    (Host.scatterAdd scatter_S8192x128_S131072x1_S131072x128_1_0_0_1
      (broadcastInDim S8192x128 ![] bcast_S_S8192x128 (constant (F := Ideal) S_ .f32 0x00000000#32))
      (broadcastInDim S131072x1 ![0] bcast_S131072_S131072x1_0 gid) z)
    (broadcastInDim S8192x128 ![0, 1] bcast_S8192x1_S8192x128_0_1 d)

/-- One whole layer: aggregate, then update. -/
def layer (a1 : FVec Ideal S131072x1 .f32) (a3 : FVec Ideal S4x256x128 .f32) (a4 : FVec Ideal S4x128 .f32)
    (a8 a9 : IVec S2097152 32) (l : Fin 4) (x : FVec Ideal S131072x128 .f32) : FVec Ideal S131072x128 .f32 :=
  nodeApply x (aggregate a8 a9 (invDeg a9) x) a1 (wSelf a3 l) (wNbr a3 l) (biasRow a4 l)

/-- The whole network as one function of the eleven arguments. -/
def net (a0 : FVec Ideal S131072x28 .f32) (a1 : FVec Ideal S131072x1 .f32) (a2 : FVec Ideal S28x128 .f32)
    (a3 : FVec Ideal S4x256x128 .f32) (a4 : FVec Ideal S4x128 .f32) (a5 : FVec Ideal S128x128 .f32)
    (a6 : FVec Ideal S128x1 .f32) (a7 : FVec Ideal S1 .f32) (a8 a9 : IVec S2097152 32) (a10 : IVec S131072 32) :
    FVec Ideal S8192x1 .f32 :=
  predict
    (graphMean a10 (invCount a10)
      (project (layer a1 a3 a4 a8 a9 3 (layer a1 a3 a4 a8 a9 2 (layer a1 a3 a4 a8 a9 1 (layer a1 a3 a4 a8 a9 0 (embed a0 a2))))) a5))
    a6 (biasCell a7)

end Cert.Sage

end
-- ==== Proof.KernelKeeps.lean ====
/-
  What every segment of the kernel's program leaves alone. Between the launch and the return the program's
  buffers pass through thirteen segments (host stretches and kernel regions). Nine of the argument arrays and
  the two reciprocal-count columns computed in the first stretch are read again by later segments; no later host
  operation writes them and no region has one of them as its output, so at every boundary they hold what they
  held after the first stretch: the arguments as launched, the columns at `invDeg` of the destination numbers and
  `invCount` of the graph numbers.
-/
import proofs.«153788_j67645734912961_1_alg».proof.Proof.Gen.KernelIdeal.Frame
import proofs.«153788_j67645734912961_1_alg».proof.Proof.Spec

noncomputable section

namespace Cert.Sage.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- A buffer none of a stretch's operations writes keeps its contents over the stretch. -/
macro "host_keeps" : tactic => `(tactic| (
  refine StableHlo.after_of_forall_not_mem _ _ (List.forall_iff_forall_mem.mp ?_)
  simp only [hostOps0, hostOps1, hostOps2, hostOps3, hostOps4, hostOps6, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The buffers later segments read again, at a boundary's contents `W` on core `c`. -/
structure Keeps (c : Dev nD) (W : Valuation τ sig (Elt Ideal)) : Prop where
  a1 : W (Proc.devRef .tc main_arg1) = m ((c : Thread nD τ).loc main_arg1)
  a3 : W (Proc.devRef .tc main_arg3) = m ((c : Thread nD τ).loc main_arg3)
  a4 : W (Proc.devRef .tc main_arg4) = m ((c : Thread nD τ).loc main_arg4)
  a5 : W (Proc.devRef .tc main_arg5) = m ((c : Thread nD τ).loc main_arg5)
  a6 : W (Proc.devRef .tc main_arg6) = m ((c : Thread nD τ).loc main_arg6)
  a7 : W (Proc.devRef .tc main_arg7) = m ((c : Thread nD τ).loc main_arg7)
  a8 : W (Proc.devRef .tc main_arg8) = m ((c : Thread nD τ).loc main_arg8)
  a9 : W (Proc.devRef .tc main_arg9) = m ((c : Thread nD τ).loc main_arg9)
  a10 : W (Proc.devRef .tc main_arg10) = m ((c : Thread nD τ).loc main_arg10)
  dg : W (Proc.devRef .tc main_v8) = invDeg (m ((c : Thread nD τ).loc main_arg9))
  gc : W (Proc.devRef .tc main_v17) = invCount (m ((c : Thread nD τ).loc main_arg10))

/-- After the first stretch: the arguments untouched, the two columns as that stretch computes them. -/
theorem keeps1 (c : Dev nD) : Keeps m c (W1 (F := Ideal) m ρ c) where
  a1 := (by host_keeps : StableHlo.after hostOps0 (W0 m ρ c) (Proc.devRef .tc main_arg1) = W0 m ρ c (Proc.devRef .tc main_arg1))
  a3 := (by host_keeps : StableHlo.after hostOps0 (W0 m ρ c) (Proc.devRef .tc main_arg3) = W0 m ρ c (Proc.devRef .tc main_arg3))
  a4 := (by host_keeps : StableHlo.after hostOps0 (W0 m ρ c) (Proc.devRef .tc main_arg4) = W0 m ρ c (Proc.devRef .tc main_arg4))
  a5 := (by host_keeps : StableHlo.after hostOps0 (W0 m ρ c) (Proc.devRef .tc main_arg5) = W0 m ρ c (Proc.devRef .tc main_arg5))
  a6 := (by host_keeps : StableHlo.after hostOps0 (W0 m ρ c) (Proc.devRef .tc main_arg6) = W0 m ρ c (Proc.devRef .tc main_arg6))
  a7 := (by host_keeps : StableHlo.after hostOps0 (W0 m ρ c) (Proc.devRef .tc main_arg7) = W0 m ρ c (Proc.devRef .tc main_arg7))
  a8 := (by host_keeps : StableHlo.after hostOps0 (W0 m ρ c) (Proc.devRef .tc main_arg8) = W0 m ρ c (Proc.devRef .tc main_arg8))
  a9 := (by host_keeps : StableHlo.after hostOps0 (W0 m ρ c) (Proc.devRef .tc main_arg9) = W0 m ρ c (Proc.devRef .tc main_arg9))
  a10 := (by host_keeps : StableHlo.after hostOps0 (W0 m ρ c) (Proc.devRef .tc main_arg10) = W0 m ρ c (Proc.devRef .tc main_arg10))
  dg := by
    show StableHlo.after hostOps0 (W0 m ρ c) (Proc.devRef .tc main_v8) = _
    after_results; rfl
  gc := by
    show StableHlo.after hostOps0 (W0 m ρ c) (Proc.devRef .tc main_v17) = _
    after_results; rfl

/-- Over a region: none of the kept buffers is one of its output arrays. -/
theorem keeps2 (c : Dev nD) (h : Keeps m c (W1 (F := Ideal) m ρ c)) : Keeps m c (W2 (F := Ideal) m ρ c) where
  a1 := (W2_of_ne m ρ c main_arg1 (by decide)).trans h.a1
  a3 := (W2_of_ne m ρ c main_arg3 (by decide)).trans h.a3
  a4 := (W2_of_ne m ρ c main_arg4 (by decide)).trans h.a4
  a5 := (W2_of_ne m ρ c main_arg5 (by decide)).trans h.a5
  a6 := (W2_of_ne m ρ c main_arg6 (by decide)).trans h.a6
  a7 := (W2_of_ne m ρ c main_arg7 (by decide)).trans h.a7
  a8 := (W2_of_ne m ρ c main_arg8 (by decide)).trans h.a8
  a9 := (W2_of_ne m ρ c main_arg9 (by decide)).trans h.a9
  a10 := (W2_of_ne m ρ c main_arg10 (by decide)).trans h.a10
  dg := (W2_of_ne m ρ c main_v8 (by decide)).trans h.dg
  gc := (W2_of_ne m ρ c main_v17 (by decide)).trans h.gc

/-- Over a host stretch: none of its operations writes a kept buffer. -/
theorem keeps3 (c : Dev nD) (h : Keeps m c (W2 (F := Ideal) m ρ c)) : Keeps m c (W3 (F := Ideal) m ρ c) where
  a1 := (by host_keeps : StableHlo.after hostOps1 (W2 m ρ c) (Proc.devRef .tc main_arg1) = W2 m ρ c (Proc.devRef .tc main_arg1)).trans h.a1
  a3 := (by host_keeps : StableHlo.after hostOps1 (W2 m ρ c) (Proc.devRef .tc main_arg3) = W2 m ρ c (Proc.devRef .tc main_arg3)).trans h.a3
  a4 := (by host_keeps : StableHlo.after hostOps1 (W2 m ρ c) (Proc.devRef .tc main_arg4) = W2 m ρ c (Proc.devRef .tc main_arg4)).trans h.a4
  a5 := (by host_keeps : StableHlo.after hostOps1 (W2 m ρ c) (Proc.devRef .tc main_arg5) = W2 m ρ c (Proc.devRef .tc main_arg5)).trans h.a5
  a6 := (by host_keeps : StableHlo.after hostOps1 (W2 m ρ c) (Proc.devRef .tc main_arg6) = W2 m ρ c (Proc.devRef .tc main_arg6)).trans h.a6
  a7 := (by host_keeps : StableHlo.after hostOps1 (W2 m ρ c) (Proc.devRef .tc main_arg7) = W2 m ρ c (Proc.devRef .tc main_arg7)).trans h.a7
  a8 := (by host_keeps : StableHlo.after hostOps1 (W2 m ρ c) (Proc.devRef .tc main_arg8) = W2 m ρ c (Proc.devRef .tc main_arg8)).trans h.a8
  a9 := (by host_keeps : StableHlo.after hostOps1 (W2 m ρ c) (Proc.devRef .tc main_arg9) = W2 m ρ c (Proc.devRef .tc main_arg9)).trans h.a9
  a10 := (by host_keeps : StableHlo.after hostOps1 (W2 m ρ c) (Proc.devRef .tc main_arg10) = W2 m ρ c (Proc.devRef .tc main_arg10)).trans h.a10
  dg := (by host_keeps : StableHlo.after hostOps1 (W2 m ρ c) (Proc.devRef .tc main_v8) = W2 m ρ c (Proc.devRef .tc main_v8)).trans h.dg
  gc := (by host_keeps : StableHlo.after hostOps1 (W2 m ρ c) (Proc.devRef .tc main_v17) = W2 m ρ c (Proc.devRef .tc main_v17)).trans h.gc

/-- Over a region: none of the kept buffers is one of its output arrays. -/
theorem keeps4 (c : Dev nD) (h : Keeps m c (W3 (F := Ideal) m ρ c)) : Keeps m c (W4 (F := Ideal) m ρ c) where
  a1 := ((W4_arr m ρ c 2).trans (((dat1 (V3 m ρ) c).arrAt_in 2 rfl _).trans (A_eq1 (V3 m ρ) c 2))).trans h.a1
  a3 := (W4_of_ne m ρ c main_arg3 (by decide)).trans h.a3
  a4 := (W4_of_ne m ρ c main_arg4 (by decide)).trans h.a4
  a5 := (W4_of_ne m ρ c main_arg5 (by decide)).trans h.a5
  a6 := (W4_of_ne m ρ c main_arg6 (by decide)).trans h.a6
  a7 := (W4_of_ne m ρ c main_arg7 (by decide)).trans h.a7
  a8 := (W4_of_ne m ρ c main_arg8 (by decide)).trans h.a8
  a9 := (W4_of_ne m ρ c main_arg9 (by decide)).trans h.a9
  a10 := (W4_of_ne m ρ c main_arg10 (by decide)).trans h.a10
  dg := (W4_of_ne m ρ c main_v8 (by decide)).trans h.dg
  gc := (W4_of_ne m ρ c main_v17 (by decide)).trans h.gc

/-- Over a host stretch: none of its operations writes a kept buffer. -/
theorem keeps5 (c : Dev nD) (h : Keeps m c (W4 (F := Ideal) m ρ c)) : Keeps m c (W5 (F := Ideal) m ρ c) where
  a1 := (by host_keeps : StableHlo.after hostOps2 (W4 m ρ c) (Proc.devRef .tc main_arg1) = W4 m ρ c (Proc.devRef .tc main_arg1)).trans h.a1
  a3 := (by host_keeps : StableHlo.after hostOps2 (W4 m ρ c) (Proc.devRef .tc main_arg3) = W4 m ρ c (Proc.devRef .tc main_arg3)).trans h.a3
  a4 := (by host_keeps : StableHlo.after hostOps2 (W4 m ρ c) (Proc.devRef .tc main_arg4) = W4 m ρ c (Proc.devRef .tc main_arg4)).trans h.a4
  a5 := (by host_keeps : StableHlo.after hostOps2 (W4 m ρ c) (Proc.devRef .tc main_arg5) = W4 m ρ c (Proc.devRef .tc main_arg5)).trans h.a5
  a6 := (by host_keeps : StableHlo.after hostOps2 (W4 m ρ c) (Proc.devRef .tc main_arg6) = W4 m ρ c (Proc.devRef .tc main_arg6)).trans h.a6
  a7 := (by host_keeps : StableHlo.after hostOps2 (W4 m ρ c) (Proc.devRef .tc main_arg7) = W4 m ρ c (Proc.devRef .tc main_arg7)).trans h.a7
  a8 := (by host_keeps : StableHlo.after hostOps2 (W4 m ρ c) (Proc.devRef .tc main_arg8) = W4 m ρ c (Proc.devRef .tc main_arg8)).trans h.a8
  a9 := (by host_keeps : StableHlo.after hostOps2 (W4 m ρ c) (Proc.devRef .tc main_arg9) = W4 m ρ c (Proc.devRef .tc main_arg9)).trans h.a9
  a10 := (by host_keeps : StableHlo.after hostOps2 (W4 m ρ c) (Proc.devRef .tc main_arg10) = W4 m ρ c (Proc.devRef .tc main_arg10)).trans h.a10
  dg := (by host_keeps : StableHlo.after hostOps2 (W4 m ρ c) (Proc.devRef .tc main_v8) = W4 m ρ c (Proc.devRef .tc main_v8)).trans h.dg
  gc := (by host_keeps : StableHlo.after hostOps2 (W4 m ρ c) (Proc.devRef .tc main_v17) = W4 m ρ c (Proc.devRef .tc main_v17)).trans h.gc

/-- Over a region: none of the kept buffers is one of its output arrays. -/
theorem keeps6 (c : Dev nD) (h : Keeps m c (W5 (F := Ideal) m ρ c)) : Keeps m c (W6 (F := Ideal) m ρ c) where
  a1 := ((W6_arr m ρ c 2).trans (((dat2 (V5 m ρ) c).arrAt_in 2 rfl _).trans (A_eq2 (V5 m ρ) c 2))).trans h.a1
  a3 := (W6_of_ne m ρ c main_arg3 (by decide)).trans h.a3
  a4 := (W6_of_ne m ρ c main_arg4 (by decide)).trans h.a4
  a5 := (W6_of_ne m ρ c main_arg5 (by decide)).trans h.a5
  a6 := (W6_of_ne m ρ c main_arg6 (by decide)).trans h.a6
  a7 := (W6_of_ne m ρ c main_arg7 (by decide)).trans h.a7
  a8 := (W6_of_ne m ρ c main_arg8 (by decide)).trans h.a8
  a9 := (W6_of_ne m ρ c main_arg9 (by decide)).trans h.a9
  a10 := (W6_of_ne m ρ c main_arg10 (by decide)).trans h.a10
  dg := (W6_of_ne m ρ c main_v8 (by decide)).trans h.dg
  gc := (W6_of_ne m ρ c main_v17 (by decide)).trans h.gc

/-- Over a host stretch: none of its operations writes a kept buffer. -/
theorem keeps7 (c : Dev nD) (h : Keeps m c (W6 (F := Ideal) m ρ c)) : Keeps m c (W7 (F := Ideal) m ρ c) where
  a1 := (by host_keeps : StableHlo.after hostOps3 (W6 m ρ c) (Proc.devRef .tc main_arg1) = W6 m ρ c (Proc.devRef .tc main_arg1)).trans h.a1
  a3 := (by host_keeps : StableHlo.after hostOps3 (W6 m ρ c) (Proc.devRef .tc main_arg3) = W6 m ρ c (Proc.devRef .tc main_arg3)).trans h.a3
  a4 := (by host_keeps : StableHlo.after hostOps3 (W6 m ρ c) (Proc.devRef .tc main_arg4) = W6 m ρ c (Proc.devRef .tc main_arg4)).trans h.a4
  a5 := (by host_keeps : StableHlo.after hostOps3 (W6 m ρ c) (Proc.devRef .tc main_arg5) = W6 m ρ c (Proc.devRef .tc main_arg5)).trans h.a5
  a6 := (by host_keeps : StableHlo.after hostOps3 (W6 m ρ c) (Proc.devRef .tc main_arg6) = W6 m ρ c (Proc.devRef .tc main_arg6)).trans h.a6
  a7 := (by host_keeps : StableHlo.after hostOps3 (W6 m ρ c) (Proc.devRef .tc main_arg7) = W6 m ρ c (Proc.devRef .tc main_arg7)).trans h.a7
  a8 := (by host_keeps : StableHlo.after hostOps3 (W6 m ρ c) (Proc.devRef .tc main_arg8) = W6 m ρ c (Proc.devRef .tc main_arg8)).trans h.a8
  a9 := (by host_keeps : StableHlo.after hostOps3 (W6 m ρ c) (Proc.devRef .tc main_arg9) = W6 m ρ c (Proc.devRef .tc main_arg9)).trans h.a9
  a10 := (by host_keeps : StableHlo.after hostOps3 (W6 m ρ c) (Proc.devRef .tc main_arg10) = W6 m ρ c (Proc.devRef .tc main_arg10)).trans h.a10
  dg := (by host_keeps : StableHlo.after hostOps3 (W6 m ρ c) (Proc.devRef .tc main_v8) = W6 m ρ c (Proc.devRef .tc main_v8)).trans h.dg
  gc := (by host_keeps : StableHlo.after hostOps3 (W6 m ρ c) (Proc.devRef .tc main_v17) = W6 m ρ c (Proc.devRef .tc main_v17)).trans h.gc

/-- Over a region: none of the kept buffers is one of its output arrays. -/
theorem keeps8 (c : Dev nD) (h : Keeps m c (W7 (F := Ideal) m ρ c)) : Keeps m c (W8 (F := Ideal) m ρ c) where
  a1 := ((W8_arr m ρ c 2).trans (((dat3 (V7 m ρ) c).arrAt_in 2 rfl _).trans (A_eq3 (V7 m ρ) c 2))).trans h.a1
  a3 := (W8_of_ne m ρ c main_arg3 (by decide)).trans h.a3
  a4 := (W8_of_ne m ρ c main_arg4 (by decide)).trans h.a4
  a5 := (W8_of_ne m ρ c main_arg5 (by decide)).trans h.a5
  a6 := (W8_of_ne m ρ c main_arg6 (by decide)).trans h.a6
  a7 := (W8_of_ne m ρ c main_arg7 (by decide)).trans h.a7
  a8 := (W8_of_ne m ρ c main_arg8 (by decide)).trans h.a8
  a9 := (W8_of_ne m ρ c main_arg9 (by decide)).trans h.a9
  a10 := (W8_of_ne m ρ c main_arg10 (by decide)).trans h.a10
  dg := (W8_of_ne m ρ c main_v8 (by decide)).trans h.dg
  gc := (W8_of_ne m ρ c main_v17 (by decide)).trans h.gc

/-- Over a host stretch: none of its operations writes a kept buffer. -/
theorem keeps9 (c : Dev nD) (h : Keeps m c (W8 (F := Ideal) m ρ c)) : Keeps m c (W9 (F := Ideal) m ρ c) where
  a1 := (by host_keeps : StableHlo.after hostOps4 (W8 m ρ c) (Proc.devRef .tc main_arg1) = W8 m ρ c (Proc.devRef .tc main_arg1)).trans h.a1
  a3 := (by host_keeps : StableHlo.after hostOps4 (W8 m ρ c) (Proc.devRef .tc main_arg3) = W8 m ρ c (Proc.devRef .tc main_arg3)).trans h.a3
  a4 := (by host_keeps : StableHlo.after hostOps4 (W8 m ρ c) (Proc.devRef .tc main_arg4) = W8 m ρ c (Proc.devRef .tc main_arg4)).trans h.a4
  a5 := (by host_keeps : StableHlo.after hostOps4 (W8 m ρ c) (Proc.devRef .tc main_arg5) = W8 m ρ c (Proc.devRef .tc main_arg5)).trans h.a5
  a6 := (by host_keeps : StableHlo.after hostOps4 (W8 m ρ c) (Proc.devRef .tc main_arg6) = W8 m ρ c (Proc.devRef .tc main_arg6)).trans h.a6
  a7 := (by host_keeps : StableHlo.after hostOps4 (W8 m ρ c) (Proc.devRef .tc main_arg7) = W8 m ρ c (Proc.devRef .tc main_arg7)).trans h.a7
  a8 := (by host_keeps : StableHlo.after hostOps4 (W8 m ρ c) (Proc.devRef .tc main_arg8) = W8 m ρ c (Proc.devRef .tc main_arg8)).trans h.a8
  a9 := (by host_keeps : StableHlo.after hostOps4 (W8 m ρ c) (Proc.devRef .tc main_arg9) = W8 m ρ c (Proc.devRef .tc main_arg9)).trans h.a9
  a10 := (by host_keeps : StableHlo.after hostOps4 (W8 m ρ c) (Proc.devRef .tc main_arg10) = W8 m ρ c (Proc.devRef .tc main_arg10)).trans h.a10
  dg := (by host_keeps : StableHlo.after hostOps4 (W8 m ρ c) (Proc.devRef .tc main_v8) = W8 m ρ c (Proc.devRef .tc main_v8)).trans h.dg
  gc := (by host_keeps : StableHlo.after hostOps4 (W8 m ρ c) (Proc.devRef .tc main_v17) = W8 m ρ c (Proc.devRef .tc main_v17)).trans h.gc

/-- Over a region: none of the kept buffers is one of its output arrays. -/
theorem keeps10 (c : Dev nD) (h : Keeps m c (W9 (F := Ideal) m ρ c)) : Keeps m c (W10 (F := Ideal) m ρ c) where
  a1 := ((W10_arr m ρ c 2).trans (((dat4 (V9 m ρ) c).arrAt_in 2 rfl _).trans (A_eq4 (V9 m ρ) c 2))).trans h.a1
  a3 := (W10_of_ne m ρ c main_arg3 (by decide)).trans h.a3
  a4 := (W10_of_ne m ρ c main_arg4 (by decide)).trans h.a4
  a5 := (W10_of_ne m ρ c main_arg5 (by decide)).trans h.a5
  a6 := (W10_of_ne m ρ c main_arg6 (by decide)).trans h.a6
  a7 := (W10_of_ne m ρ c main_arg7 (by decide)).trans h.a7
  a8 := (W10_of_ne m ρ c main_arg8 (by decide)).trans h.a8
  a9 := (W10_of_ne m ρ c main_arg9 (by decide)).trans h.a9
  a10 := (W10_of_ne m ρ c main_arg10 (by decide)).trans h.a10
  dg := (W10_of_ne m ρ c main_v8 (by decide)).trans h.dg
  gc := (W10_of_ne m ρ c main_v17 (by decide)).trans h.gc

/-- Over a region: none of the kept buffers is one of its output arrays. -/
theorem keeps11 (c : Dev nD) (h : Keeps m c (W10 (F := Ideal) m ρ c)) : Keeps m c (W11 (F := Ideal) m ρ c) where
  a1 := (W11_of_ne m ρ c main_arg1 (by decide)).trans h.a1
  a3 := (W11_of_ne m ρ c main_arg3 (by decide)).trans h.a3
  a4 := (W11_of_ne m ρ c main_arg4 (by decide)).trans h.a4
  a5 := ((W11_arr m ρ c 1).trans (((dat5 (V10 m ρ) c).arrAt_in 1 rfl _).trans (A_eq5 (V10 m ρ) c 1))).trans h.a5
  a6 := (W11_of_ne m ρ c main_arg6 (by decide)).trans h.a6
  a7 := (W11_of_ne m ρ c main_arg7 (by decide)).trans h.a7
  a8 := (W11_of_ne m ρ c main_arg8 (by decide)).trans h.a8
  a9 := (W11_of_ne m ρ c main_arg9 (by decide)).trans h.a9
  a10 := (W11_of_ne m ρ c main_arg10 (by decide)).trans h.a10
  dg := (W11_of_ne m ρ c main_v8 (by decide)).trans h.dg
  gc := (W11_of_ne m ρ c main_v17 (by decide)).trans h.gc

/-- Over a host stretch: none of its operations writes a kept buffer. -/
theorem keeps12 (c : Dev nD) (h : Keeps m c (W11 (F := Ideal) m ρ c)) : Keeps m c (W12 (F := Ideal) m ρ c) where
  a1 := (by host_keeps : StableHlo.after hostOps6 (W11 m ρ c) (Proc.devRef .tc main_arg1) = W11 m ρ c (Proc.devRef .tc main_arg1)).trans h.a1
  a3 := (by host_keeps : StableHlo.after hostOps6 (W11 m ρ c) (Proc.devRef .tc main_arg3) = W11 m ρ c (Proc.devRef .tc main_arg3)).trans h.a3
  a4 := (by host_keeps : StableHlo.after hostOps6 (W11 m ρ c) (Proc.devRef .tc main_arg4) = W11 m ρ c (Proc.devRef .tc main_arg4)).trans h.a4
  a5 := (by host_keeps : StableHlo.after hostOps6 (W11 m ρ c) (Proc.devRef .tc main_arg5) = W11 m ρ c (Proc.devRef .tc main_arg5)).trans h.a5
  a6 := (by host_keeps : StableHlo.after hostOps6 (W11 m ρ c) (Proc.devRef .tc main_arg6) = W11 m ρ c (Proc.devRef .tc main_arg6)).trans h.a6
  a7 := (by host_keeps : StableHlo.after hostOps6 (W11 m ρ c) (Proc.devRef .tc main_arg7) = W11 m ρ c (Proc.devRef .tc main_arg7)).trans h.a7
  a8 := (by host_keeps : StableHlo.after hostOps6 (W11 m ρ c) (Proc.devRef .tc main_arg8) = W11 m ρ c (Proc.devRef .tc main_arg8)).trans h.a8
  a9 := (by host_keeps : StableHlo.after hostOps6 (W11 m ρ c) (Proc.devRef .tc main_arg9) = W11 m ρ c (Proc.devRef .tc main_arg9)).trans h.a9
  a10 := (by host_keeps : StableHlo.after hostOps6 (W11 m ρ c) (Proc.devRef .tc main_arg10) = W11 m ρ c (Proc.devRef .tc main_arg10)).trans h.a10
  dg := (by host_keeps : StableHlo.after hostOps6 (W11 m ρ c) (Proc.devRef .tc main_v8) = W11 m ρ c (Proc.devRef .tc main_v8)).trans h.dg
  gc := (by host_keeps : StableHlo.after hostOps6 (W11 m ρ c) (Proc.devRef .tc main_v17) = W11 m ρ c (Proc.devRef .tc main_v17)).trans h.gc

end Cert.Sage.Fold

end
-- ==== Proof.LibMergeRows.lean ====
/-
  A reshape that merges the two leading axes of a three-axis array into one, or splits them again, read at coordinates.

  Row-major order puts entry (p, q, k) of an [a, b, c] array at position (p·b + q)·c + k, and entry (r, k) of an [n, c]
  array at r·c + k; a reshape keeps positions.  So with r = p·b + q the two arrays hold the same value at (p, q, k) and
  (r, k), in either direction.  The row count n is a parameter of its own (with n = a·b implied by the reshape being
  legal), so that the lemmas apply to shapes written with literal sizes.
-/
import Idealize.ShloMosaic.Lib.Pipeline.Value
import Idealize.ShloMosaic.Lib.ValueIdx

namespace Cert.LibMergeRows

open Idealize.ShloMosaic Idealize.ShloMosaic.ValueIdx

variable {α : Type}

/-- An [a, b, c] array reshaped to [n, c] reads, at (r, k) with r = p·b + q, the operand at (p, q, k). -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (k : Fin c) (r : Fin n)
    (hr : r.val = p.val * b + q.val) :
    shapeCast ⟨2, ![n, c]⟩ x h (ix2 r k) = x (ix3 p q k) :=
  shapeCast_apply x h _ _ (by
    rw [Shape.rowMajor_val_two, Shape.rowMajor_val_three]
    show (p.val * b + q.val) * c + k.val = r.val * c + k.val
    rw [hr])

/-- An [n, c] array reshaped to [a, b, c] reads, at (p, q, k), the operand at (r, k) with r = p·b + q. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (k : Fin c) (r : Fin n)
    (hr : r.val = p.val * b + q.val) :
    shapeCast ⟨3, ![a, b, c]⟩ x h (ix3 p q k) = x (ix2 r k) :=
  shapeCast_apply x h _ _ (by
    rw [Shape.rowMajor_val_two, Shape.rowMajor_val_three]
    show r.val * c + k.val = (p.val * b + q.val) * c + k.val
    rw [hr])

end Cert.LibMergeRows
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.WeightSlabs.lean ====
/-
  The host's views of the layer weights, read entry by entry. Before each node update the host cuts two
  128×128 slabs out of W[l] (rows 0..127 and rows 128..255), and the layer's bias out of b[l], by a slice
  followed by a reshape (and, for the bias, a re-broadcast as a row); before the prediction head it reshapes
  the one-entry bias to 1×1. Each of these arrays is the argument array read at shifted coordinates.
-/
import proofs.«153788_j67645734912961_1_alg».proof.Proof.Spec
import proofs.«153788_j67645734912961_1_alg».proof.Proof.LibMergeRows
import proofs.«153788_j67645734912961_1_alg».proof.Proof.LibBroadcastInDim
import Idealize.ShloMosaic.Lib.Pipeline.Value
import Idealize.ShloMosaic.Lib.ValueIdx

noncomputable section

namespace Cert.Sage.Slabs

open Idealize.ShloMosaic Idealize.ShloMosaic.ValueIdx Cert.KernelIdeal Cert.KernelIdeal.Gen

/-- Slab (l, rows o..o+127) of W, reshaped to 128×128, at (r, k) is W at (l, o + r, k). -/
theorem slab_apply (W : FVec Ideal S4x256x128 .f32) (l o : ℕ) (hl : l < 4) (ho : o + 128 ≤ 256)
    (h : S4x256x128.Slices ![l, o, 0] S1x128x128) (h' : S1x128x128.ShapeCasts S128x128) (r k : Fin 128) :
    shapeCast S128x128 (extractStridedSlice S1x128x128 ![l, o, 0] W h) h' (ix2 r k)
      = W (ix3 ⟨l, hl⟩ ⟨o + r.val, by have := r.isLt; omega⟩ k) := by
  rw [Cert.LibMergeRows.shapeCast_abc_nc_apply _ h' (0 : Fin 1) r k r (by simp)]
  refine extractStridedSlice_apply _ W h _ _ fun a => ?_
  match a with
  | ⟨0, _⟩ => rfl
  | ⟨1, _⟩ => rfl
  | ⟨2, _⟩ => show k.val = 0 + k.val; omega

/-- The slab of rows 0..127 of W[l] is `wSelf W l`. -/
theorem wSelf_eq (W : FVec Ideal S4x256x128 .f32) (l : ℕ) (hl : l < 4)
    (h : S4x256x128.Slices ![l, 0, 0] S1x128x128) (h' : S1x128x128.ShapeCasts S128x128) :
    shapeCast S128x128 (extractStridedSlice S1x128x128 ![l, 0, 0] W h) h' = wSelf W ⟨l, hl⟩ := by
  funext i
  obtain ⟨r, k, rfl⟩ : ∃ (r k : Fin 128), i = ix2 r k := ⟨i 0, i 1, eq_ix2 i⟩
  rw [slab_apply W l 0 hl (by omega) h h' r k]
  simp only [Nat.zero_add]
  rfl

/-- The slab of rows 128..255 of W[l] is `wNbr W l`. -/
theorem wNbr_eq (W : FVec Ideal S4x256x128 .f32) (l : ℕ) (hl : l < 4)
    (h : S4x256x128.Slices ![l, 128, 0] S1x128x128) (h' : S1x128x128.ShapeCasts S128x128) :
    shapeCast S128x128 (extractStridedSlice S1x128x128 ![l, 128, 0] W h) h' = wNbr W ⟨l, hl⟩ := by
  funext i
  obtain ⟨r, k, rfl⟩ : ∃ (r k : Fin 128), i = ix2 r k := ⟨i 0, i 1, eq_ix2 i⟩
  rw [slab_apply W l 128 hl (by omega) h h' r k]
  rfl

/-- Row l of b, cut out, flattened and set as a 1×128 row, is `biasRow b l`. -/
theorem biasRow_eq (b : FVec Ideal S4x128 .f32) (l : ℕ) (hl : l < 4)
    (h : S4x128.Slices ![l, 0] S1x128) (h' : S1x128.ShapeCasts S128)
    (h'' : S128.BroadcastsInDim S1x128 (![1] : Fin 1 → Fin 2)) :
    broadcastInDim S1x128 ![1] h'' (shapeCast S128 (extractStridedSlice S1x128 ![l, 0] b h) h') = biasRow b ⟨l, hl⟩ := by
  funext i
  obtain ⟨u, q, rfl⟩ : ∃ (u : Fin 1) (q : Fin 128), i = ix2 u q := ⟨i 0, i 1, eq_ix2 i⟩
  rw [Cert.Lib.BroadcastInDim.vec_row_apply h'' _ u q]
  rw [shapeCast_apply _ h' (ix1 q) (ix2 (0 : Fin 1) q) (by
    rw [Shape.rowMajor_val_two, Shape.rowMajor_val_one]
    show 0 * 128 + q.val = q.val
    omega)]
  refine extractStridedSlice_apply _ b h _ (ix2 ⟨l, hl⟩ q) fun a => ?_
  match a with
  | ⟨0, _⟩ => rfl
  | ⟨1, _⟩ => show q.val = 0 + q.val; omega

/-- The one-entry bias reshaped to 1×1 is `biasCell b`. -/
theorem biasCell_eq (b : FVec Ideal S1 .f32) (h : S1.ShapeCasts S1x1) : shapeCast S1x1 b h = biasCell b := by
  funext i
  refine shapeCast_apply b h i (ix1 0) ?_
  have h1 := (S1.rowMajor (ix1 (0 : Fin 1))).isLt
  have h2 := (S1x1.rowMajor i).isLt
  have e1 : S1.numel = 1 := rfl
  have e2 : S1x1.numel = 1 := rfl
  omega

end Cert.Sage.Slabs

end
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.RegionEmbed.lean ====
/-
  The first region of the kernel program as a value: the input embedding.

  The region walks 64 grid points. At point t it reads rows 2048·t … 2048·t + 2047 of the 131072×28 feature
  array and the whole 28×128 weight, multiplies them (a change of float format is the identity on the extended
  reals, and a product into the zero accumulator is the plain sum of products), and writes the 2048×128 result
  back as rows 2048·t … 2048·t + 2047 of the output array. Row r of the output is therefore written by point
  r / 2048 and holds Σ_k x(r,k)·W(k,j): the output array is `embed` of the two input arrays.
-/
import proofs.«153788_j67645734912961_1_alg».proof.Proof.Spec
import proofs.«153788_j67645734912961_1_alg».proof.Proof.LibPlainDot
import proofs.«153788_j67645734912961_1_alg».proof.Proof.Gen.KernelIdeal.Frame
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.Sage.Regions

open Cert.KernelIdeal Cert.KernelIdeal.Gen Cert.Lib.PlainDot

variable (V : (c : Dev nD) → (b : Ref sig .tc) → Buf (Elt Ideal) ((c : Thread nD τ).loc b))

/-- The zero offsets of a whole-block access, as a constant function. -/
theorem embed_hz : (![0, 0] : Fin 2 → Nat) = fun _ => 0 := funext fun a => by fin_cases a <;> rfl

/-- What the body stores, read at entry (p, q) of the block: the 28-term sum of products of row p of the
    loaded feature block and column q of the loaded weight. -/
theorem embed_pay (x0 : Vec Ideal S2048x28 .f32) (x1 : Vec Ideal S28x128 .f32) (p : Fin 2048) (q : Fin 128) :
    k0_pay1 x0 x1 (ix2 p q) = ∑ k : Fin 28, x0 (ix2 p k) * x1 (ix2 k q) := by
  unfold k0_pay1
  exact matmul_plain_zero_apply (M := 2048) (K := 28) (N := 128) none
    (truncf .bf16 x0 bitsLt_bf16_f32) (truncf .bf16 x1 bitsLt_bf16_f32) p q

/-- The same entry as an entry of `embed` of two arrays, when row p of the feature block is row (i 0) of the
    feature array and the weight block is the weight array. -/
theorem embed_point (A0 : FVec Ideal S131072x28 .f32) (A1 : FVec Ideal S28x128 .f32)
    (x0 : Vec Ideal S2048x28 .f32) (x1 : Vec Ideal S28x128 .f32) (i : S131072x128.Idx) (p : Fin 2048) (q : Fin 128)
    (h0 : ∀ k : Fin 28, x0 (ix2 p k) = A0 (ix2 (i 0) k))
    (h1 : ∀ k : Fin 28, x1 (ix2 k q) = A1 (ix2 k (i 1))) :
    k0_pay1 x0 x1 (ix2 p q) = embed A0 A1 i := by
  rw [embed_pay]
  show _ = ∑ k : Fin 28, A0 (ix2 (i 0) k) * A1 (ix2 k (i 1))
  exact Finset.sum_congr rfl fun k _ => by rw [h0 k, h1 k]

/-- The printed block-index maps over the grid: the feature window and the output window are at block (t, 0)
    at point t, the weight window at block (0, 0). -/
theorem embed_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `embed` of the two input arrays as the region finds them. -/
theorem embed_flushed (c : Dev nD) (t : Fin cfg0.N) :
    (dat0 V c).flushed 2 t = ((cfg0.win 2).blk t).view.read (Elt Ideal)
      (embed (V c (Pipeline.arrRef spec0 0)) (V c (Pipeline.arrRef spec0 1))) := by
  show (cfg0.win 2).cut (grid0.coords t) ((dat0 V c).after 2 t) = _
  rw [after0_2]
  unfold out0_2
  rw [View.canon_unit_zero embed_hz]
  simp only [View.ld_unit_zero (S := S2048x28) embed_hz, View.ld_unit_zero (S := S28x128) embed_hz]
  obtain ⟨e0, e1, e2, e3, e4, e5⟩ := embed_idx t
  funext j
  obtain ⟨p, q, rfl⟩ : ∃ (p : Fin 2048) (q : Fin 128), j = ix2 p q := ⟨j 0, j 1, eq_ix2 j⟩
  refine embed_point (V c (Pipeline.arrRef spec0 0)) (V c (Pipeline.arrRef spec0 1)) (iblk0 V c 0 t) (iblk0 V c 1 t)
    (((cfg0.win 2).blk t).view.emb (ix2 p q)) p q (fun k => ?_) (fun k => ?_)
  · show V c (Pipeline.arrRef spec0 0) (((cfg0.win 0).blk t).view.emb (ix2 p k)) = V c (Pipeline.arrRef spec0 0) _
    refine congrArg _ (funext fun a => Fin.ext ?_)
    match a with
    | ⟨0, _⟩ => show win0_0.index t (0 : Fin 2) * 2048 + 1 * p.val = win0_2.index t (0 : Fin 2) * 2048 + 1 * p.val; omega
    | ⟨1, _⟩ => show win0_0.index t (1 : Fin 2) * 28 + 1 * k.val = k.val; omega
  · show V c (Pipeline.arrRef spec0 1) (((cfg0.win 1).blk t).view.emb (ix2 k q)) = V c (Pipeline.arrRef spec0 1) _
    refine congrArg _ (funext fun a => Fin.ext ?_)
    match a with
    | ⟨0, _⟩ => show win0_1.index t (0 : Fin 2) * 28 + 1 * k.val = k.val; omega
    | ⟨1, _⟩ => show win0_1.index t (1 : Fin 2) * 128 + 1 * q.val = win0_2.index t (1 : Fin 2) * 128 + 1 * q.val; omega

/-- An index of the output array is in point t's block iff each coordinate is in the block's range on its axis. -/
theorem embed_mem_blk (t : Fin cfg0.N) (i : S131072x128.Idx) :
    i ∈ ((cfg0.win 2).blk t).view.set ↔ ∀ a : Fin 2, win0_2.index t a * S2048x128.size a ≤ (i a).val
      ∧ (i a).val < win0_2.index t a * S2048x128.size a + S2048x128.size a := by
  show i ∈ ((View.whole main_v18).slice (win0_2.rect t)).set ↔ _
  rw [View.set_slice_whole, Rect.mem_set_unit]
  exact Iff.rfl

/-- Every index of the output array is in some point's block: row r is in the block of point r / 2048. -/
theorem embed_cover (i : S131072x128.Idx) :
    ∃ t : Fin cfg0.N, (cfg0.win 2).flush t = true ∧ i ∈ ((cfg0.win 2).blk t).view.set := by
  have hi0 : (i 0).val < 131072 := (i 0).isLt
  have hi1 : (i 1).val < 128 := (i 1).isLt
  have hN : cfg0.N = 64 := N_0
  obtain ⟨t, ht⟩ : ∃ t : Fin cfg0.N, t.val = (i 0).val / 2048 := ⟨⟨(i 0).val / 2048, by rw [hN]; omega⟩, rfl⟩
  obtain ⟨e0, e1, e2, e3, e4, e5⟩ := embed_idx t
  refine ⟨t, flush0_2 t, ?_⟩
  rw [embed_mem_blk]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- The output array after the region is `embed` of the two input arrays as the region finds them. -/
theorem region0_value (c : Dev nD) :
    (dat0 (F := Ideal) V c).arrAt 2 cfg0.N = embed (V c (Pipeline.arrRef spec0 0)) (V c (Pipeline.arrRef spec0 1)) :=
  (dat0 V c).arrAt_eq_of_cover 2 _ (fun t _ => embed_flushed V c t) embed_cover

end Cert.Sage.Regions

end
-- ==== Proof.LibKeepdims.lean ====
/-
  Layout operations of a row reduction that keeps its axis, read at an index given by coordinates: a vector
  [a] cast to a column [a, 1]; a column [a, 1] broadcast over b lanes to [a, b]; the index a reduction over the
  last axis of a matrix puts back; and the float sum over a matrix's last axis, at exact arithmetic, as the sum
  of a row. Each is the library's general lemma with the per-axis arithmetic discharged for these shapes.
-/
import Idealize.ShloMosaic.Lib.ValueLayout
import Idealize.ShloMosaic.PureOps.Ideal.Laws

namespace Cert.Lib.Keepdims

open Idealize.ShloMosaic Idealize.ShloMosaic.ValueIdx

variable {α : Type}

/-- An [a] array cast to the column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column broadcast over b lanes to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a reduction over a matrix's last axis puts back over row p, at coordinate k, is (p, k). -/
theorem lift_lastAxis {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A float sum over a matrix's last axis from the zero word, at exact arithmetic, is at row p the sum of that
    row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lastAxis h p k)

end Cert.Lib.Keepdims
-- ==== Proof.RegionNode1.lean ====
/-
  Region 1 of the kernel program as a value: one layer's node update.

  The region walks 64 grid points. At point t it reads rows 2048·t … 2048·t + 2047 of the node features x,
  of the aggregated features c and of the per-node scale s, and the whole of the two 128×128 weights and of
  the 1×128 bias row. On the extended reals a change of float format and a cast of a shape to itself are the
  identity and a product into the zero accumulator is the plain sum of products, so entry (p, j) of what the
  point stores is
      max (Σ_k x(p,k)·Wh(k,j) + Σ_k c(p,k)·Wc(k,j) + b(0,j)) 0 · s(p,0) + x(p,j)
  over the rows of its blocks; it is written back as rows 2048·t … 2048·t + 2047 of the output array. Row r
  of the output is therefore written by point r / 2048, and the output array is `nodeApply` of the six input
  arrays.
-/
import proofs.«153788_j67645734912961_1_alg».proof.Proof.Spec
import proofs.«153788_j67645734912961_1_alg».proof.Proof.LibPlainDot
import proofs.«153788_j67645734912961_1_alg».proof.Proof.Gen.KernelIdeal.Frame
import proofs.«153788_j67645734912961_1_alg».proof.Proof.LibKeepdims
import Idealize.ShloMosaic.Lib.Pipeline.Value
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.Sage.Regions

open Cert.KernelIdeal Cert.KernelIdeal.Gen Cert.Lib.PlainDot

variable (V : (c : Dev nD) → (b : Ref sig .tc) → Buf (Elt Ideal) ((c : Thread nD τ).loc b))

/-- The zero offsets of a whole-block access, as a constant function. -/
theorem node1_hz : (![0, 0] : Fin 2 → Nat) = fun _ => 0 := funext fun a => by fin_cases a <;> rfl

/-- A 2048×128 block times a 128×128 weight into the zero accumulator, at entry (p, q): the 128-term sum of
    products of the block's row p and the weight's column q. -/
theorem node1_mm (A : Vec Ideal S2048x128 .f32) (B : Vec Ideal S128x128 .f32) (p : Fin 2048) (q : Fin 128) :
    matmul (F := Ideal) dot_S2048x128_S128x128_S2048x128_1_0_0_1_n_n none
        (truncf .bf16 A bitsLt_bf16_f32) (truncf .bf16 B bitsLt_bf16_f32)
        (constant S2048x128 .f32 0x00000000#32) (ix2 p q)
      = ∑ k : Fin 128, A (ix2 p k) * B (ix2 k q) := matmul_plain_zero_apply (M := 2048) (K := 128) (N := 128) none
    (truncf .bf16 A bitsLt_bf16_f32) (truncf .bf16 B bitsLt_bf16_f32) p q

/-- The bias row spread over the 2048 rows reads, at (p, q), the row's entry q. -/
theorem node1_bias (b : Vec Ideal S1x128 .f32) (p : Fin 2048) (q : Fin 128) :
    broadcastTo S2048x128 b broadcasts_S1x128_S2048x128 (ix2 p q) = b (ix2 (0 : Fin 1) q) :=
  broadcastTo_1b_ab_apply (a := 2048) (b := 128) b broadcasts_S1x128_S2048x128 p q

/-- The scale column spread over the 128 lanes reads, at (p, q), the column's entry p. -/
theorem node1_scale (s : Vec Ideal S2048x1 .f32) (p : Fin 2048) (q : Fin 128) :
    broadcastTo S2048x128 s broadcasts_S2048x1_S2048x128 (ix2 p q) = s (ix2 p (0 : Fin 1)) :=
  Cert.Lib.Keepdims.broadcastTo_a1_ab_apply (a := 2048) (b := 128) s broadcasts_S2048x1_S2048x128 p q

/-- The zero word of the rectifier is the extended real 0. -/
theorem node1_zero : (Scalar.ofBits .f32 0x00000000#32 : Ideal .f32) = 0 := Ideal.ofBits_zero_f32

/-- What the body stores, read at entry (p, q) of the block. -/
theorem node1_pay (v0 v3 : Vec Ideal S2048x128 .f32) (v6 v9 : Vec Ideal S128x128 .f32) (v15 : Vec Ideal S1x128 .f32)
    (v21 : Vec Ideal S2048x1 .f32) (v24 : Vec Ideal S2048x128 .f32) (p : Fin 2048) (q : Fin 128) :
    k1_pay1 v0 v3 v6 v9 v15 v21 v24 (ix2 p q)
      = max ((∑ k : Fin 128, v0 (ix2 p k) * v6 (ix2 k q)) + (∑ k : Fin 128, v3 (ix2 p k) * v9 (ix2 k q))
            + v15 (ix2 (0 : Fin 1) q)) 0 * v21 (ix2 p (0 : Fin 1)) + v24 (ix2 p q) := by
  unfold k1_pay1
  simp only [shapeCast_self, addf_apply, mulf_apply, maximumf_apply, broadcast_apply]
  rw [node1_mm, node1_mm, node1_bias, node1_scale, node1_zero]

/-- The same entry as an entry of `nodeApply` of six arrays, when the rows p of the three row blocks are the
    rows (i 0) of their arrays and the weight and bias blocks are their arrays. -/
theorem node1_point (X C : FVec Ideal S131072x128 .f32) (Sn : FVec Ideal S131072x1 .f32)
    (Wh Wc : FVec Ideal S128x128 .f32) (B : FVec Ideal S1x128 .f32)
    (x0 x1 : Vec Ideal S2048x128 .f32) (x2 : Vec Ideal S2048x1 .f32) (x3 x4 : Vec Ideal S128x128 .f32)
    (x5 : Vec Ideal S1x128 .f32) (i : S131072x128.Idx) (p : Fin 2048) (q : Fin 128)
    (h0 : ∀ k : Fin 128, x0 (ix2 p k) = X (ix2 (i 0) k))
    (h0' : x0 (ix2 p q) = X i)
    (h1 : ∀ k : Fin 128, x1 (ix2 p k) = C (ix2 (i 0) k))
    (h2 : x2 (ix2 p (0 : Fin 1)) = Sn (ix2 (i 0) (0 : Fin 1)))
    (h3 : ∀ k : Fin 128, x3 (ix2 k q) = Wh (ix2 k (i 1)))
    (h4 : ∀ k : Fin 128, x4 (ix2 k q) = Wc (ix2 k (i 1)))
    (h5 : x5 (ix2 (0 : Fin 1) q) = B (ix2 (0 : Fin 1) (i 1))) :
    k1_pay1 x0 x1 x3 x4 x5 x2 x0 (ix2 p q) = nodeApply X C Sn Wh Wc B i := by
  rw [node1_pay, h0', h2, h5, Finset.sum_congr rfl fun k _ => show x0 (ix2 p k) * x3 (ix2 k q) = X (ix2 (i 0) k) * Wh (ix2 k (i 1)) by rw [h0 k, h3 k],
    Finset.sum_congr rfl fun k _ => show x1 (ix2 p k) * x4 (ix2 k q) = C (ix2 (i 0) k) * Wc (ix2 k (i 1)) by rw [h1 k, h4 k]]
  rfl

/-- The printed block-index maps over the grid: the three row windows and the output window are at block
    (t, 0) at point t, the weight and bias windows at block (0, 0). -/
theorem node1_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

set_option maxHeartbeats 2000000 in
/-- What point t writes back is block t of `nodeApply` of the six input arrays as the region finds them. -/
theorem node1_flushed (c : Dev nD) (t : Fin cfg1.N) :
    (dat1 V c).flushed 6 t = ((cfg1.win 6).blk t).view.read (Elt Ideal)
      (nodeApply (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero node1_hz]
  simp only [View.ld_unit_zero (S := S2048x128) node1_hz, View.ld_unit_zero (S := S128x128) node1_hz,
    View.ld_unit_zero (S := S1x128) node1_hz, View.ld_unit_zero (S := S2048x1) node1_hz]
  obtain ⟨e00, e01, e10, e11, e20, e21, e30, e31, e40, e41, e50, e51, e60, e61⟩ := node1_idx t
  funext j
  obtain ⟨p, q, rfl⟩ : ∃ (p : Fin 2048) (q : Fin 128), j = ix2 p q := ⟨j 0, j 1, eq_ix2 j⟩
  refine node1_point (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (iblk1 V c 0 t) (iblk1 V c 1 t) (iblk1 V c 2 t) (iblk1 V c 3 t) (iblk1 V c 4 t) (iblk1 V c 5 t)
    (((cfg1.win 6).blk t).view.emb (ix2 p q)) p q (fun k => ?_) ?_ (fun k => ?_) ?_ (fun k => ?_) (fun k => ?_) ?_
  · show V c (Pipeline.arrRef spec1 0) (((cfg1.win 0).blk t).view.emb (ix2 p k)) = V c (Pipeline.arrRef spec1 0) _
    refine congrArg _ (funext fun a => Fin.ext ?_)
    match a with
    | ⟨0, _⟩ => show win1_0.index t (0 : Fin 2) * 2048 + 1 * p.val = win1_6.index t (0 : Fin 2) * 2048 + 1 * p.val; omega
    | ⟨1, _⟩ => show win1_0.index t (1 : Fin 2) * 128 + 1 * k.val = k.val; omega
  · show V c (Pipeline.arrRef spec1 0) (((cfg1.win 0).blk t).view.emb (ix2 p q)) = V c (Pipeline.arrRef spec1 0) _
    refine congrArg _ (funext fun a => Fin.ext ?_)
    match a with
    | ⟨0, _⟩ => show win1_0.index t (0 : Fin 2) * 2048 + 1 * p.val = win1_6.index t (0 : Fin 2) * 2048 + 1 * p.val; omega
    | ⟨1, _⟩ => show win1_0.index t (1 : Fin 2) * 128 + 1 * q.val = win1_6.index t (1 : Fin 2) * 128 + 1 * q.val; omega
  · show V c (Pipeline.arrRef spec1 1) (((cfg1.win 1).blk t).view.emb (ix2 p k)) = V c (Pipeline.arrRef spec1 1) _
    refine congrArg _ (funext fun a => Fin.ext ?_)
    match a with
    | ⟨0, _⟩ => show win1_1.index t (0 : Fin 2) * 2048 + 1 * p.val = win1_6.index t (0 : Fin 2) * 2048 + 1 * p.val; omega
    | ⟨1, _⟩ => show win1_1.index t (1 : Fin 2) * 128 + 1 * k.val = k.val; omega
  · show V c (Pipeline.arrRef spec1 2) (((cfg1.win 2).blk t).view.emb (ix2 p (0 : Fin 1))) = V c (Pipeline.arrRef spec1 2) _
    refine congrArg _ (funext fun a => Fin.ext ?_)
    match a with
    | ⟨0, _⟩ => show win1_2.index t (0 : Fin 2) * 2048 + 1 * p.val = win1_6.index t (0 : Fin 2) * 2048 + 1 * p.val; omega
    | ⟨1, _⟩ => show win1_2.index t (1 : Fin 2) * 1 + 1 * 0 = 0; omega
  · show V c (Pipeline.arrRef spec1 3) (((cfg1.win 3).blk t).view.emb (ix2 k q)) = V c (Pipeline.arrRef spec1 3) _
    refine congrArg _ (funext fun a => Fin.ext ?_)
    match a with
    | ⟨0, _⟩ => show win1_3.index t (0 : Fin 2) * 128 + 1 * k.val = k.val; omega
    | ⟨1, _⟩ => show win1_3.index t (1 : Fin 2) * 128 + 1 * q.val = win1_6.index t (1 : Fin 2) * 128 + 1 * q.val; omega
  · show V c (Pipeline.arrRef spec1 4) (((cfg1.win 4).blk t).view.emb (ix2 k q)) = V c (Pipeline.arrRef spec1 4) _
    refine congrArg _ (funext fun a => Fin.ext ?_)
    match a with
    | ⟨0, _⟩ => show win1_4.index t (0 : Fin 2) * 128 + 1 * k.val = k.val; omega
    | ⟨1, _⟩ => show win1_4.index t (1 : Fin 2) * 128 + 1 * q.val = win1_6.index t (1 : Fin 2) * 128 + 1 * q.val; omega
  · show V c (Pipeline.arrRef spec1 5) (((cfg1.win 5).blk t).view.emb (ix2 (0 : Fin 1) q)) = V c (Pipeline.arrRef spec1 5) _
    refine congrArg _ (funext fun a => Fin.ext ?_)
    match a with
    | ⟨0, _⟩ => show win1_5.index t (0 : Fin 2) * 1 + 1 * 0 = 0; omega
    | ⟨1, _⟩ => show win1_5.index t (1 : Fin 2) * 128 + 1 * q.val = win1_6.index t (1 : Fin 2) * 128 + 1 * q.val; omega

/-- An index of the output array is in point t's block iff each coordinate is in the block's range on its axis. -/
theorem node1_mem_blk (t : Fin cfg1.N) (i : S131072x128.Idx) :
    i ∈ ((cfg1.win 6).blk t).view.set ↔ ∀ a : Fin 2, win1_6.index t a * S2048x128.size a ≤ (i a).val
      ∧ (i a).val < win1_6.index t a * S2048x128.size a + S2048x128.size a := by
  show i ∈ ((View.whole main_v38).slice (win1_6.rect t)).set ↔ _
  rw [View.set_slice_whole, Rect.mem_set_unit]
  exact Iff.rfl

/-- Every index of the output array is in some point's block: row r is in the block of point r / 2048. -/
theorem node1_cover (i : S131072x128.Idx) :
    ∃ t : Fin cfg1.N, (cfg1.win 6).flush t = true ∧ i ∈ ((cfg1.win 6).blk t).view.set := by
  have hi0 : (i 0).val < 131072 := (i 0).isLt
  have hi1 : (i 1).val < 128 := (i 1).isLt
  have hN : cfg1.N = 64 := N_1
  obtain ⟨t, ht⟩ : ∃ t : Fin cfg1.N, t.val = (i 0).val / 2048 := ⟨⟨(i 0).val / 2048, by rw [hN]; omega⟩, rfl⟩
  obtain ⟨e00, e01, e10, e11, e20, e21, e30, e31, e40, e41, e50, e51, e60, e61⟩ := node1_idx t
  refine ⟨t, flush1_6 t, ?_⟩
  rw [node1_mem_blk]
  intro a
  match a with
  | ⟨0, _⟩ => show win1_6.index t (0 : Fin 2) * 2048 ≤ (i 0).val ∧ (i 0).val < win1_6.index t (0 : Fin 2) * 2048 + 2048; omega
  | ⟨1, _⟩ => show win1_6.index t (1 : Fin 2) * 128 ≤ (i 1).val ∧ (i 1).val < win1_6.index t (1 : Fin 2) * 128 + 128; omega

/-- The output array after the region is `nodeApply` of the six input arrays as the region finds them. -/
theorem region1_value (c : Dev nD) :
    (dat1 (F := Ideal) V c).arrAt 6 cfg1.N
      = nodeApply (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 V c).arrAt_eq_of_cover 6 _ (fun t _ => node1_flushed V c t) node1_cover

end Cert.Sage.Regions

end
-- ==== Proof.RegionNode2.lean ====
/-
  Region 2 of the kernel program as a value: one layer's node update.

  The region walks 64 grid points. At point t it reads rows 2048·t … 2048·t + 2047 of the node features x,
  of the aggregated features c and of the per-node scale s, and the whole of the two 128×128 weights and of
  the 1×128 bias row. On the extended reals a change of float format and a cast of a shape to itself are the
  identity and a product into the zero accumulator is the plain sum of products, so entry (p, j) of what the
  point stores is
      max (Σ_k x(p,k)·Wh(k,j) + Σ_k c(p,k)·Wc(k,j) + b(0,j)) 0 · s(p,0) + x(p,j)
  over the rows of its blocks; it is written back as rows 2048·t … 2048·t + 2047 of the output array. Row r
  of the output is therefore written by point r / 2048, and the output array is `nodeApply` of the six input
  arrays.
-/
import proofs.«153788_j67645734912961_1_alg».proof.Proof.Spec
import proofs.«153788_j67645734912961_1_alg».proof.Proof.LibPlainDot
import proofs.«153788_j67645734912961_1_alg».proof.Proof.Gen.KernelIdeal.Frame
import proofs.«153788_j67645734912961_1_alg».proof.Proof.LibKeepdims
import Idealize.ShloMosaic.Lib.Pipeline.Value
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.Sage.Regions

open Cert.KernelIdeal Cert.KernelIdeal.Gen Cert.Lib.PlainDot

variable (V : (c : Dev nD) → (b : Ref sig .tc) → Buf (Elt Ideal) ((c : Thread nD τ).loc b))

/-- The zero offsets of a whole-block access, as a constant function. -/
theorem node2_hz : (![0, 0] : Fin 2 → Nat) = fun _ => 0 := funext fun a => by fin_cases a <;> rfl

/-- A 2048×128 block times a 128×128 weight into the zero accumulator, at entry (p, q): the 128-term sum of
    products of the block's row p and the weight's column q. -/
theorem node2_mm (A : Vec Ideal S2048x128 .f32) (B : Vec Ideal S128x128 .f32) (p : Fin 2048) (q : Fin 128) :
    matmul (F := Ideal) dot_S2048x128_S128x128_S2048x128_1_0_0_1_n_n none
        (truncf .bf16 A bitsLt_bf16_f32) (truncf .bf16 B bitsLt_bf16_f32)
        (constant S2048x128 .f32 0x00000000#32) (ix2 p q)
      = ∑ k : Fin 128, A (ix2 p k) * B (ix2 k q) := matmul_plain_zero_apply (M := 2048) (K := 128) (N := 128) none
    (truncf .bf16 A bitsLt_bf16_f32) (truncf .bf16 B bitsLt_bf16_f32) p q

/-- The bias row spread over the 2048 rows reads, at (p, q), the row's entry q. -/
theorem node2_bias (b : Vec Ideal S1x128 .f32) (p : Fin 2048) (q : Fin 128) :
    broadcastTo S2048x128 b broadcasts_S1x128_S2048x128 (ix2 p q) = b (ix2 (0 : Fin 1) q) :=
  broadcastTo_1b_ab_apply (a := 2048) (b := 128) b broadcasts_S1x128_S2048x128 p q

/-- The scale column spread over the 128 lanes reads, at (p, q), the column's entry p. -/
theorem node2_scale (s : Vec Ideal S2048x1 .f32) (p : Fin 2048) (q : Fin 128) :
    broadcastTo S2048x128 s broadcasts_S2048x1_S2048x128 (ix2 p q) = s (ix2 p (0 : Fin 1)) :=
  Cert.Lib.Keepdims.broadcastTo_a1_ab_apply (a := 2048) (b := 128) s broadcasts_S2048x1_S2048x128 p q

/-- The zero word of the rectifier is the extended real 0. -/
theorem node2_zero : (Scalar.ofBits .f32 0x00000000#32 : Ideal .f32) = 0 := Ideal.ofBits_zero_f32

/-- What the body stores, read at entry (p, q) of the block. -/
theorem node2_pay (v0 v3 : Vec Ideal S2048x128 .f32) (v6 v9 : Vec Ideal S128x128 .f32) (v15 : Vec Ideal S1x128 .f32)
    (v21 : Vec Ideal S2048x1 .f32) (v24 : Vec Ideal S2048x128 .f32) (p : Fin 2048) (q : Fin 128) :
    k2_pay1 v0 v3 v6 v9 v15 v21 v24 (ix2 p q)
      = max ((∑ k : Fin 128, v0 (ix2 p k) * v6 (ix2 k q)) + (∑ k : Fin 128, v3 (ix2 p k) * v9 (ix2 k q))
            + v15 (ix2 (0 : Fin 1) q)) 0 * v21 (ix2 p (0 : Fin 1)) + v24 (ix2 p q) := by
  unfold k2_pay1
  simp only [shapeCast_self, addf_apply, mulf_apply, maximumf_apply, broadcast_apply]
  rw [node2_mm, node2_mm, node2_bias, node2_scale, node2_zero]

/-- The same entry as an entry of `nodeApply` of six arrays, when the rows p of the three row blocks are the
    rows (i 0) of their arrays and the weight and bias blocks are their arrays. -/
theorem node2_point (X C : FVec Ideal S131072x128 .f32) (Sn : FVec Ideal S131072x1 .f32)
    (Wh Wc : FVec Ideal S128x128 .f32) (B : FVec Ideal S1x128 .f32)
    (x0 x1 : Vec Ideal S2048x128 .f32) (x2 : Vec Ideal S2048x1 .f32) (x3 x4 : Vec Ideal S128x128 .f32)
    (x5 : Vec Ideal S1x128 .f32) (i : S131072x128.Idx) (p : Fin 2048) (q : Fin 128)
    (h0 : ∀ k : Fin 128, x0 (ix2 p k) = X (ix2 (i 0) k))
    (h0' : x0 (ix2 p q) = X i)
    (h1 : ∀ k : Fin 128, x1 (ix2 p k) = C (ix2 (i 0) k))
    (h2 : x2 (ix2 p (0 : Fin 1)) = Sn (ix2 (i 0) (0 : Fin 1)))
    (h3 : ∀ k : Fin 128, x3 (ix2 k q) = Wh (ix2 k (i 1)))
    (h4 : ∀ k : Fin 128, x4 (ix2 k q) = Wc (ix2 k (i 1)))
    (h5 : x5 (ix2 (0 : Fin 1) q) = B (ix2 (0 : Fin 1) (i 1))) :
    k2_pay1 x0 x1 x3 x4 x5 x2 x0 (ix2 p q) = nodeApply X C Sn Wh Wc B i := by
  rw [node2_pay, h0', h2, h5, Finset.sum_congr rfl fun k _ => show x0 (ix2 p k) * x3 (ix2 k q) = X (ix2 (i 0) k) * Wh (ix2 k (i 1)) by rw [h0 k, h3 k],
    Finset.sum_congr rfl fun k _ => show x1 (ix2 p k) * x4 (ix2 k q) = C (ix2 (i 0) k) * Wc (ix2 k (i 1)) by rw [h1 k, h4 k]]
  rfl

/-- The printed block-index maps over the grid: the three row windows and the output window are at block
    (t, 0) at point t, the weight and bias windows at block (0, 0). -/
theorem node2_idx : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 2000000 in
/-- What point t writes back is block t of `nodeApply` of the six input arrays as the region finds them. -/
theorem node2_flushed (c : Dev nD) (t : Fin cfg2.N) :
    (dat2 V c).flushed 6 t = ((cfg2.win 6).blk t).view.read (Elt Ideal)
      (nodeApply (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5))) := by
  show (cfg2.win 6).cut (grid2.coords t) ((dat2 V c).after 6 t) = _
  rw [after2_6]
  unfold out2_6
  rw [View.canon_unit_zero node2_hz]
  simp only [View.ld_unit_zero (S := S2048x128) node2_hz, View.ld_unit_zero (S := S128x128) node2_hz,
    View.ld_unit_zero (S := S1x128) node2_hz, View.ld_unit_zero (S := S2048x1) node2_hz]
  obtain ⟨e00, e01, e10, e11, e20, e21, e30, e31, e40, e41, e50, e51, e60, e61⟩ := node2_idx t
  funext j
  obtain ⟨p, q, rfl⟩ : ∃ (p : Fin 2048) (q : Fin 128), j = ix2 p q := ⟨j 0, j 1, eq_ix2 j⟩
  refine node2_point (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (iblk2 V c 0 t) (iblk2 V c 1 t) (iblk2 V c 2 t) (iblk2 V c 3 t) (iblk2 V c 4 t) (iblk2 V c 5 t)
    (((cfg2.win 6).blk t).view.emb (ix2 p q)) p q (fun k => ?_) ?_ (fun k => ?_) ?_ (fun k => ?_) (fun k => ?_) ?_
  · show V c (Pipeline.arrRef spec2 0) (((cfg2.win 0).blk t).view.emb (ix2 p k)) = V c (Pipeline.arrRef spec2 0) _
    refine congrArg _ (funext fun a => Fin.ext ?_)
    match a with
    | ⟨0, _⟩ => show win2_0.index t (0 : Fin 2) * 2048 + 1 * p.val = win2_6.index t (0 : Fin 2) * 2048 + 1 * p.val; omega
    | ⟨1, _⟩ => show win2_0.index t (1 : Fin 2) * 128 + 1 * k.val = k.val; omega
  · show V c (Pipeline.arrRef spec2 0) (((cfg2.win 0).blk t).view.emb (ix2 p q)) = V c (Pipeline.arrRef spec2 0) _
    refine congrArg _ (funext fun a => Fin.ext ?_)
    match a with
    | ⟨0, _⟩ => show win2_0.index t (0 : Fin 2) * 2048 + 1 * p.val = win2_6.index t (0 : Fin 2) * 2048 + 1 * p.val; omega
    | ⟨1, _⟩ => show win2_0.index t (1 : Fin 2) * 128 + 1 * q.val = win2_6.index t (1 : Fin 2) * 128 + 1 * q.val; omega
  · show V c (Pipeline.arrRef spec2 1) (((cfg2.win 1).blk t).view.emb (ix2 p k)) = V c (Pipeline.arrRef spec2 1) _
    refine congrArg _ (funext fun a => Fin.ext ?_)
    match a with
    | ⟨0, _⟩ => show win2_1.index t (0 : Fin 2) * 2048 + 1 * p.val = win2_6.index t (0 : Fin 2) * 2048 + 1 * p.val; omega
    | ⟨1, _⟩ => show win2_1.index t (1 : Fin 2) * 128 + 1 * k.val = k.val; omega
  · show V c (Pipeline.arrRef spec2 2) (((cfg2.win 2).blk t).view.emb (ix2 p (0 : Fin 1))) = V c (Pipeline.arrRef spec2 2) _
    refine congrArg _ (funext fun a => Fin.ext ?_)
    match a with
    | ⟨0, _⟩ => show win2_2.index t (0 : Fin 2) * 2048 + 1 * p.val = win2_6.index t (0 : Fin 2) * 2048 + 1 * p.val; omega
    | ⟨1, _⟩ => show win2_2.index t (1 : Fin 2) * 1 + 1 * 0 = 0; omega
  · show V c (Pipeline.arrRef spec2 3) (((cfg2.win 3).blk t).view.emb (ix2 k q)) = V c (Pipeline.arrRef spec2 3) _
    refine congrArg _ (funext fun a => Fin.ext ?_)
    match a with
    | ⟨0, _⟩ => show win2_3.index t (0 : Fin 2) * 128 + 1 * k.val = k.val; omega
    | ⟨1, _⟩ => show win2_3.index t (1 : Fin 2) * 128 + 1 * q.val = win2_6.index t (1 : Fin 2) * 128 + 1 * q.val; omega
  · show V c (Pipeline.arrRef spec2 4) (((cfg2.win 4).blk t).view.emb (ix2 k q)) = V c (Pipeline.arrRef spec2 4) _
    refine congrArg _ (funext fun a => Fin.ext ?_)
    match a with
    | ⟨0, _⟩ => show win2_4.index t (0 : Fin 2) * 128 + 1 * k.val = k.val; omega
    | ⟨1, _⟩ => show win2_4.index t (1 : Fin 2) * 128 + 1 * q.val = win2_6.index t (1 : Fin 2) * 128 + 1 * q.val; omega
  · show V c (Pipeline.arrRef spec2 5) (((cfg2.win 5).blk t).view.emb (ix2 (0 : Fin 1) q)) = V c (Pipeline.arrRef spec2 5) _
    refine congrArg _ (funext fun a => Fin.ext ?_)
    match a with
    | ⟨0, _⟩ => show win2_5.index t (0 : Fin 2) * 1 + 1 * 0 = 0; omega
    | ⟨1, _⟩ => show win2_5.index t (1 : Fin 2) * 128 + 1 * q.val = win2_6.index t (1 : Fin 2) * 128 + 1 * q.val; omega

/-- An index of the output array is in point t's block iff each coordinate is in the block's range on its axis. -/
theorem node2_mem_blk (t : Fin cfg2.N) (i : S131072x128.Idx) :
    i ∈ ((cfg2.win 6).blk t).view.set ↔ ∀ a : Fin 2, win2_6.index t a * S2048x128.size a ≤ (i a).val
      ∧ (i a).val < win2_6.index t a * S2048x128.size a + S2048x128.size a := by
  show i ∈ ((View.whole main_v58).slice (win2_6.rect t)).set ↔ _
  rw [View.set_slice_whole, Rect.mem_set_unit]
  exact Iff.rfl

/-- Every index of the output array is in some point's block: row r is in the block of point r / 2048. -/
theorem node2_cover (i : S131072x128.Idx) :
    ∃ t : Fin cfg2.N, (cfg2.win 6).flush t = true ∧ i ∈ ((cfg2.win 6).blk t).view.set := by
  have hi0 : (i 0).val < 131072 := (i 0).isLt
  have hi1 : (i 1).val < 128 := (i 1).isLt
  have hN : cfg2.N = 64 := N_2
  obtain ⟨t, ht⟩ : ∃ t : Fin cfg2.N, t.val = (i 0).val / 2048 := ⟨⟨(i 0).val / 2048, by rw [hN]; omega⟩, rfl⟩
  obtain ⟨e00, e01, e10, e11, e20, e21, e30, e31, e40, e41, e50, e51, e60, e61⟩ := node2_idx t
  refine ⟨t, flush2_6 t, ?_⟩
  rw [node2_mem_blk]
  intro a
  match a with
  | ⟨0, _⟩ => show win2_6.index t (0 : Fin 2) * 2048 ≤ (i 0).val ∧ (i 0).val < win2_6.index t (0 : Fin 2) * 2048 + 2048; omega
  | ⟨1, _⟩ => show win2_6.index t (1 : Fin 2) * 128 ≤ (i 1).val ∧ (i 1).val < win2_6.index t (1 : Fin 2) * 128 + 128; omega

/-- The output array after the region is `nodeApply` of the six input arrays as the region finds them. -/
theorem region2_value (c : Dev nD) :
    (dat2 (F := Ideal) V c).arrAt 6 cfg2.N
      = nodeApply (V c (Pipeline.arrRef spec2 0)) (V c (Pipeline.arrRef spec2 1)) (V c (Pipeline.arrRef spec2 2))
          (V c (Pipeline.arrRef spec2 3)) (V c (Pipeline.arrRef spec2 4)) (V c (Pipeline.arrRef spec2 5)) :=
  (dat2 V c).arrAt_eq_of_cover 6 _ (fun t _ => node2_flushed V c t) node2_cover

end Cert.Sage.Regions

end
-- ==== Proof.RegionNode3.lean ====
/-
  Region 3 of the kernel program as a value: one layer's node update.

  The region walks 64 grid points. At point t it reads rows 2048·t … 2048·t + 2047 of the node features x,
  of the aggregated features c and of the per-node scale s, and the whole of the two 128×128 weights and of
  the 1×128 bias row. On the extended reals a change of float format and a cast of a shape to itself are the
  identity and a product into the zero accumulator is the plain sum of products, so entry (p, j) of what the
  point stores is
      max (Σ_k x(p,k)·Wh(k,j) + Σ_k c(p,k)·Wc(k,j) + b(0,j)) 0 · s(p,0) + x(p,j)
  over the rows of its blocks; it is written back as rows 2048·t … 2048·t + 2047 of the output array. Row r
  of the output is therefore written by point r / 2048, and the output array is `nodeApply` of the six input
  arrays.
-/
import proofs.«153788_j67645734912961_1_alg».proof.Proof.Spec
import proofs.«153788_j67645734912961_1_alg».proof.Proof.LibPlainDot
import proofs.«153788_j67645734912961_1_alg».proof.Proof.Gen.KernelIdeal.Frame
import proofs.«153788_j67645734912961_1_alg».proof.Proof.LibKeepdims
import Idealize.ShloMosaic.Lib.Pipeline.Value
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.Sage.Regions

open Cert.KernelIdeal Cert.KernelIdeal.Gen Cert.Lib.PlainDot

variable (V : (c : Dev nD) → (b : Ref sig .tc) → Buf (Elt Ideal) ((c : Thread nD τ).loc b))

/-- The zero offsets of a whole-block access, as a constant function. -/
theorem node3_hz : (![0, 0] : Fin 2 → Nat) = fun _ => 0 := funext fun a => by fin_cases a <;> rfl

/-- A 2048×128 block times a 128×128 weight into the zero accumulator, at entry (p, q): the 128-term sum of
    products of the block's row p and the weight's column q. -/
theorem node3_mm (A : Vec Ideal S2048x128 .f32) (B : Vec Ideal S128x128 .f32) (p : Fin 2048) (q : Fin 128) :
    matmul (F := Ideal) dot_S2048x128_S128x128_S2048x128_1_0_0_1_n_n none
        (truncf .bf16 A bitsLt_bf16_f32) (truncf .bf16 B bitsLt_bf16_f32)
        (constant S2048x128 .f32 0x00000000#32) (ix2 p q)
      = ∑ k : Fin 128, A (ix2 p k) * B (ix2 k q) := matmul_plain_zero_apply (M := 2048) (K := 128) (N := 128) none
    (truncf .bf16 A bitsLt_bf16_f32) (truncf .bf16 B bitsLt_bf16_f32) p q

/-- The bias row spread over the 2048 rows reads, at (p, q), the row's entry q. -/
theorem node3_bias (b : Vec Ideal S1x128 .f32) (p : Fin 2048) (q : Fin 128) :
    broadcastTo S2048x128 b broadcasts_S1x128_S2048x128 (ix2 p q) = b (ix2 (0 : Fin 1) q) :=
  broadcastTo_1b_ab_apply (a := 2048) (b := 128) b broadcasts_S1x128_S2048x128 p q

/-- The scale column spread over the 128 lanes reads, at (p, q), the column's entry p. -/
theorem node3_scale (s : Vec Ideal S2048x1 .f32) (p : Fin 2048) (q : Fin 128) :
    broadcastTo S2048x128 s broadcasts_S2048x1_S2048x128 (ix2 p q) = s (ix2 p (0 : Fin 1)) :=
  Cert.Lib.Keepdims.broadcastTo_a1_ab_apply (a := 2048) (b := 128) s broadcasts_S2048x1_S2048x128 p q

/-- The zero word of the rectifier is the extended real 0. -/
theorem node3_zero : (Scalar.ofBits .f32 0x00000000#32 : Ideal .f32) = 0 := Ideal.ofBits_zero_f32

/-- What the body stores, read at entry (p, q) of the block. -/
theorem node3_pay (v0 v3 : Vec Ideal S2048x128 .f32) (v6 v9 : Vec Ideal S128x128 .f32) (v15 : Vec Ideal S1x128 .f32)
    (v21 : Vec Ideal S2048x1 .f32) (v24 : Vec Ideal S2048x128 .f32) (p : Fin 2048) (q : Fin 128) :
    k3_pay1 v0 v3 v6 v9 v15 v21 v24 (ix2 p q)
      = max ((∑ k : Fin 128, v0 (ix2 p k) * v6 (ix2 k q)) + (∑ k : Fin 128, v3 (ix2 p k) * v9 (ix2 k q))
            + v15 (ix2 (0 : Fin 1) q)) 0 * v21 (ix2 p (0 : Fin 1)) + v24 (ix2 p q) := by
  unfold k3_pay1
  simp only [shapeCast_self, addf_apply, mulf_apply, maximumf_apply, broadcast_apply]
  rw [node3_mm, node3_mm, node3_bias, node3_scale, node3_zero]

/-- The same entry as an entry of `nodeApply` of six arrays, when the rows p of the three row blocks are the
    rows (i 0) of their arrays and the weight and bias blocks are their arrays. -/
theorem node3_point (X C : FVec Ideal S131072x128 .f32) (Sn : FVec Ideal S131072x1 .f32)
    (Wh Wc : FVec Ideal S128x128 .f32) (B : FVec Ideal S1x128 .f32)
    (x0 x1 : Vec Ideal S2048x128 .f32) (x2 : Vec Ideal S2048x1 .f32) (x3 x4 : Vec Ideal S128x128 .f32)
    (x5 : Vec Ideal S1x128 .f32) (i : S131072x128.Idx) (p : Fin 2048) (q : Fin 128)
    (h0 : ∀ k : Fin 128, x0 (ix2 p k) = X (ix2 (i 0) k))
    (h0' : x0 (ix2 p q) = X i)
    (h1 : ∀ k : Fin 128, x1 (ix2 p k) = C (ix2 (i 0) k))
    (h2 : x2 (ix2 p (0 : Fin 1)) = Sn (ix2 (i 0) (0 : Fin 1)))
    (h3 : ∀ k : Fin 128, x3 (ix2 k q) = Wh (ix2 k (i 1)))
    (h4 : ∀ k : Fin 128, x4 (ix2 k q) = Wc (ix2 k (i 1)))
    (h5 : x5 (ix2 (0 : Fin 1) q) = B (ix2 (0 : Fin 1) (i 1))) :
    k3_pay1 x0 x1 x3 x4 x5 x2 x0 (ix2 p q) = nodeApply X C Sn Wh Wc B i := by
  rw [node3_pay, h0', h2, h5, Finset.sum_congr rfl fun k _ => show x0 (ix2 p k) * x3 (ix2 k q) = X (ix2 (i 0) k) * Wh (ix2 k (i 1)) by rw [h0 k, h3 k],
    Finset.sum_congr rfl fun k _ => show x1 (ix2 p k) * x4 (ix2 k q) = C (ix2 (i 0) k) * Wc (ix2 k (i 1)) by rw [h1 k, h4 k]]
  rfl

/-- The printed block-index maps over the grid: the three row windows and the output window are at block
    (t, 0) at point t, the weight and bias windows at block (0, 0). -/
theorem node3_idx : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

set_option maxHeartbeats 2000000 in
/-- What point t writes back is block t of `nodeApply` of the six input arrays as the region finds them. -/
theorem node3_flushed (c : Dev nD) (t : Fin cfg3.N) :
    (dat3 V c).flushed 6 t = ((cfg3.win 6).blk t).view.read (Elt Ideal)
      (nodeApply (V c (Pipeline.arrRef spec3 0)) (V c (Pipeline.arrRef spec3 1)) (V c (Pipeline.arrRef spec3 2))
        (V c (Pipeline.arrRef spec3 3)) (V c (Pipeline.arrRef spec3 4)) (V c (Pipeline.arrRef spec3 5))) := by
  show (cfg3.win 6).cut (grid3.coords t) ((dat3 V c).after 6 t) = _
  rw [after3_6]
  unfold out3_6
  rw [View.canon_unit_zero node3_hz]
  simp only [View.ld_unit_zero (S := S2048x128) node3_hz, View.ld_unit_zero (S := S128x128) node3_hz,
    View.ld_unit_zero (S := S1x128) node3_hz, View.ld_unit_zero (S := S2048x1) node3_hz]
  obtain ⟨e00, e01, e10, e11, e20, e21, e30, e31, e40, e41, e50, e51, e60, e61⟩ := node3_idx t
  funext j
  obtain ⟨p, q, rfl⟩ : ∃ (p : Fin 2048) (q : Fin 128), j = ix2 p q := ⟨j 0, j 1, eq_ix2 j⟩
  refine node3_point (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (iblk3 V c 0 t) (iblk3 V c 1 t) (iblk3 V c 2 t) (iblk3 V c 3 t) (iblk3 V c 4 t) (iblk3 V c 5 t)
    (((cfg3.win 6).blk t).view.emb (ix2 p q)) p q (fun k => ?_) ?_ (fun k => ?_) ?_ (fun k => ?_) (fun k => ?_) ?_
  · show V c (Pipeline.arrRef spec3 0) (((cfg3.win 0).blk t).view.emb (ix2 p k)) = V c (Pipeline.arrRef spec3 0) _
    refine congrArg _ (funext fun a => Fin.ext ?_)
    match a with
    | ⟨0, _⟩ => show win3_0.index t (0 : Fin 2) * 2048 + 1 * p.val = win3_6.index t (0 : Fin 2) * 2048 + 1 * p.val; omega
    | ⟨1, _⟩ => show win3_0.index t (1 : Fin 2) * 128 + 1 * k.val = k.val; omega
  · show V c (Pipeline.arrRef spec3 0) (((cfg3.win 0).blk t).view.emb (ix2 p q)) = V c (Pipeline.arrRef spec3 0) _
    refine congrArg _ (funext fun a => Fin.ext ?_)
    match a with
    | ⟨0, _⟩ => show win3_0.index t (0 : Fin 2) * 2048 + 1 * p.val = win3_6.index t (0 : Fin 2) * 2048 + 1 * p.val; omega
    | ⟨1, _⟩ => show win3_0.index t (1 : Fin 2) * 128 + 1 * q.val = win3_6.index t (1 : Fin 2) * 128 + 1 * q.val; omega
  · show V c (Pipeline.arrRef spec3 1) (((cfg3.win 1).blk t).view.emb (ix2 p k)) = V c (Pipeline.arrRef spec3 1) _
    refine congrArg _ (funext fun a => Fin.ext ?_)
    match a with
    | ⟨0, _⟩ => show win3_1.index t (0 : Fin 2) * 2048 + 1 * p.val = win3_6.index t (0 : Fin 2) * 2048 + 1 * p.val; omega
    | ⟨1, _⟩ => show win3_1.index t (1 : Fin 2) * 128 + 1 * k.val = k.val; omega
  · show V c (Pipeline.arrRef spec3 2) (((cfg3.win 2).blk t).view.emb (ix2 p (0 : Fin 1))) = V c (Pipeline.arrRef spec3 2) _
    refine congrArg _ (funext fun a => Fin.ext ?_)
    match a with
    | ⟨0, _⟩ => show win3_2.index t (0 : Fin 2) * 2048 + 1 * p.val = win3_6.index t (0 : Fin 2) * 2048 + 1 * p.val; omega
    | ⟨1, _⟩ => show win3_2.index t (1 : Fin 2) * 1 + 1 * 0 = 0; omega
  · show V c (Pipeline.arrRef spec3 3) (((cfg3.win 3).blk t).view.emb (ix2 k q)) = V c (Pipeline.arrRef spec3 3) _
    refine congrArg _ (funext fun a => Fin.ext ?_)
    match a with
    | ⟨0, _⟩ => show win3_3.index t (0 : Fin 2) * 128 + 1 * k.val = k.val; omega
    | ⟨1, _⟩ => show win3_3.index t (1 : Fin 2) * 128 + 1 * q.val = win3_6.index t (1 : Fin 2) * 128 + 1 * q.val; omega
  · show V c (Pipeline.arrRef spec3 4) (((cfg3.win 4).blk t).view.emb (ix2 k q)) = V c (Pipeline.arrRef spec3 4) _
    refine congrArg _ (funext fun a => Fin.ext ?_)
    match a with
    | ⟨0, _⟩ => show win3_4.index t (0 : Fin 2) * 128 + 1 * k.val = k.val; omega
    | ⟨1, _⟩ => show win3_4.index t (1 : Fin 2) * 128 + 1 * q.val = win3_6.index t (1 : Fin 2) * 128 + 1 * q.val; omega
  · show V c (Pipeline.arrRef spec3 5) (((cfg3.win 5).blk t).view.emb (ix2 (0 : Fin 1) q)) = V c (Pipeline.arrRef spec3 5) _
    refine congrArg _ (funext fun a => Fin.ext ?_)
    match a with
    | ⟨0, _⟩ => show win3_5.index t (0 : Fin 2) * 1 + 1 * 0 = 0; omega
    | ⟨1, _⟩ => show win3_5.index t (1 : Fin 2) * 128 + 1 * q.val = win3_6.index t (1 : Fin 2) * 128 + 1 * q.val; omega

/-- An index of the output array is in point t's block iff each coordinate is in the block's range on its axis. -/
theorem node3_mem_blk (t : Fin cfg3.N) (i : S131072x128.Idx) :
    i ∈ ((cfg3.win 6).blk t).view.set ↔ ∀ a : Fin 2, win3_6.index t a * S2048x128.size a ≤ (i a).val
      ∧ (i a).val < win3_6.index t a * S2048x128.size a + S2048x128.size a := by
  show i ∈ ((View.whole main_v78).slice (win3_6.rect t)).set ↔ _
  rw [View.set_slice_whole, Rect.mem_set_unit]
  exact Iff.rfl

/-- Every index of the output array is in some point's block: row r is in the block of point r / 2048. -/
theorem node3_cover (i : S131072x128.Idx) :
    ∃ t : Fin cfg3.N, (cfg3.win 6).flush t = true ∧ i ∈ ((cfg3.win 6).blk t).view.set := by
  have hi0 : (i 0).val < 131072 := (i 0).isLt
  have hi1 : (i 1).val < 128 := (i 1).isLt
  have hN : cfg3.N = 64 := N_3
  obtain ⟨t, ht⟩ : ∃ t : Fin cfg3.N, t.val = (i 0).val / 2048 := ⟨⟨(i 0).val / 2048, by rw [hN]; omega⟩, rfl⟩
  obtain ⟨e00, e01, e10, e11, e20, e21, e30, e31, e40, e41, e50, e51, e60, e61⟩ := node3_idx t
  refine ⟨t, flush3_6 t, ?_⟩
  rw [node3_mem_blk]
  intro a
  match a with
  | ⟨0, _⟩ => show win3_6.index t (0 : Fin 2) * 2048 ≤ (i 0).val ∧ (i 0).val < win3_6.index t (0 : Fin 2) * 2048 + 2048; omega
  | ⟨1, _⟩ => show win3_6.index t (1 : Fin 2) * 128 ≤ (i 1).val ∧ (i 1).val < win3_6.index t (1 : Fin 2) * 128 + 128; omega

/-- The output array after the region is `nodeApply` of the six input arrays as the region finds them. -/
theorem region3_value (c : Dev nD) :
    (dat3 (F := Ideal) V c).arrAt 6 cfg3.N
      = nodeApply (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 V c).arrAt_eq_of_cover 6 _ (fun t _ => node3_flushed V c t) node3_cover

end Cert.Sage.Regions

end
-- ==== Proof.RegionNode4.lean ====
/-
  Region 4 of the kernel program as a value: one layer's node update.

  The region walks 64 grid points. At point t it reads rows 2048·t … 2048·t + 2047 of the node features x,
  of the aggregated features c and of the per-node scale s, and the whole of the two 128×128 weights and of
  the 1×128 bias row. On the extended reals a change of float format and a cast of a shape to itself are the
  identity and a product into the zero accumulator is the plain sum of products, so entry (p, j) of what the
  point stores is
      max (Σ_k x(p,k)·Wh(k,j) + Σ_k c(p,k)·Wc(k,j) + b(0,j)) 0 · s(p,0) + x(p,j)
  over the rows of its blocks; it is written back as rows 2048·t … 2048·t + 2047 of the output array. Row r
  of the output is therefore written by point r / 2048, and the output array is `nodeApply` of the six input
  arrays.
-/
import proofs.«153788_j67645734912961_1_alg».proof.Proof.Spec
import proofs.«153788_j67645734912961_1_alg».proof.Proof.LibPlainDot
import proofs.«153788_j67645734912961_1_alg».proof.Proof.Gen.KernelIdeal.Frame
import proofs.«153788_j67645734912961_1_alg».proof.Proof.LibKeepdims
import Idealize.ShloMosaic.Lib.Pipeline.Value
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.Sage.Regions

open Cert.KernelIdeal Cert.KernelIdeal.Gen Cert.Lib.PlainDot

variable (V : (c : Dev nD) → (b : Ref sig .tc) → Buf (Elt Ideal) ((c : Thread nD τ).loc b))

/-- The zero offsets of a whole-block access, as a constant function. -/
theorem node4_hz : (![0, 0] : Fin 2 → Nat) = fun _ => 0 := funext fun a => by fin_cases a <;> rfl

/-- A 2048×128 block times a 128×128 weight into the zero accumulator, at entry (p, q): the 128-term sum of
    products of the block's row p and the weight's column q. -/
theorem node4_mm (A : Vec Ideal S2048x128 .f32) (B : Vec Ideal S128x128 .f32) (p : Fin 2048) (q : Fin 128) :
    matmul (F := Ideal) dot_S2048x128_S128x128_S2048x128_1_0_0_1_n_n none
        (truncf .bf16 A bitsLt_bf16_f32) (truncf .bf16 B bitsLt_bf16_f32)
        (constant S2048x128 .f32 0x00000000#32) (ix2 p q)
      = ∑ k : Fin 128, A (ix2 p k) * B (ix2 k q) := matmul_plain_zero_apply (M := 2048) (K := 128) (N := 128) none
    (truncf .bf16 A bitsLt_bf16_f32) (truncf .bf16 B bitsLt_bf16_f32) p q

/-- The bias row spread over the 2048 rows reads, at (p, q), the row's entry q. -/
theorem node4_bias (b : Vec Ideal S1x128 .f32) (p : Fin 2048) (q : Fin 128) :
    broadcastTo S2048x128 b broadcasts_S1x128_S2048x128 (ix2 p q) = b (ix2 (0 : Fin 1) q) :=
  broadcastTo_1b_ab_apply (a := 2048) (b := 128) b broadcasts_S1x128_S2048x128 p q

/-- The scale column spread over the 128 lanes reads, at (p, q), the column's entry p. -/
theorem node4_scale (s : Vec Ideal S2048x1 .f32) (p : Fin 2048) (q : Fin 128) :
    broadcastTo S2048x128 s broadcasts_S2048x1_S2048x128 (ix2 p q) = s (ix2 p (0 : Fin 1)) :=
  Cert.Lib.Keepdims.broadcastTo_a1_ab_apply (a := 2048) (b := 128) s broadcasts_S2048x1_S2048x128 p q

/-- The zero word of the rectifier is the extended real 0. -/
theorem node4_zero : (Scalar.ofBits .f32 0x00000000#32 : Ideal .f32) = 0 := Ideal.ofBits_zero_f32

/-- What the body stores, read at entry (p, q) of the block. -/
theorem node4_pay (v0 v3 : Vec Ideal S2048x128 .f32) (v6 v9 : Vec Ideal S128x128 .f32) (v15 : Vec Ideal S1x128 .f32)
    (v21 : Vec Ideal S2048x1 .f32) (v24 : Vec Ideal S2048x128 .f32) (p : Fin 2048) (q : Fin 128) :
    k4_pay1 v0 v3 v6 v9 v15 v21 v24 (ix2 p q)
      = max ((∑ k : Fin 128, v0 (ix2 p k) * v6 (ix2 k q)) + (∑ k : Fin 128, v3 (ix2 p k) * v9 (ix2 k q))
            + v15 (ix2 (0 : Fin 1) q)) 0 * v21 (ix2 p (0 : Fin 1)) + v24 (ix2 p q) := by
  unfold k4_pay1
  simp only [shapeCast_self, addf_apply, mulf_apply, maximumf_apply, broadcast_apply]
  rw [node4_mm, node4_mm, node4_bias, node4_scale, node4_zero]

/-- The same entry as an entry of `nodeApply` of six arrays, when the rows p of the three row blocks are the
    rows (i 0) of their arrays and the weight and bias blocks are their arrays. -/
theorem node4_point (X C : FVec Ideal S131072x128 .f32) (Sn : FVec Ideal S131072x1 .f32)
    (Wh Wc : FVec Ideal S128x128 .f32) (B : FVec Ideal S1x128 .f32)
    (x0 x1 : Vec Ideal S2048x128 .f32) (x2 : Vec Ideal S2048x1 .f32) (x3 x4 : Vec Ideal S128x128 .f32)
    (x5 : Vec Ideal S1x128 .f32) (i : S131072x128.Idx) (p : Fin 2048) (q : Fin 128)
    (h0 : ∀ k : Fin 128, x0 (ix2 p k) = X (ix2 (i 0) k))
    (h0' : x0 (ix2 p q) = X i)
    (h1 : ∀ k : Fin 128, x1 (ix2 p k) = C (ix2 (i 0) k))
    (h2 : x2 (ix2 p (0 : Fin 1)) = Sn (ix2 (i 0) (0 : Fin 1)))
    (h3 : ∀ k : Fin 128, x3 (ix2 k q) = Wh (ix2 k (i 1)))
    (h4 : ∀ k : Fin 128, x4 (ix2 k q) = Wc (ix2 k (i 1)))
    (h5 : x5 (ix2 (0 : Fin 1) q) = B (ix2 (0 : Fin 1) (i 1))) :
    k4_pay1 x0 x1 x3 x4 x5 x2 x0 (ix2 p q) = nodeApply X C Sn Wh Wc B i := by
  rw [node4_pay, h0', h2, h5, Finset.sum_congr rfl fun k _ => show x0 (ix2 p k) * x3 (ix2 k q) = X (ix2 (i 0) k) * Wh (ix2 k (i 1)) by rw [h0 k, h3 k],
    Finset.sum_congr rfl fun k _ => show x1 (ix2 p k) * x4 (ix2 k q) = C (ix2 (i 0) k) * Wc (ix2 k (i 1)) by rw [h1 k, h4 k]]
  rfl

/-- The printed block-index maps over the grid: the three row windows and the output window are at block
    (t, 0) at point t, the weight and bias windows at block (0, 0). -/
theorem node4_idx : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = t.val ∧ win4_6.index t (1 : Fin 2) = 0 :=
  (by decide +kernel : ∀ t : Fin grid4.N, _)

set_option maxHeartbeats 2000000 in
/-- What point t writes back is block t of `nodeApply` of the six input arrays as the region finds them. -/
theorem node4_flushed (c : Dev nD) (t : Fin cfg4.N) :
    (dat4 V c).flushed 6 t = ((cfg4.win 6).blk t).view.read (Elt Ideal)
      (nodeApply (V c (Pipeline.arrRef spec4 0)) (V c (Pipeline.arrRef spec4 1)) (V c (Pipeline.arrRef spec4 2))
        (V c (Pipeline.arrRef spec4 3)) (V c (Pipeline.arrRef spec4 4)) (V c (Pipeline.arrRef spec4 5))) := by
  show (cfg4.win 6).cut (grid4.coords t) ((dat4 V c).after 6 t) = _
  rw [after4_6]
  unfold out4_6
  rw [View.canon_unit_zero node4_hz]
  simp only [View.ld_unit_zero (S := S2048x128) node4_hz, View.ld_unit_zero (S := S128x128) node4_hz,
    View.ld_unit_zero (S := S1x128) node4_hz, View.ld_unit_zero (S := S2048x1) node4_hz]
  obtain ⟨e00, e01, e10, e11, e20, e21, e30, e31, e40, e41, e50, e51, e60, e61⟩ := node4_idx t
  funext j
  obtain ⟨p, q, rfl⟩ : ∃ (p : Fin 2048) (q : Fin 128), j = ix2 p q := ⟨j 0, j 1, eq_ix2 j⟩
  refine node4_point (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (iblk4 V c 0 t) (iblk4 V c 1 t) (iblk4 V c 2 t) (iblk4 V c 3 t) (iblk4 V c 4 t) (iblk4 V c 5 t)
    (((cfg4.win 6).blk t).view.emb (ix2 p q)) p q (fun k => ?_) ?_ (fun k => ?_) ?_ (fun k => ?_) (fun k => ?_) ?_
  · show V c (Pipeline.arrRef spec4 0) (((cfg4.win 0).blk t).view.emb (ix2 p k)) = V c (Pipeline.arrRef spec4 0) _
    refine congrArg _ (funext fun a => Fin.ext ?_)
    match a with
    | ⟨0, _⟩ => show win4_0.index t (0 : Fin 2) * 2048 + 1 * p.val = win4_6.index t (0 : Fin 2) * 2048 + 1 * p.val; omega
    | ⟨1, _⟩ => show win4_0.index t (1 : Fin 2) * 128 + 1 * k.val = k.val; omega
  · show V c (Pipeline.arrRef spec4 0) (((cfg4.win 0).blk t).view.emb (ix2 p q)) = V c (Pipeline.arrRef spec4 0) _
    refine congrArg _ (funext fun a => Fin.ext ?_)
    match a with
    | ⟨0, _⟩ => show win4_0.index t (0 : Fin 2) * 2048 + 1 * p.val = win4_6.index t (0 : Fin 2) * 2048 + 1 * p.val; omega
    | ⟨1, _⟩ => show win4_0.index t (1 : Fin 2) * 128 + 1 * q.val = win4_6.index t (1 : Fin 2) * 128 + 1 * q.val; omega
  · show V c (Pipeline.arrRef spec4 1) (((cfg4.win 1).blk t).view.emb (ix2 p k)) = V c (Pipeline.arrRef spec4 1) _
    refine congrArg _ (funext fun a => Fin.ext ?_)
    match a with
    | ⟨0, _⟩ => show win4_1.index t (0 : Fin 2) * 2048 + 1 * p.val = win4_6.index t (0 : Fin 2) * 2048 + 1 * p.val; omega
    | ⟨1, _⟩ => show win4_1.index t (1 : Fin 2) * 128 + 1 * k.val = k.val; omega
  · show V c (Pipeline.arrRef spec4 2) (((cfg4.win 2).blk t).view.emb (ix2 p (0 : Fin 1))) = V c (Pipeline.arrRef spec4 2) _
    refine congrArg _ (funext fun a => Fin.ext ?_)
    match a with
    | ⟨0, _⟩ => show win4_2.index t (0 : Fin 2) * 2048 + 1 * p.val = win4_6.index t (0 : Fin 2) * 2048 + 1 * p.val; omega
    | ⟨1, _⟩ => show win4_2.index t (1 : Fin 2) * 1 + 1 * 0 = 0; omega
  · show V c (Pipeline.arrRef spec4 3) (((cfg4.win 3).blk t).view.emb (ix2 k q)) = V c (Pipeline.arrRef spec4 3) _
    refine congrArg _ (funext fun a => Fin.ext ?_)
    match a with
    | ⟨0, _⟩ => show win4_3.index t (0 : Fin 2) * 128 + 1 * k.val = k.val; omega
    | ⟨1, _⟩ => show win4_3.index t (1 : Fin 2) * 128 + 1 * q.val = win4_6.index t (1 : Fin 2) * 128 + 1 * q.val; omega
  · show V c (Pipeline.arrRef spec4 4) (((cfg4.win 4).blk t).view.emb (ix2 k q)) = V c (Pipeline.arrRef spec4 4) _
    refine congrArg _ (funext fun a => Fin.ext ?_)
    match a with
    | ⟨0, _⟩ => show win4_4.index t (0 : Fin 2) * 128 + 1 * k.val = k.val; omega
    | ⟨1, _⟩ => show win4_4.index t (1 : Fin 2) * 128 + 1 * q.val = win4_6.index t (1 : Fin 2) * 128 + 1 * q.val; omega
  · show V c (Pipeline.arrRef spec4 5) (((cfg4.win 5).blk t).view.emb (ix2 (0 : Fin 1) q)) = V c (Pipeline.arrRef spec4 5) _
    refine congrArg _ (funext fun a => Fin.ext ?_)
    match a with
    | ⟨0, _⟩ => show win4_5.index t (0 : Fin 2) * 1 + 1 * 0 = 0; omega
    | ⟨1, _⟩ => show win4_5.index t (1 : Fin 2) * 128 + 1 * q.val = win4_6.index t (1 : Fin 2) * 128 + 1 * q.val; omega

/-- An index of the output array is in point t's block iff each coordinate is in the block's range on its axis. -/
theorem node4_mem_blk (t : Fin cfg4.N) (i : S131072x128.Idx) :
    i ∈ ((cfg4.win 6).blk t).view.set ↔ ∀ a : Fin 2, win4_6.index t a * S2048x128.size a ≤ (i a).val
      ∧ (i a).val < win4_6.index t a * S2048x128.size a + S2048x128.size a := by
  show i ∈ ((View.whole main_v98).slice (win4_6.rect t)).set ↔ _
  rw [View.set_slice_whole, Rect.mem_set_unit]
  exact Iff.rfl

/-- Every index of the output array is in some point's block: row r is in the block of point r / 2048. -/
theorem node4_cover (i : S131072x128.Idx) :
    ∃ t : Fin cfg4.N, (cfg4.win 6).flush t = true ∧ i ∈ ((cfg4.win 6).blk t).view.set := by
  have hi0 : (i 0).val < 131072 := (i 0).isLt
  have hi1 : (i 1).val < 128 := (i 1).isLt
  have hN : cfg4.N = 64 := N_4
  obtain ⟨t, ht⟩ : ∃ t : Fin cfg4.N, t.val = (i 0).val / 2048 := ⟨⟨(i 0).val / 2048, by rw [hN]; omega⟩, rfl⟩
  obtain ⟨e00, e01, e10, e11, e20, e21, e30, e31, e40, e41, e50, e51, e60, e61⟩ := node4_idx t
  refine ⟨t, flush4_6 t, ?_⟩
  rw [node4_mem_blk]
  intro a
  match a with
  | ⟨0, _⟩ => show win4_6.index t (0 : Fin 2) * 2048 ≤ (i 0).val ∧ (i 0).val < win4_6.index t (0 : Fin 2) * 2048 + 2048; omega
  | ⟨1, _⟩ => show win4_6.index t (1 : Fin 2) * 128 ≤ (i 1).val ∧ (i 1).val < win4_6.index t (1 : Fin 2) * 128 + 128; omega

/-- The output array after the region is `nodeApply` of the six input arrays as the region finds them. -/
theorem region4_value (c : Dev nD) :
    (dat4 (F := Ideal) V c).arrAt 6 cfg4.N
      = nodeApply (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5)) :=
  (dat4 V c).arrAt_eq_of_cover 6 _ (fun t _ => node4_flushed V c t) node4_cover

end Cert.Sage.Regions

end
-- ==== Proof.RegionProject.lean ====
/-
  Region 5 of the kernel program as a value: the read-out projection.

  The region walks 64 grid points. At point t it reads rows 2048·t … 2048·t + 2047 of the 131072×128 node
  features and the whole 128×128 weight and multiplies them (on the extended reals a change of float format
  and a cast of a shape to itself are the identity, and a product into the zero accumulator is the plain sum
  of products), and writes the 2048×128 result back as rows 2048·t … 2048·t + 2047 of the output array. Row r
  of the output is therefore written by point r / 2048 and holds Σ_k x(r,k)·W(k,j): the output array is
  `project` of the two input arrays.
-/
import proofs.«153788_j67645734912961_1_alg».proof.Proof.Spec
import proofs.«153788_j67645734912961_1_alg».proof.Proof.LibPlainDot
import proofs.«153788_j67645734912961_1_alg».proof.Proof.Gen.KernelIdeal.Frame
import Idealize.ShloMosaic.Lib.Pipeline.Value

noncomputable section

open scoped BigOperators
open Idealize.ShloMosaic Idealize.ShloMosaic.TcCoe Idealize.SL.Sem Idealize.ShloMosaic.ValueIdx
open Idealize.ShloMosaic.Pipeline (Dat)

namespace Cert.Sage.Regions

open Cert.KernelIdeal Cert.KernelIdeal.Gen Cert.Lib.PlainDot

variable (V : (c : Dev nD) → (b : Ref sig .tc) → Buf (Elt Ideal) ((c : Thread nD τ).loc b))

/-- The zero offsets of a whole-block access, as a constant function. -/
theorem project_hz : (![0, 0] : Fin 2 → Nat) = fun _ => 0 := funext fun a => by fin_cases a <;> rfl

/-- What the body stores, read at entry (p, q) of the block: the 128-term sum of products of row p of the
    loaded feature block and column q of the loaded weight. -/
theorem project_pay (x0 : Vec Ideal S2048x128 .f32) (x1 : Vec Ideal S128x128 .f32) (p : Fin 2048) (q : Fin 128) :
    k5_pay1 x0 x1 (ix2 p q) = ∑ k : Fin 128, x0 (ix2 p k) * x1 (ix2 k q) := by
  unfold k5_pay1
  simp only [shapeCast_self]
  exact matmul_plain_zero_apply (M := 2048) (K := 128) (N := 128) none
    (truncf .bf16 x0 bitsLt_bf16_f32) (truncf .bf16 x1 bitsLt_bf16_f32) p q

/-- The same entry as an entry of `project` of two arrays, when row p of the feature block is row (i 0) of the
    feature array and the weight block is the weight array. -/
theorem project_point (A0 : FVec Ideal S131072x128 .f32) (A1 : FVec Ideal S128x128 .f32)
    (x0 : Vec Ideal S2048x128 .f32) (x1 : Vec Ideal S128x128 .f32) (i : S131072x128.Idx) (p : Fin 2048) (q : Fin 128)
    (h0 : ∀ k : Fin 128, x0 (ix2 p k) = A0 (ix2 (i 0) k))
    (h1 : ∀ k : Fin 128, x1 (ix2 k q) = A1 (ix2 k (i 1))) :
    k5_pay1 x0 x1 (ix2 p q) = project A0 A1 i := by
  rw [project_pay]
  show _ = ∑ k : Fin 128, A0 (ix2 (i 0) k) * A1 (ix2 k (i 1))
  exact Finset.sum_congr rfl fun k _ => by rw [h0 k, h1 k]

/-- The printed block-index maps over the grid: the feature window and the output window are at block (t, 0)
    at point t, the weight window at block (0, 0). -/
theorem project_idx : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- What point t writes back is block t of `project` of the two input arrays as the region finds them. -/
theorem project_flushed (c : Dev nD) (t : Fin cfg5.N) :
    (dat5 V c).flushed 2 t = ((cfg5.win 2).blk t).view.read (Elt Ideal)
      (project (V c (Pipeline.arrRef spec5 0)) (V c (Pipeline.arrRef spec5 1))) := by
  show (cfg5.win 2).cut (grid5.coords t) ((dat5 V c).after 2 t) = _
  rw [after5_2]
  unfold out5_2
  rw [View.canon_unit_zero project_hz]
  simp only [View.ld_unit_zero (S := S2048x128) project_hz, View.ld_unit_zero (S := S128x128) project_hz]
  obtain ⟨e0, e1, e2, e3, e4, e5⟩ := project_idx t
  funext j
  obtain ⟨p, q, rfl⟩ : ∃ (p : Fin 2048) (q : Fin 128), j = ix2 p q := ⟨j 0, j 1, eq_ix2 j⟩
  refine project_point (V c (Pipeline.arrRef spec5 0)) (V c (Pipeline.arrRef spec5 1)) (iblk5 V c 0 t) (iblk5 V c 1 t)
    (((cfg5.win 2).blk t).view.emb (ix2 p q)) p q (fun k => ?_) (fun k => ?_)
  · show V c (Pipeline.arrRef spec5 0) (((cfg5.win 0).blk t).view.emb (ix2 p k)) = V c (Pipeline.arrRef spec5 0) _
    refine congrArg _ (funext fun a => Fin.ext ?_)
    match a with
    | ⟨0, _⟩ => show win5_0.index t (0 : Fin 2) * 2048 + 1 * p.val = win5_2.index t (0 : Fin 2) * 2048 + 1 * p.val; omega
    | ⟨1, _⟩ => show win5_0.index t (1 : Fin 2) * 128 + 1 * k.val = k.val; omega
  · show V c (Pipeline.arrRef spec5 1) (((cfg5.win 1).blk t).view.emb (ix2 k q)) = V c (Pipeline.arrRef spec5 1) _
    refine congrArg _ (funext fun a => Fin.ext ?_)
    match a with
    | ⟨0, _⟩ => show win5_1.index t (0 : Fin 2) * 128 + 1 * k.val = k.val; omega
    | ⟨1, _⟩ => show win5_1.index t (1 : Fin 2) * 128 + 1 * q.val = win5_2.index t (1 : Fin 2) * 128 + 1 * q.val; omega

/-- An index of the output array is in point t's block iff each coordinate is in the block's range on its axis. -/
theorem project_mem_blk (t : Fin cfg5.N) (i : S131072x128.Idx) :
    i ∈ ((cfg5.win 2).blk t).view.set ↔ ∀ a : Fin 2, win5_2.index t a * S2048x128.size a ≤ (i a).val
      ∧ (i a).val < win5_2.index t a * S2048x128.size a + S2048x128.size a := by
  show i ∈ ((View.whole main_v99).slice (win5_2.rect t)).set ↔ _
  rw [View.set_slice_whole, Rect.mem_set_unit]
  exact Iff.rfl

/-- Every index of the output array is in some point's block: row r is in the block of point r / 2048. -/
theorem project_cover (i : S131072x128.Idx) :
    ∃ t : Fin cfg5.N, (cfg5.win 2).flush t = true ∧ i ∈ ((cfg5.win 2).blk t).view.set := by
  have hi0 : (i 0).val < 131072 := (i 0).isLt
  have hi1 : (i 1).val < 128 := (i 1).isLt
  have hN : cfg5.N = 64 := N_5
  obtain ⟨t, ht⟩ : ∃ t : Fin cfg5.N, t.val = (i 0).val / 2048 := ⟨⟨(i 0).val / 2048, by rw [hN]; omega⟩, rfl⟩
  obtain ⟨e0, e1, e2, e3, e4, e5⟩ := project_idx t
  refine ⟨t, flush5_2 t, ?_⟩
  rw [project_mem_blk]
  intro a
  match a with
  | ⟨0, _⟩ => show win5_2.index t (0 : Fin 2) * 2048 ≤ (i 0).val ∧ (i 0).val < win5_2.index t (0 : Fin 2) * 2048 + 2048; omega
  | ⟨1, _⟩ => show win5_2.index t (1 : Fin 2) * 128 ≤ (i 1).val ∧ (i 1).val < win5_2.index t (1 : Fin 2) * 128 + 128; omega

/-- The output array after the region is `project` of the two input arrays as the region finds them. -/
theorem region5_value (c : Dev nD) :
    (dat5 (F := Ideal) V c).arrAt 2 cfg5.N = project (V c (Pipeline.arrRef spec5 0)) (V c (Pipeline.arrRef spec5 1)) :=
  (dat5 V c).arrAt_eq_of_cover 2 _ (fun t _ => project_flushed V c t) project_cover

end Cert.Sage.Regions

end
-- ==== Proof.RegionPredict.lean ====
/-
  Region 6 of the kernel program as a value: the prediction head.

  The region walks 4 grid points. At point t it reads rows 2048·t … 2048·t + 2047 of the 8192×128 per-graph
  features, the whole 128×1 weight and the 1×1 bias, multiplies the rows by the weight (on the extended reals a
  change of float format and a cast of a shape to itself are the identity, and a product into the zero
  accumulator is the plain sum of products), adds the bias to every row, and writes the 2048×1 result back as
  rows 2048·t … 2048·t + 2047 of the output column. Row r of the output is therefore written by point
  r / 2048 and holds Σ_k g(r,k)·W(k,0) + b(0,0): the output array is `predict` of the three input arrays.
-/
import proofs.«153788_j67645734912961_1_alg».proof.Proof.Spec
import proofs.«153788_j67645734912961_1_alg».proof.Proof.LibPlainDot
import proofs.«153788_j67645734912961_1_alg».proof.Proof.Gen.KernelIdeal.Frame
import Idealize.ShloMosaic.Lib.Pipeline.Value
import Idealize.ShloMosaic.Lib.ValueLayout

noncomputable section

open scoped BigOperators
open Idealize.ShloMosaic Idealize.ShloMosaic.TcCoe Idealize.SL.Sem Idealize.ShloMosaic.ValueIdx
open Idealize.ShloMosaic.Pipeline (Dat)

namespace Cert.Sage.Regions

open Cert.KernelIdeal Cert.KernelIdeal.Gen Cert.Lib.PlainDot

variable (V : (c : Dev nD) → (b : Ref sig .tc) → Buf (Elt Ideal) ((c : Thread nD τ).loc b))

/-- The zero offsets of a whole-block access, as a constant function. -/
theorem predict_hz : (![0, 0] : Fin 2 → Nat) = fun _ => 0 := funext fun a => by fin_cases a <;> rfl

/-- The 1×1 bias spread over the 2048 rows reads the bias everywhere. -/
theorem predict_bias (b : Vec Ideal S1x1 .f32) (p : Fin 2048) (q : Fin 1) :
    broadcastTo S2048x1 b broadcasts_S1x1_S2048x1 (ix2 p q) = b (ix2 (0 : Fin 1) (0 : Fin 1)) := by
  obtain rfl : q = 0 := Subsingleton.elim _ _
  exact broadcastTo_1b_ab_apply (a := 2048) (b := 1) b broadcasts_S1x1_S2048x1 p 0

/-- What the body stores, read at entry (p, q) of the block: the 128-term sum of products of row p of the
    loaded feature block and the loaded weight column, plus the bias. -/
theorem predict_pay (x0 : Vec Ideal S2048x128 .f32) (x1 : Vec Ideal S128x1 .f32) (x2 : Vec Ideal S1x1 .f32)
    (p : Fin 2048) (q : Fin 1) :
    k6_pay1 x0 x1 x2 (ix2 p q) = (∑ k : Fin 128, x0 (ix2 p k) * x1 (ix2 k q)) + x2 (ix2 (0 : Fin 1) (0 : Fin 1)) := by
  unfold k6_pay1
  simp only [shapeCast_self, addf_apply]
  rw [predict_bias]
  exact congrArg (· + x2 (ix2 (0 : Fin 1) (0 : Fin 1)))
    (matmul_plain_zero_apply (M := 2048) (K := 128) (N := 1) none
      (truncf .bf16 x0 bitsLt_bf16_f32) (truncf .bf16 x1 bitsLt_bf16_f32) p q)

/-- The same entry as an entry of `predict` of three arrays, when row p of the feature block is row (i 0) of
    the feature array and the weight and bias blocks are their arrays. -/
theorem predict_point (A0 : FVec Ideal S8192x128 .f32) (A1 : FVec Ideal S128x1 .f32) (A2 : FVec Ideal S1x1 .f32)
    (x0 : Vec Ideal S2048x128 .f32) (x1 : Vec Ideal S128x1 .f32) (x2 : Vec Ideal S1x1 .f32)
    (i : S8192x1.Idx) (p : Fin 2048) (q : Fin 1)
    (h0 : ∀ k : Fin 128, x0 (ix2 p k) = A0 (ix2 (i 0) k))
    (h1 : ∀ k : Fin 128, x1 (ix2 k q) = A1 (ix2 k (i 1)))
    (h2 : x2 (ix2 (0 : Fin 1) (0 : Fin 1)) = A2 (ix2 (0 : Fin 1) (0 : Fin 1))) :
    k6_pay1 x0 x1 x2 (ix2 p q) = predict A0 A1 A2 i := by
  rw [predict_pay, h2]
  show _ = (∑ k : Fin 128, A0 (ix2 (i 0) k) * A1 (ix2 k (i 1))) + A2 (ix2 0 0)
  exact congrArg (· + A2 (ix2 (0 : Fin 1) (0 : Fin 1))) (Finset.sum_congr rfl fun k _ => by rw [h0 k, h1 k])

/-- The printed block-index maps over the grid: the feature window and the output window are at block (t, 0)
    at point t, the weight and bias windows at block (0, 0). -/
theorem predict_idx : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t of `predict` of the three input arrays as the region finds them. -/
theorem predict_flushed (c : Dev nD) (t : Fin cfg6.N) :
    (dat6 V c).flushed 3 t = ((cfg6.win 3).blk t).view.read (Elt Ideal)
      (predict (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero predict_hz]
  simp only [View.ld_unit_zero (S := S2048x128) predict_hz, View.ld_unit_zero (S := S128x1) predict_hz,
    View.ld_unit_zero (S := S1x1) predict_hz]
  obtain ⟨e00, e01, e10, e11, e20, e21, e30, e31⟩ := predict_idx t
  funext j
  obtain ⟨p, q, rfl⟩ : ∃ (p : Fin 2048) (q : Fin 1), j = ix2 p q := ⟨j 0, j 1, eq_ix2 j⟩
  refine predict_point (V c (Pipeline.arrRef spec6 0)) (V c (Pipeline.arrRef spec6 1)) (V c (Pipeline.arrRef spec6 2))
    (iblk6 V c 0 t) (iblk6 V c 1 t) (iblk6 V c 2 t)
    (((cfg6.win 3).blk t).view.emb (ix2 p q)) p q (fun k => ?_) (fun k => ?_) ?_
  · show V c (Pipeline.arrRef spec6 0) (((cfg6.win 0).blk t).view.emb (ix2 p k)) = V c (Pipeline.arrRef spec6 0) _
    refine congrArg _ (funext fun a => Fin.ext ?_)
    match a with
    | ⟨0, _⟩ => show win6_0.index t (0 : Fin 2) * 2048 + 1 * p.val = win6_3.index t (0 : Fin 2) * 2048 + 1 * p.val; omega
    | ⟨1, _⟩ => show win6_0.index t (1 : Fin 2) * 128 + 1 * k.val = k.val; omega
  · show V c (Pipeline.arrRef spec6 1) (((cfg6.win 1).blk t).view.emb (ix2 k q)) = V c (Pipeline.arrRef spec6 1) _
    refine congrArg _ (funext fun a => Fin.ext ?_)
    match a with
    | ⟨0, _⟩ => show win6_1.index t (0 : Fin 2) * 128 + 1 * k.val = k.val; omega
    | ⟨1, _⟩ => show win6_1.index t (1 : Fin 2) * 1 + 1 * q.val = win6_3.index t (1 : Fin 2) * 1 + 1 * q.val; omega
  · show V c (Pipeline.arrRef spec6 2) (((cfg6.win 2).blk t).view.emb (ix2 (0 : Fin 1) (0 : Fin 1))) = V c (Pipeline.arrRef spec6 2) _
    refine congrArg _ (funext fun a => Fin.ext ?_)
    match a with
    | ⟨0, _⟩ => show win6_2.index t (0 : Fin 2) * 1 + 1 * 0 = 0; omega
    | ⟨1, _⟩ => show win6_2.index t (1 : Fin 2) * 1 + 1 * 0 = 0; omega

/-- An index of the output array is in point t's block iff each coordinate is in the block's range on its axis. -/
theorem predict_mem_blk (t : Fin cfg6.N) (i : S8192x1.Idx) :
    i ∈ ((cfg6.win 3).blk t).view.set ↔ ∀ a : Fin 2, win6_3.index t a * S2048x1.size a ≤ (i a).val
      ∧ (i a).val < win6_3.index t a * S2048x1.size a + S2048x1.size a := by
  show i ∈ ((View.whole main_v106).slice (win6_3.rect t)).set ↔ _
  rw [View.set_slice_whole, Rect.mem_set_unit]
  exact Iff.rfl

/-- Every index of the output array is in some point's block: row r is in the block of point r / 2048. -/
theorem predict_cover (i : S8192x1.Idx) :
    ∃ t : Fin cfg6.N, (cfg6.win 3).flush t = true ∧ i ∈ ((cfg6.win 3).blk t).view.set := by
  have hi0 : (i 0).val < 8192 := (i 0).isLt
  have hi1 : (i 1).val < 1 := (i 1).isLt
  have hN : cfg6.N = 4 := N_6
  obtain ⟨t, ht⟩ : ∃ t : Fin cfg6.N, t.val = (i 0).val / 2048 := ⟨⟨(i 0).val / 2048, by rw [hN]; omega⟩, rfl⟩
  obtain ⟨e00, e01, e10, e11, e20, e21, e30, e31⟩ := predict_idx t
  refine ⟨t, flush6_3 t, ?_⟩
  rw [predict_mem_blk]
  intro a
  match a with
  | ⟨0, _⟩ => show win6_3.index t (0 : Fin 2) * 2048 ≤ (i 0).val ∧ (i 0).val < win6_3.index t (0 : Fin 2) * 2048 + 2048; omega
  | ⟨1, _⟩ => show win6_3.index t (1 : Fin 2) * 1 ≤ (i 1).val ∧ (i 1).val < win6_3.index t (1 : Fin 2) * 1 + 1; omega

/-- The output array after the region is `predict` of the three input arrays as the region finds them. -/
theorem region6_value (c : Dev nD) :
    (dat6 (F := Ideal) V c).arrAt 3 cfg6.N
      = predict (V c (Pipeline.arrRef spec6 0)) (V c (Pipeline.arrRef spec6 1)) (V c (Pipeline.arrRef spec6 2)) :=
  (dat6 V c).arrAt_eq_of_cover 3 _ (fun t _ => predict_flushed V c t) predict_cover

end Cert.Sage.Regions

end
-- ==== Proof.KernelStages.lean ====
/-
  The kernel's program, segment by segment, as values. On core c write a0 … a10 for the argument arrays as
  launched. Then the buffer a region writes holds, at the region's exit and until something overwrites it:
  after the embedding region x0 = embed a0 a2; after the l-th node-update region
  x(l+1) = layer … l x(l) (the host stretch before it computes the aggregation of x(l) and cuts the layer's
  weights out of W and b); after the projection region z = project x4 a5; after the last host stretch the
  per-graph mean of z and the 1×1 bias; after the prediction region the network's output `net a0 … a10`.
  Each step reads the region's output array through the regions' value lemmas and the host stretch through
  its operations applied to the previous boundary's buffers.
-/
import proofs.«153788_j67645734912961_1_alg».proof.Proof.KernelKeeps
import proofs.«153788_j67645734912961_1_alg».proof.Proof.WeightSlabs
import proofs.«153788_j67645734912961_1_alg».proof.Proof.RegionEmbed
import proofs.«153788_j67645734912961_1_alg».proof.Proof.RegionNode1
import proofs.«153788_j67645734912961_1_alg».proof.Proof.RegionNode2
import proofs.«153788_j67645734912961_1_alg».proof.Proof.RegionNode3
import proofs.«153788_j67645734912961_1_alg».proof.Proof.RegionNode4
import proofs.«153788_j67645734912961_1_alg».proof.Proof.RegionProject
import proofs.«153788_j67645734912961_1_alg».proof.Proof.RegionPredict

noncomputable section

namespace Cert.Sage.Fold

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The features after the embedding region. -/
def x0 : FVec Ideal S131072x128 .f32 :=
  embed (m ((c : Thread nD τ).loc main_arg0)) (m ((c : Thread nD τ).loc main_arg2))

/-- One layer with core c's launch arguments. -/
def step (l : Fin 4) (x : FVec Ideal S131072x128 .f32) : FVec Ideal S131072x128 .f32 :=
  layer (m ((c : Thread nD τ).loc main_arg1)) (m ((c : Thread nD τ).loc main_arg3)) (m ((c : Thread nD τ).loc main_arg4))
    (m ((c : Thread nD τ).loc main_arg8)) (m ((c : Thread nD τ).loc main_arg9)) l x

/-- The embedding region's output array. -/
theorem W2_v18 : W2 (F := Ideal) m ρ c (Proc.devRef .tc main_v18) = x0 m c := by
  refine (W2_arr (F := Ideal) m ρ c 2).trans ((Regions.region0_value (V1 (F := Ideal) m ρ) c).trans ?_)
  have e0 : V1 (F := Ideal) m ρ c (Pipeline.arrRef spec0 0) = m ((c : Thread nD τ).loc main_arg0) :=
    (by host_keeps : StableHlo.after hostOps0 (W0 m ρ c) (Proc.devRef .tc main_arg0) = W0 m ρ c (Proc.devRef .tc main_arg0))
  have e2 : V1 (F := Ideal) m ρ c (Pipeline.arrRef spec0 1) = m ((c : Thread nD τ).loc main_arg2) :=
    (by host_keeps : StableHlo.after hostOps0 (W0 m ρ c) (Proc.devRef .tc main_arg2) = W0 m ρ c (Proc.devRef .tc main_arg2))
  rw [e0, e2]; rfl

set_option maxHeartbeats 2000000 in
/-- Layer 0: the host stretch computes the aggregation of the features and cuts the layer's weights; the
    node-update region then leaves `step 0` of the features. -/
theorem layer0 (x : FVec Ideal S131072x128 .f32) (hk : Keeps m c (W2 (F := Ideal) m ρ c))
    (hx : W2 (F := Ideal) m ρ c (Proc.devRef .tc main_v18) = x) :
    W4 (F := Ideal) m ρ c (Proc.devRef .tc main_v38) = step m c 0 x := by
  have hq := keeps3 m ρ c hk
  have ex : W3 (F := Ideal) m ρ c (Proc.devRef .tc main_v18) = x :=
    (by host_keeps : StableHlo.after hostOps1 (W2 m ρ c) (Proc.devRef .tc main_v18) = W2 m ρ c (Proc.devRef .tc main_v18)).trans hx
  have ec : W3 (F := Ideal) m ρ c (Proc.devRef .tc main_v30) = aggregate (m ((c : Thread nD τ).loc main_arg8)) (m ((c : Thread nD τ).loc main_arg9)) (invDeg (m ((c : Thread nD τ).loc main_arg9))) x := by
    show StableHlo.after hostOps1 (W2 m ρ c) (Proc.devRef .tc main_v30) = _
    after_results_simp
    rw [hk.a8, hk.a9, hk.dg, hx]; rfl
  have eh : W3 (F := Ideal) m ρ c (Proc.devRef .tc main_v32) = wSelf (m ((c : Thread nD τ).loc main_arg3)) 0 := by
    show StableHlo.after hostOps1 (W2 m ρ c) (Proc.devRef .tc main_v32) = _
    after_results_simp
    rw [hk.a3]; exact Slabs.wSelf_eq _ 0 (by decide) _ _
  have en : W3 (F := Ideal) m ρ c (Proc.devRef .tc main_v34) = wNbr (m ((c : Thread nD τ).loc main_arg3)) 0 := by
    show StableHlo.after hostOps1 (W2 m ρ c) (Proc.devRef .tc main_v34) = _
    after_results_simp
    rw [hk.a3]; exact Slabs.wNbr_eq _ 0 (by decide) _ _
  have eb : W3 (F := Ideal) m ρ c (Proc.devRef .tc main_v37) = biasRow (m ((c : Thread nD τ).loc main_arg4)) 0 := by
    show StableHlo.after hostOps1 (W2 m ρ c) (Proc.devRef .tc main_v37) = _
    after_results_simp
    rw [hk.a4]; exact Slabs.biasRow_eq _ 0 (by decide) _ _ _
  refine (W4_arr (F := Ideal) m ρ c 6).trans ((Regions.region1_value (V3 (F := Ideal) m ρ) c).trans ?_)
  show nodeApply (W3 (F := Ideal) m ρ c (Proc.devRef .tc main_v18)) (W3 (F := Ideal) m ρ c (Proc.devRef .tc main_v30)) (W3 (F := Ideal) m ρ c (Proc.devRef .tc main_arg1))
      (W3 (F := Ideal) m ρ c (Proc.devRef .tc main_v32)) (W3 (F := Ideal) m ρ c (Proc.devRef .tc main_v34)) (W3 (F := Ideal) m ρ c (Proc.devRef .tc main_v37)) = _
  rw [ex, ec, hq.a1, eh, en, eb]; rfl

set_option maxHeartbeats 2000000 in
/-- Layer 1: the host stretch computes the aggregation of the features and cuts the layer's weights; the
    node-update region then leaves `step 1` of the features. -/
theorem layer1 (x : FVec Ideal S131072x128 .f32) (hk : Keeps m c (W4 (F := Ideal) m ρ c))
    (hx : W4 (F := Ideal) m ρ c (Proc.devRef .tc main_v38) = x) :
    W6 (F := Ideal) m ρ c (Proc.devRef .tc main_v58) = step m c 1 x := by
  have hq := keeps5 m ρ c hk
  have ex : W5 (F := Ideal) m ρ c (Proc.devRef .tc main_v38) = x :=
    (by host_keeps : StableHlo.after hostOps2 (W4 m ρ c) (Proc.devRef .tc main_v38) = W4 m ρ c (Proc.devRef .tc main_v38)).trans hx
  have ec : W5 (F := Ideal) m ρ c (Proc.devRef .tc main_v50) = aggregate (m ((c : Thread nD τ).loc main_arg8)) (m ((c : Thread nD τ).loc main_arg9)) (invDeg (m ((c : Thread nD τ).loc main_arg9))) x := by
    show StableHlo.after hostOps2 (W4 m ρ c) (Proc.devRef .tc main_v50) = _
    after_results_simp
    rw [hk.a8, hk.a9, hk.dg, hx]; rfl
  have eh : W5 (F := Ideal) m ρ c (Proc.devRef .tc main_v52) = wSelf (m ((c : Thread nD τ).loc main_arg3)) 1 := by
    show StableHlo.after hostOps2 (W4 m ρ c) (Proc.devRef .tc main_v52) = _
    after_results_simp
    rw [hk.a3]; exact Slabs.wSelf_eq _ 1 (by decide) _ _
  have en : W5 (F := Ideal) m ρ c (Proc.devRef .tc main_v54) = wNbr (m ((c : Thread nD τ).loc main_arg3)) 1 := by
    show StableHlo.after hostOps2 (W4 m ρ c) (Proc.devRef .tc main_v54) = _
    after_results_simp
    rw [hk.a3]; exact Slabs.wNbr_eq _ 1 (by decide) _ _
  have eb : W5 (F := Ideal) m ρ c (Proc.devRef .tc main_v57) = biasRow (m ((c : Thread nD τ).loc main_arg4)) 1 := by
    show StableHlo.after hostOps2 (W4 m ρ c) (Proc.devRef .tc main_v57) = _
    after_results_simp
    rw [hk.a4]; exact Slabs.biasRow_eq _ 1 (by decide) _ _ _
  refine (W6_arr (F := Ideal) m ρ c 6).trans ((Regions.region2_value (V5 (F := Ideal) m ρ) c).trans ?_)
  show nodeApply (W5 (F := Ideal) m ρ c (Proc.devRef .tc main_v38)) (W5 (F := Ideal) m ρ c (Proc.devRef .tc main_v50)) (W5 (F := Ideal) m ρ c (Proc.devRef .tc main_arg1))
      (W5 (F := Ideal) m ρ c (Proc.devRef .tc main_v52)) (W5 (F := Ideal) m ρ c (Proc.devRef .tc main_v54)) (W5 (F := Ideal) m ρ c (Proc.devRef .tc main_v57)) = _
  rw [ex, ec, hq.a1, eh, en, eb]; rfl

set_option maxHeartbeats 2000000 in
/-- Layer 2: the host stretch computes the aggregation of the features and cuts the layer's weights; the
    node-update region then leaves `step 2` of the features. -/
theorem layer2 (x : FVec Ideal S131072x128 .f32) (hk : Keeps m c (W6 (F := Ideal) m ρ c))
    (hx : W6 (F := Ideal) m ρ c (Proc.devRef .tc main_v58) = x) :
    W8 (F := Ideal) m ρ c (Proc.devRef .tc main_v78) = step m c 2 x := by
  have hq := keeps7 m ρ c hk
  have ex : W7 (F := Ideal) m ρ c (Proc.devRef .tc main_v58) = x :=
    (by host_keeps : StableHlo.after hostOps3 (W6 m ρ c) (Proc.devRef .tc main_v58) = W6 m ρ c (Proc.devRef .tc main_v58)).trans hx
  have ec : W7 (F := Ideal) m ρ c (Proc.devRef .tc main_v70) = aggregate (m ((c : Thread nD τ).loc main_arg8)) (m ((c : Thread nD τ).loc main_arg9)) (invDeg (m ((c : Thread nD τ).loc main_arg9))) x := by
    show StableHlo.after hostOps3 (W6 m ρ c) (Proc.devRef .tc main_v70) = _
    after_results_simp
    rw [hk.a8, hk.a9, hk.dg, hx]; rfl
  have eh : W7 (F := Ideal) m ρ c (Proc.devRef .tc main_v72) = wSelf (m ((c : Thread nD τ).loc main_arg3)) 2 := by
    show StableHlo.after hostOps3 (W6 m ρ c) (Proc.devRef .tc main_v72) = _
    after_results_simp
    rw [hk.a3]; exact Slabs.wSelf_eq _ 2 (by decide) _ _
  have en : W7 (F := Ideal) m ρ c (Proc.devRef .tc main_v74) = wNbr (m ((c : Thread nD τ).loc main_arg3)) 2 := by
    show StableHlo.after hostOps3 (W6 m ρ c) (Proc.devRef .tc main_v74) = _
    after_results_simp
    rw [hk.a3]; exact Slabs.wNbr_eq _ 2 (by decide) _ _
  have eb : W7 (F := Ideal) m ρ c (Proc.devRef .tc main_v77) = biasRow (m ((c : Thread nD τ).loc main_arg4)) 2 := by
    show StableHlo.after hostOps3 (W6 m ρ c) (Proc.devRef .tc main_v77) = _
    after_results_simp
    rw [hk.a4]; exact Slabs.biasRow_eq _ 2 (by decide) _ _ _
  refine (W8_arr (F := Ideal) m ρ c 6).trans ((Regions.region3_value (V7 (F := Ideal) m ρ) c).trans ?_)
  show nodeApply (W7 (F := Ideal) m ρ c (Proc.devRef .tc main_v58)) (W7 (F := Ideal) m ρ c (Proc.devRef .tc main_v70)) (W7 (F := Ideal) m ρ c (Proc.devRef .tc main_arg1))
      (W7 (F := Ideal) m ρ c (Proc.devRef .tc main_v72)) (W7 (F := Ideal) m ρ c (Proc.devRef .tc main_v74)) (W7 (F := Ideal) m ρ c (Proc.devRef .tc main_v77)) = _
  rw [ex, ec, hq.a1, eh, en, eb]; rfl

set_option maxHeartbeats 2000000 in
/-- Layer 3: the host stretch computes the aggregation of the features and cuts the layer's weights; the
    node-update region then leaves `step 3` of the features. -/
theorem layer3 (x : FVec Ideal S131072x128 .f32) (hk : Keeps m c (W8 (F := Ideal) m ρ c))
    (hx : W8 (F := Ideal) m ρ c (Proc.devRef .tc main_v78) = x) :
    W10 (F := Ideal) m ρ c (Proc.devRef .tc main_v98) = step m c 3 x := by
  have hq := keeps9 m ρ c hk
  have ex : W9 (F := Ideal) m ρ c (Proc.devRef .tc main_v78) = x :=
    (by host_keeps : StableHlo.after hostOps4 (W8 m ρ c) (Proc.devRef .tc main_v78) = W8 m ρ c (Proc.devRef .tc main_v78)).trans hx
  have ec : W9 (F := Ideal) m ρ c (Proc.devRef .tc main_v90) = aggregate (m ((c : Thread nD τ).loc main_arg8)) (m ((c : Thread nD τ).loc main_arg9)) (invDeg (m ((c : Thread nD τ).loc main_arg9))) x := by
    show StableHlo.after hostOps4 (W8 m ρ c) (Proc.devRef .tc main_v90) = _
    after_results_simp
    rw [hk.a8, hk.a9, hk.dg, hx]; rfl
  have eh : W9 (F := Ideal) m ρ c (Proc.devRef .tc main_v92) = wSelf (m ((c : Thread nD τ).loc main_arg3)) 3 := by
    show StableHlo.after hostOps4 (W8 m ρ c) (Proc.devRef .tc main_v92) = _
    after_results_simp
    rw [hk.a3]; exact Slabs.wSelf_eq _ 3 (by decide) _ _
  have en : W9 (F := Ideal) m ρ c (Proc.devRef .tc main_v94) = wNbr (m ((c : Thread nD τ).loc main_arg3)) 3 := by
    show StableHlo.after hostOps4 (W8 m ρ c) (Proc.devRef .tc main_v94) = _
    after_results_simp
    rw [hk.a3]; exact Slabs.wNbr_eq _ 3 (by decide) _ _
  have eb : W9 (F := Ideal) m ρ c (Proc.devRef .tc main_v97) = biasRow (m ((c : Thread nD τ).loc main_arg4)) 3 := by
    show StableHlo.after hostOps4 (W8 m ρ c) (Proc.devRef .tc main_v97) = _
    after_results_simp
    rw [hk.a4]; exact Slabs.biasRow_eq _ 3 (by decide) _ _ _
  refine (W10_arr (F := Ideal) m ρ c 6).trans ((Regions.region4_value (V9 (F := Ideal) m ρ) c).trans ?_)
  show nodeApply (W9 (F := Ideal) m ρ c (Proc.devRef .tc main_v78)) (W9 (F := Ideal) m ρ c (Proc.devRef .tc main_v90)) (W9 (F := Ideal) m ρ c (Proc.devRef .tc main_arg1))
      (W9 (F := Ideal) m ρ c (Proc.devRef .tc main_v92)) (W9 (F := Ideal) m ρ c (Proc.devRef .tc main_v94)) (W9 (F := Ideal) m ρ c (Proc.devRef .tc main_v97)) = _
  rw [ex, ec, hq.a1, eh, en, eb]; rfl

/-- The projection region leaves the features times the read-out weight. -/
theorem projected (x : FVec Ideal S131072x128 .f32) (hk : Keeps m c (W10 (F := Ideal) m ρ c))
    (hx : W10 (F := Ideal) m ρ c (Proc.devRef .tc main_v98) = x) :
    W11 (F := Ideal) m ρ c (Proc.devRef .tc main_v99) = project x (m ((c : Thread nD τ).loc main_arg5)) := by
  refine (W11_arr (F := Ideal) m ρ c 2).trans ((Regions.region5_value (V10 (F := Ideal) m ρ) c).trans ?_)
  show project (W10 (F := Ideal) m ρ c (Proc.devRef .tc main_v98)) (W10 (F := Ideal) m ρ c (Proc.devRef .tc main_arg5)) = _
  rw [hx, hk.a5]

set_option maxHeartbeats 2000000 in
/-- The last host stretch takes the per-graph mean and reshapes the bias; the prediction region leaves the output. -/
theorem predicted (z : FVec Ideal S131072x128 .f32) (hk : Keeps m c (W11 (F := Ideal) m ρ c))
    (hz : W11 (F := Ideal) m ρ c (Proc.devRef .tc main_v99) = z) :
    W13 (F := Ideal) m ρ c (Proc.devRef .tc main_v106)
      = predict (graphMean (m ((c : Thread nD τ).loc main_arg10)) (invCount (m ((c : Thread nD τ).loc main_arg10))) z) (m ((c : Thread nD τ).loc main_arg6)) (biasCell (m ((c : Thread nD τ).loc main_arg7))) := by
  have hq := keeps12 m ρ c hk
  have eg : W12 (F := Ideal) m ρ c (Proc.devRef .tc main_v104) = graphMean (m ((c : Thread nD τ).loc main_arg10)) (invCount (m ((c : Thread nD τ).loc main_arg10))) z := by
    show StableHlo.after hostOps6 (W11 m ρ c) (Proc.devRef .tc main_v104) = _
    after_results_simp
    rw [hk.a10, hk.gc, hz]; rfl
  have eb : W12 (F := Ideal) m ρ c (Proc.devRef .tc main_v105) = biasCell (m ((c : Thread nD τ).loc main_arg7)) := by
    show StableHlo.after hostOps6 (W11 m ρ c) (Proc.devRef .tc main_v105) = _
    after_results_simp
    rw [hk.a7]; exact Slabs.biasCell_eq _ _
  refine (W13_arr (F := Ideal) m ρ c 3).trans ((Regions.region6_value (V12 (F := Ideal) m ρ) c).trans ?_)
  show predict (W12 (F := Ideal) m ρ c (Proc.devRef .tc main_v104)) (W12 (F := Ideal) m ρ c (Proc.devRef .tc main_arg6))
      (W12 (F := Ideal) m ρ c (Proc.devRef .tc main_v105)) = _
  rw [eg, hq.a6, eb]

/-- The result buffer at the last boundary is the network's output on the launch arguments. -/
theorem W13_out : W13 (F := Ideal) m ρ c (Proc.devRef .tc main_v106)
    = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have k1 := keeps1 m ρ c
  have k2 := keeps2 m ρ c k1
  have k3 := keeps3 m ρ c k2
  have k4 := keeps4 m ρ c k3
  have k5 := keeps5 m ρ c k4
  have k6 := keeps6 m ρ c k5
  have k7 := keeps7 m ρ c k6
  have k8 := keeps8 m ρ c k7
  have k9 := keeps9 m ρ c k8
  have k10 := keeps10 m ρ c k9
  have k11 := keeps11 m ρ c k10
  have s1 := layer0 m ρ c _ k2 (W2_v18 m ρ c)
  have s2 := layer1 m ρ c _ k4 s1
  have s3 := layer2 m ρ c _ k6 s2
  have s4 := layer3 m ρ c _ k8 s3
  exact predicted m ρ c _ k11 (projected m ρ c _ k10 s4)

end Cert.Sage.Fold

end
-- ==== Proof.LibHostLines.lean ====
/-
  A straight line of host operations, cut at one of them.

  The contents a line of operations leaves are a fold over the list.  To read ONE buffer after a long line without
  unfolding all of it: a buffer that no operation from position `k` on writes holds what the first `k` operations
  left (`after_eq_take`); the first `k + 1` operations are the first `k` followed by operation `k`
  (`after_take_succ`), whose own result lemma then applies; and two stretches run one after the other compose
  (`after_append`).  With these a buffer written once, by an operation whose operands are written earlier or
  never, is read in a few steps whatever the line's length and whatever the other operations are.
-/
import Idealize.ShloMosaic.Lib.StableHlo.Run

noncomputable section

namespace Cert.Lib.HostLines

open Idealize.ShloMosaic Idealize.ShloMosaic.StableHlo

section Lines
variable {τ : Topo} {sig : RefSig} {Val : EltTy → Type}

/-- Two stretches run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A buffer written by no operation from position `k` on holds what the first `k` operations left. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- The first `k + 1` operations are the first `k`, then operation `k`. -/
theorem after_take_succ (ops : List (HloOp τ sig Val)) (V : Valuation τ sig Val) (k : Nat) (hk : k < ops.length) :
    after (ops.take (k + 1)) V = (ops[k]).result (after (ops.take k) V) := by
  rw [List.take_succ_eq_append_getElem hk, after_append]; rfl

end Lines

end Cert.Lib.HostLines

end
-- ==== Proof.RefFold.lean ====
/-
  The reference's program read as values, segment by segment. Its @main is a straight line of 158 host
  operations; the contents it leaves are the fold of the operations' results over the launch contents. The line
  is cut into six stretches — the degree and count columns with the embedding, the four layers, and the
  projection with the read-out and the prediction — and each stretch is read through its own operations from
  what the stretch before left: the argument arrays and the two reciprocal-count columns are written by no later
  operation, and the features a stretch leaves are the next stage's value as a function of the arguments. Composed,
  the result buffer after the whole line holds the last stage's value, and every argument what it held at launch.
-/
import proofs.«153788_j67645734912961_1_alg».proof.Proof.RefOps
import proofs.«153788_j67645734912961_1_alg».proof.Proof.ReadP
import proofs.«153788_j67645734912961_1_alg».proof.Proof.LibHostLines

set_option maxRecDepth 8192

noncomputable section

namespace Cert.Sage.RefFold

open Idealize.ShloMosaic Idealize.ShloMosaic.TcCoe Idealize.SL.Sem Idealize.ShloMosaic.StableHlo
open Cert.ReferenceIdeal Cert.ReferenceIdeal.Gen Cert.ReferenceIdeal.ValueP

variable (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a5 : (⟨S128x128, .f32⟩ : BufTy).Contents (Elt Ideal)) (a6 : (⟨S128x1, .f32⟩ : BufTy).Contents (Elt Ideal)) (a7 : (⟨S1, .f32⟩ : BufTy).Contents (Elt Ideal)) (a8 : (⟨S2097152, .i32⟩ : BufTy).Contents (Elt Ideal)) (a9 : (⟨S2097152, .i32⟩ : BufTy).Contents (Elt Ideal)) (a10 : (⟨S131072, .i32⟩ : BufTy).Contents (Elt Ideal))

/-- The six stretches of the line. -/
abbrev seg0 : List (HloOp τ sig (Elt Ideal)) := (ops (F := Ideal)).take 27
abbrev seg1 : List (HloOp τ sig (Elt Ideal)) := ((ops (F := Ideal)).drop 27).take 30
abbrev seg2 : List (HloOp τ sig (Elt Ideal)) := ((ops (F := Ideal)).drop 57).take 30
abbrev seg3 : List (HloOp τ sig (Elt Ideal)) := ((ops (F := Ideal)).drop 87).take 30
abbrev seg4 : List (HloOp τ sig (Elt Ideal)) := ((ops (F := Ideal)).drop 117).take 30
abbrev seg5 : List (HloOp τ sig (Elt Ideal)) := (ops (F := Ideal)).drop 147

/-- A layer's stretch in three pieces: up to the aggregated features, the concatenation, the rest. -/
abbrev pre (l : Nat) : List (HloOp τ sig (Elt Ideal)) := ((ops (F := Ideal)).drop (27 + 30 * l)).take 15
abbrev mid (l : Nat) : List (HloOp τ sig (Elt Ideal)) := ((ops (F := Ideal)).drop (42 + 30 * l)).take 1
abbrev post (l : Nat) : List (HloOp τ sig (Elt Ideal)) := ((ops (F := Ideal)).drop (43 + 30 * l)).take 14

/-- The line is its stretches in order. -/
theorem ops_split : ops (F := Ideal) = seg0 ++ (seg1 ++ (seg2 ++ (seg3 ++ (seg4 ++ seg5)))) := rfl
theorem seg1_split : seg1 = pre 0 ++ (mid 0 ++ post 0) := rfl
theorem seg2_split : seg2 = pre 1 ++ (mid 1 ++ post 1) := rfl
theorem seg3_split : seg3 = pre 2 ++ (mid 2 ++ post 2) := rfl
theorem seg4_split : seg4 = pre 3 ++ (mid 3 ++ post 3) := rfl

/-- Reads one buffer after a stretch: the stretch as a literal list, then each operation's result in one pass. -/
macro "seg_read" : tactic => `(tactic| (
  simp only [seg0, seg1, seg2, seg3, seg4, seg5, pre, mid, post, ops, List.take_succ_cons, List.drop_succ_cons, List.take_zero, List.drop_zero]
  after_results_simp))

/-- What every stretch leaves alone, at a boundary's contents `A`: the arguments and the two columns. -/
structure Kept (A : Valuation τ sig (Elt Ideal)) : Prop where
  k0 : A (Proc.devRef .tc main_arg0) = a0
  k1 : A (Proc.devRef .tc main_arg1) = a1
  k2 : A (Proc.devRef .tc main_arg2) = a2
  k3 : A (Proc.devRef .tc main_arg3) = a3
  k4 : A (Proc.devRef .tc main_arg4) = a4
  k5 : A (Proc.devRef .tc main_arg5) = a5
  k6 : A (Proc.devRef .tc main_arg6) = a6
  k7 : A (Proc.devRef .tc main_arg7) = a7
  k8 : A (Proc.devRef .tc main_arg8) = a8
  k9 : A (Proc.devRef .tc main_arg9) = a9
  k10 : A (Proc.devRef .tc main_arg10) = a10
  dg : A (Proc.devRef .tc main_v8) = ReadP.val_main_v8 (F := Ideal) a9
  gc : A (Proc.devRef .tc main_v17) = ReadP.val_main_v17 (F := Ideal) a10

set_option maxHeartbeats 4000000 in
/-- The first stretch, from contents holding the arguments. -/
theorem kept0 (A : Valuation τ sig (Elt Ideal))
    (h0 : A (Proc.devRef .tc main_arg0) = a0)
    (h1 : A (Proc.devRef .tc main_arg1) = a1)
    (h2 : A (Proc.devRef .tc main_arg2) = a2)
    (h3 : A (Proc.devRef .tc main_arg3) = a3)
    (h4 : A (Proc.devRef .tc main_arg4) = a4)
    (h5 : A (Proc.devRef .tc main_arg5) = a5)
    (h6 : A (Proc.devRef .tc main_arg6) = a6)
    (h7 : A (Proc.devRef .tc main_arg7) = a7)
    (h8 : A (Proc.devRef .tc main_arg8) = a8)
    (h9 : A (Proc.devRef .tc main_arg9) = a9)
    (h10 : A (Proc.devRef .tc main_arg10) = a10) :
    Kept a0 a1 a2 a3 a4 a5 a6 a7 a8 a9 a10 (after seg0 A) where
  k0 := by seg_read; exact h0
  k1 := by seg_read; exact h1
  k2 := by seg_read; exact h2
  k3 := by seg_read; exact h3
  k4 := by seg_read; exact h4
  k5 := by seg_read; exact h5
  k6 := by seg_read; exact h6
  k7 := by seg_read; exact h7
  k8 := by seg_read; exact h8
  k9 := by seg_read; exact h9
  k10 := by seg_read; exact h10
  dg := by seg_read; rw [h9]; rfl
  gc := by seg_read; rw [h10]; rfl

/-- The first stretch leaves the embedding. -/
theorem feat0 (A : Valuation τ sig (Elt Ideal)) (h0 : A (Proc.devRef .tc main_arg0) = a0) (h2 : A (Proc.devRef .tc main_arg2) = a2) :
    after seg0 A (Proc.devRef .tc main_v18) = ReadP.val_main_v18 (F := Ideal) a0 a2 := by
  seg_read; rw [h0, h2]; rfl

set_option maxHeartbeats 4000000 in
/-- Stretch 1 (a layer) writes none of the kept buffers. -/
theorem kept1 (A : Valuation τ sig (Elt Ideal)) (h : Kept a0 a1 a2 a3 a4 a5 a6 a7 a8 a9 a10 A) : Kept a0 a1 a2 a3 a4 a5 a6 a7 a8 a9 a10 (after seg1 A) where
  k0 := by seg_read; exact h.k0
  k1 := by seg_read; exact h.k1
  k2 := by seg_read; exact h.k2
  k3 := by seg_read; exact h.k3
  k4 := by seg_read; exact h.k4
  k5 := by seg_read; exact h.k5
  k6 := by seg_read; exact h.k6
  k7 := by seg_read; exact h.k7
  k8 := by seg_read; exact h.k8
  k9 := by seg_read; exact h.k9
  k10 := by seg_read; exact h.k10
  dg := by seg_read; exact h.dg
  gc := by seg_read; exact h.gc

set_option maxHeartbeats 2000000 in
/-- Stretch 1 takes the features of the stage before to the next stage's: first the aggregated features, then
    the concatenation of the two (read for any two contents, then at these), then the rest of the layer. -/
theorem feat1 (A : Valuation τ sig (Elt Ideal)) (h : Kept a0 a1 a2 a3 a4 a5 a6 a7 a8 a9 a10 A)
    (hx : A (Proc.devRef .tc main_v18) = ReadP.val_main_v18 (F := Ideal) a0 a2) :
    after seg1 A (Proc.devRef .tc main_v43) = ReadP.val_main_v43 (F := Ideal) a0 a1 a2 a3 a4 a8 a9 := by
  -- after the first piece
  have c1 : after (pre 0) A (Proc.devRef .tc main_v30) = ReadP.val_main_v30 (F := Ideal) a0 a2 a8 a9 := by
    seg_read; rw [h.k8, h.k9, h.dg, hx]; rfl
  have x1 : after (pre 0) A (Proc.devRef .tc main_v18) = ReadP.val_main_v18 (F := Ideal) a0 a2 := by seg_read; exact hx
  have p1 : after (pre 0) A (Proc.devRef .tc main_arg1) = a1 := by seg_read; exact h.k1
  have p3 : after (pre 0) A (Proc.devRef .tc main_arg3) = a3 := by seg_read; exact h.k3
  have p4 : after (pre 0) A (Proc.devRef .tc main_arg4) = a4 := by seg_read; exact h.k4
  -- after the concatenation
  have cat : ∀ (B : Valuation τ sig (Elt Ideal)) (X C : (⟨S131072x128, .f32⟩ : BufTy).Contents (Elt Ideal)),
      B (Proc.devRef .tc main_v18) = X → B (Proc.devRef .tc main_v30) = C →
      after (mid 0) B (Proc.devRef .tc main_v31)
        = concatenate S131072x256 1 [⟨S131072x128, X⟩, ⟨S131072x128, C⟩] concatenates_S131072x128_S131072x128_S131072x256_d1 := by
    intro B X C hX hC; subst hX; subst hC; seg_read
  have c2 : after (mid 0) (after (pre 0) A) (Proc.devRef .tc main_v31) = ReadP.val_main_v31 (F := Ideal) a0 a2 a8 a9 := cat _ _ _ x1 c1
  have x2 : after (mid 0) (after (pre 0) A) (Proc.devRef .tc main_v18) = ReadP.val_main_v18 (F := Ideal) a0 a2 := by seg_read; exact x1
  have q1 : after (mid 0) (after (pre 0) A) (Proc.devRef .tc main_arg1) = a1 := by seg_read; exact p1
  have q3 : after (mid 0) (after (pre 0) A) (Proc.devRef .tc main_arg3) = a3 := by seg_read; exact p3
  have q4 : after (mid 0) (after (pre 0) A) (Proc.devRef .tc main_arg4) = a4 := by seg_read; exact p4
  rw [seg1_split, Cert.Lib.HostLines.after_append, Cert.Lib.HostLines.after_append]
  generalize after (mid 0) (after (pre 0) A) = B' at c2 x2 q1 q3 q4 ⊢
  seg_read; rw [q1, q3, q4, c2, x2]; rfl

set_option maxHeartbeats 4000000 in
/-- Stretch 2 (a layer) writes none of the kept buffers. -/
theorem kept2 (A : Valuation τ sig (Elt Ideal)) (h : Kept a0 a1 a2 a3 a4 a5 a6 a7 a8 a9 a10 A) : Kept a0 a1 a2 a3 a4 a5 a6 a7 a8 a9 a10 (after seg2 A) where
  k0 := by seg_read; exact h.k0
  k1 := by seg_read; exact h.k1
  k2 := by seg_read; exact h.k2
  k3 := by seg_read; exact h.k3
  k4 := by seg_read; exact h.k4
  k5 := by seg_read; exact h.k5
  k6 := by seg_read; exact h.k6
  k7 := by seg_read; exact h.k7
  k8 := by seg_read; exact h.k8
  k9 := by seg_read; exact h.k9
  k10 := by seg_read; exact h.k10
  dg := by seg_read; exact h.dg
  gc := by seg_read; exact h.gc

set_option maxHeartbeats 2000000 in
/-- Stretch 2 takes the features of the stage before to the next stage's: first the aggregated features, then
    the concatenation of the two (read for any two contents, then at these), then the rest of the layer. -/
theorem feat2 (A : Valuation τ sig (Elt Ideal)) (h : Kept a0 a1 a2 a3 a4 a5 a6 a7 a8 a9 a10 A)
    (hx : A (Proc.devRef .tc main_v43) = ReadP.val_main_v43 (F := Ideal) a0 a1 a2 a3 a4 a8 a9) :
    after seg2 A (Proc.devRef .tc main_v68) = ReadP.val_main_v68 (F := Ideal) a0 a1 a2 a3 a4 a8 a9 := by
  -- after the first piece
  have c1 : after (pre 1) A (Proc.devRef .tc main_v55) = ReadP.val_main_v55 (F := Ideal) a0 a1 a2 a3 a4 a8 a9 := by
    seg_read; rw [h.k8, h.k9, h.dg, hx]; rfl
  have x1 : after (pre 1) A (Proc.devRef .tc main_v43) = ReadP.val_main_v43 (F := Ideal) a0 a1 a2 a3 a4 a8 a9 := by seg_read; exact hx
  have p1 : after (pre 1) A (Proc.devRef .tc main_arg1) = a1 := by seg_read; exact h.k1
  have p3 : after (pre 1) A (Proc.devRef .tc main_arg3) = a3 := by seg_read; exact h.k3
  have p4 : after (pre 1) A (Proc.devRef .tc main_arg4) = a4 := by seg_read; exact h.k4
  -- after the concatenation
  have cat : ∀ (B : Valuation τ sig (Elt Ideal)) (X C : (⟨S131072x128, .f32⟩ : BufTy).Contents (Elt Ideal)),
      B (Proc.devRef .tc main_v43) = X → B (Proc.devRef .tc main_v55) = C →
      after (mid 1) B (Proc.devRef .tc main_v56)
        = concatenate S131072x256 1 [⟨S131072x128, X⟩, ⟨S131072x128, C⟩] concatenates_S131072x128_S131072x128_S131072x256_d1 := by
    intro B X C hX hC; subst hX; subst hC; seg_read
  have c2 : after (mid 1) (after (pre 1) A) (Proc.devRef .tc main_v56) = ReadP.val_main_v56 (F := Ideal) a0 a1 a2 a3 a4 a8 a9 := cat _ _ _ x1 c1
  have x2 : after (mid 1) (after (pre 1) A) (Proc.devRef .tc main_v43) = ReadP.val_main_v43 (F := Ideal) a0 a1 a2 a3 a4 a8 a9 := by seg_read; exact x1
  have q1 : after (mid 1) (after (pre 1) A) (Proc.devRef .tc main_arg1) = a1 := by seg_read; exact p1
  have q3 : after (mid 1) (after (pre 1) A) (Proc.devRef .tc main_arg3) = a3 := by seg_read; exact p3
  have q4 : after (mid 1) (after (pre 1) A) (Proc.devRef .tc main_arg4) = a4 := by seg_read; exact p4
  rw [seg2_split, Cert.Lib.HostLines.after_append, Cert.Lib.HostLines.after_append]
  generalize after (mid 1) (after (pre 1) A) = B' at c2 x2 q1 q3 q4 ⊢
  seg_read; rw [q1, q3, q4, c2, x2]; rfl

set_option maxHeartbeats 4000000 in
/-- Stretch 3 (a layer) writes none of the kept buffers. -/
theorem kept3 (A : Valuation τ sig (Elt Ideal)) (h : Kept a0 a1 a2 a3 a4 a5 a6 a7 a8 a9 a10 A) : Kept a0 a1 a2 a3 a4 a5 a6 a7 a8 a9 a10 (after seg3 A) where
  k0 := by seg_read; exact h.k0
  k1 := by seg_read; exact h.k1
  k2 := by seg_read; exact h.k2
  k3 := by seg_read; exact h.k3
  k4 := by seg_read; exact h.k4
  k5 := by seg_read; exact h.k5
  k6 := by seg_read; exact h.k6
  k7 := by seg_read; exact h.k7
  k8 := by seg_read; exact h.k8
  k9 := by seg_read; exact h.k9
  k10 := by seg_read; exact h.k10
  dg := by seg_read; exact h.dg
  gc := by seg_read; exact h.gc

set_option maxHeartbeats 2000000 in
/-- Stretch 3 takes the features of the stage before to the next stage's: first the aggregated features, then
    the concatenation of the two (read for any two contents, then at these), then the rest of the layer. -/
theorem feat3 (A : Valuation τ sig (Elt Ideal)) (h : Kept a0 a1 a2 a3 a4 a5 a6 a7 a8 a9 a10 A)
    (hx : A (Proc.devRef .tc main_v68) = ReadP.val_main_v68 (F := Ideal) a0 a1 a2 a3 a4 a8 a9) :
    after seg3 A (Proc.devRef .tc main_v93) = ReadP.val_main_v93 (F := Ideal) a0 a1 a2 a3 a4 a8 a9 := by
  -- after the first piece
  have c1 : after (pre 2) A (Proc.devRef .tc main_v80) = ReadP.val_main_v80 (F := Ideal) a0 a1 a2 a3 a4 a8 a9 := by
    seg_read; rw [h.k8, h.k9, h.dg, hx]; rfl
  have x1 : after (pre 2) A (Proc.devRef .tc main_v68) = ReadP.val_main_v68 (F := Ideal) a0 a1 a2 a3 a4 a8 a9 := by seg_read; exact hx
  have p1 : after (pre 2) A (Proc.devRef .tc main_arg1) = a1 := by seg_read; exact h.k1
  have p3 : after (pre 2) A (Proc.devRef .tc main_arg3) = a3 := by seg_read; exact h.k3
  have p4 : after (pre 2) A (Proc.devRef .tc main_arg4) = a4 := by seg_read; exact h.k4
  -- after the concatenation
  have cat : ∀ (B : Valuation τ sig (Elt Ideal)) (X C : (⟨S131072x128, .f32⟩ : BufTy).Contents (Elt Ideal)),
      B (Proc.devRef .tc main_v68) = X → B (Proc.devRef .tc main_v80) = C →
      after (mid 2) B (Proc.devRef .tc main_v81)
        = concatenate S131072x256 1 [⟨S131072x128, X⟩, ⟨S131072x128, C⟩] concatenates_S131072x128_S131072x128_S131072x256_d1 := by
    intro B X C hX hC; subst hX; subst hC; seg_read
  have c2 : after (mid 2) (after (pre 2) A) (Proc.devRef .tc main_v81) = ReadP.val_main_v81 (F := Ideal) a0 a1 a2 a3 a4 a8 a9 := cat _ _ _ x1 c1
  have x2 : after (mid 2) (after (pre 2) A) (Proc.devRef .tc main_v68) = ReadP.val_main_v68 (F := Ideal) a0 a1 a2 a3 a4 a8 a9 := by seg_read; exact x1
  have q1 : after (mid 2) (after (pre 2) A) (Proc.devRef .tc main_arg1) = a1 := by seg_read; exact p1
  have q3 : after (mid 2) (after (pre 2) A) (Proc.devRef .tc main_arg3) = a3 := by seg_read; exact p3
  have q4 : after (mid 2) (after (pre 2) A) (Proc.devRef .tc main_arg4) = a4 := by seg_read; exact p4
  rw [seg3_split, Cert.Lib.HostLines.after_append, Cert.Lib.HostLines.after_append]
  generalize after (mid 2) (after (pre 2) A) = B' at c2 x2 q1 q3 q4 ⊢
  seg_read; rw [q1, q3, q4, c2, x2]; rfl

set_option maxHeartbeats 4000000 in
/-- Stretch 4 (a layer) writes none of the kept buffers. -/
theorem kept4 (A : Valuation τ sig (Elt Ideal)) (h : Kept a0 a1 a2 a3 a4 a5 a6 a7 a8 a9 a10 A) : Kept a0 a1 a2 a3 a4 a5 a6 a7 a8 a9 a10 (after seg4 A) where
  k0 := by seg_read; exact h.k0
  k1 := by seg_read; exact h.k1
  k2 := by seg_read; exact h.k2
  k3 := by seg_read; exact h.k3
  k4 := by seg_read; exact h.k4
  k5 := by seg_read; exact h.k5
  k6 := by seg_read; exact h.k6
  k7 := by seg_read; exact h.k7
  k8 := by seg_read; exact h.k8
  k9 := by seg_read; exact h.k9
  k10 := by seg_read; exact h.k10
  dg := by seg_read; exact h.dg
  gc := by seg_read; exact h.gc

set_option maxHeartbeats 2000000 in
/-- Stretch 4 takes the features of the stage before to the next stage's: first the aggregated features, then
    the concatenation of the two (read for any two contents, then at these), then the rest of the layer. -/
theorem feat4 (A : Valuation τ sig (Elt Ideal)) (h : Kept a0 a1 a2 a3 a4 a5 a6 a7 a8 a9 a10 A)
    (hx : A (Proc.devRef .tc main_v93) = ReadP.val_main_v93 (F := Ideal) a0 a1 a2 a3 a4 a8 a9) :
    after seg4 A (Proc.devRef .tc main_v118) = ReadP.val_main_v118 (F := Ideal) a0 a1 a2 a3 a4 a8 a9 := by
  -- after the first piece
  have c1 : after (pre 3) A (Proc.devRef .tc main_v105) = ReadP.val_main_v105 (F := Ideal) a0 a1 a2 a3 a4 a8 a9 := by
    seg_read; rw [h.k8, h.k9, h.dg, hx]; rfl
  have x1 : after (pre 3) A (Proc.devRef .tc main_v93) = ReadP.val_main_v93 (F := Ideal) a0 a1 a2 a3 a4 a8 a9 := by seg_read; exact hx
  have p1 : after (pre 3) A (Proc.devRef .tc main_arg1) = a1 := by seg_read; exact h.k1
  have p3 : after (pre 3) A (Proc.devRef .tc main_arg3) = a3 := by seg_read; exact h.k3
  have p4 : after (pre 3) A (Proc.devRef .tc main_arg4) = a4 := by seg_read; exact h.k4
  -- after the concatenation
  have cat : ∀ (B : Valuation τ sig (Elt Ideal)) (X C : (⟨S131072x128, .f32⟩ : BufTy).Contents (Elt Ideal)),
      B (Proc.devRef .tc main_v93) = X → B (Proc.devRef .tc main_v105) = C →
      after (mid 3) B (Proc.devRef .tc main_v106)
        = concatenate S131072x256 1 [⟨S131072x128, X⟩, ⟨S131072x128, C⟩] concatenates_S131072x128_S131072x128_S131072x256_d1 := by
    intro B X C hX hC; subst hX; subst hC; seg_read
  have c2 : after (mid 3) (after (pre 3) A) (Proc.devRef .tc main_v106) = ReadP.val_main_v106 (F := Ideal) a0 a1 a2 a3 a4 a8 a9 := cat _ _ _ x1 c1
  have x2 : after (mid 3) (after (pre 3) A) (Proc.devRef .tc main_v93) = ReadP.val_main_v93 (F := Ideal) a0 a1 a2 a3 a4 a8 a9 := by seg_read; exact x1
  have q1 : after (mid 3) (after (pre 3) A) (Proc.devRef .tc main_arg1) = a1 := by seg_read; exact p1
  have q3 : after (mid 3) (after (pre 3) A) (Proc.devRef .tc main_arg3) = a3 := by seg_read; exact p3
  have q4 : after (mid 3) (after (pre 3) A) (Proc.devRef .tc main_arg4) = a4 := by seg_read; exact p4
  rw [seg4_split, Cert.Lib.HostLines.after_append, Cert.Lib.HostLines.after_append]
  generalize after (mid 3) (after (pre 3) A) = B' at c2 x2 q1 q3 q4 ⊢
  seg_read; rw [q1, q3, q4, c2, x2]; rfl

set_option maxHeartbeats 4000000 in
/-- The last stretch writes none of the arguments. -/
theorem args5 (A : Valuation τ sig (Elt Ideal)) (h : Kept a0 a1 a2 a3 a4 a5 a6 a7 a8 a9 a10 A) :
    after seg5 A (Proc.devRef .tc main_arg0) = a0 ∧
    after seg5 A (Proc.devRef .tc main_arg1) = a1 ∧
    after seg5 A (Proc.devRef .tc main_arg2) = a2 ∧
    after seg5 A (Proc.devRef .tc main_arg3) = a3 ∧
    after seg5 A (Proc.devRef .tc main_arg4) = a4 ∧
    after seg5 A (Proc.devRef .tc main_arg5) = a5 ∧
    after seg5 A (Proc.devRef .tc main_arg6) = a6 ∧
    after seg5 A (Proc.devRef .tc main_arg7) = a7 ∧
    after seg5 A (Proc.devRef .tc main_arg8) = a8 ∧
    after seg5 A (Proc.devRef .tc main_arg9) = a9 ∧
    after seg5 A (Proc.devRef .tc main_arg10) = a10 := by
  refine ⟨?_, ?_, ?_, ?_, ?_, ?_, ?_, ?_, ?_, ?_, ?_⟩
  · seg_read; exact h.k0
  · seg_read; exact h.k1
  · seg_read; exact h.k2
  · seg_read; exact h.k3
  · seg_read; exact h.k4
  · seg_read; exact h.k5
  · seg_read; exact h.k6
  · seg_read; exact h.k7
  · seg_read; exact h.k8
  · seg_read; exact h.k9
  · seg_read; exact h.k10

set_option maxHeartbeats 2000000 in
/-- The last stretch leaves the network's last stage in the result buffer. -/
theorem result5 (A : Valuation τ sig (Elt Ideal)) (h : Kept a0 a1 a2 a3 a4 a5 a6 a7 a8 a9 a10 A)
    (hx : A (Proc.devRef .tc main_v118) = ReadP.val_main_v118 (F := Ideal) a0 a1 a2 a3 a4 a8 a9) :
    after seg5 A (Proc.devRef .tc main_v128) = ReadP.val_main_v128 (F := Ideal) a0 a1 a2 a3 a4 a5 a6 a7 a8 a9 a10 := by
  seg_read; rw [h.k5, h.k6, h.k7, h.k10, h.gc, hx]; rfl

/-- After the whole line, from contents holding the arguments: the result buffer at the last stage's value and every
    argument as it was. -/
theorem fold_value (V : Valuation τ sig (Elt Ideal))
    (h0 : V (Proc.devRef .tc main_arg0) = a0)
    (h1 : V (Proc.devRef .tc main_arg1) = a1)
    (h2 : V (Proc.devRef .tc main_arg2) = a2)
    (h3 : V (Proc.devRef .tc main_arg3) = a3)
    (h4 : V (Proc.devRef .tc main_arg4) = a4)
    (h5 : V (Proc.devRef .tc main_arg5) = a5)
    (h6 : V (Proc.devRef .tc main_arg6) = a6)
    (h7 : V (Proc.devRef .tc main_arg7) = a7)
    (h8 : V (Proc.devRef .tc main_arg8) = a8)
    (h9 : V (Proc.devRef .tc main_arg9) = a9)
    (h10 : V (Proc.devRef .tc main_arg10) = a10) :
    after ops V (Proc.devRef .tc main_v128) = ReadP.val_main_v128 (F := Ideal) a0 a1 a2 a3 a4 a5 a6 a7 a8 a9 a10 ∧
    after ops V (Proc.devRef .tc main_arg0) = a0 ∧
    after ops V (Proc.devRef .tc main_arg1) = a1 ∧
    after ops V (Proc.devRef .tc main_arg2) = a2 ∧
    after ops V (Proc.devRef .tc main_arg3) = a3 ∧
    after ops V (Proc.devRef .tc main_arg4) = a4 ∧
    after ops V (Proc.devRef .tc main_arg5) = a5 ∧
    after ops V (Proc.devRef .tc main_arg6) = a6 ∧
    after ops V (Proc.devRef .tc main_arg7) = a7 ∧
    after ops V (Proc.devRef .tc main_arg8) = a8 ∧
    after ops V (Proc.devRef .tc main_arg9) = a9 ∧
    after ops V (Proc.devRef .tc main_arg10) = a10 := by
  have k0 := kept0 a0 a1 a2 a3 a4 a5 a6 a7 a8 a9 a10 V h0 h1 h2 h3 h4 h5 h6 h7 h8 h9 h10
  have x0 := feat0 a0 a2 V h0 h2
  have k1 := kept1 a0 a1 a2 a3 a4 a5 a6 a7 a8 a9 a10 _ k0
  have x1 := feat1 a0 a1 a2 a3 a4 a5 a6 a7 a8 a9 a10 _ k0 x0
  have k2 := kept2 a0 a1 a2 a3 a4 a5 a6 a7 a8 a9 a10 _ k1
  have x2 := feat2 a0 a1 a2 a3 a4 a5 a6 a7 a8 a9 a10 _ k1 x1
  have k3 := kept3 a0 a1 a2 a3 a4 a5 a6 a7 a8 a9 a10 _ k2
  have x3 := feat3 a0 a1 a2 a3 a4 a5 a6 a7 a8 a9 a10 _ k2 x2
  have k4 := kept4 a0 a1 a2 a3 a4 a5 a6 a7 a8 a9 a10 _ k3
  have x4 := feat4 a0 a1 a2 a3 a4 a5 a6 a7 a8 a9 a10 _ k3 x3
  rw [ops_split, Cert.Lib.HostLines.after_append, Cert.Lib.HostLines.after_append, Cert.Lib.HostLines.after_append,
    Cert.Lib.HostLines.after_append, Cert.Lib.HostLines.after_append]
  exact ⟨result5 a0 a1 a2 a3 a4 a5 a6 a7 a8 a9 a10 _ k4 x4, args5 a0 a1 a2 a3 a4 a5 a6 a7 a8 a9 a10 _ k4⟩

end Cert.Sage.RefFold

end
-- ==== Proof.RefStages.lean ====
/-
  The reference's stages outside the four layers, each as the shared function of the stage before it.

  The embedding and the two products after the layers are plain matrix products: read at (p, q) each is the
  sum over the shared axis of left (p, k) times right (k, q). The degree and graph-size reciprocals and the
  mean per graph are the same chains of accumulating scatter, maximum, division and broadcast as the shared
  definitions spell out, so those equations hold by unfolding names alone: no scatter is ever opened.
-/
import proofs.«153788_j67645734912961_1_alg».proof.Proof.Spec
import proofs.«153788_j67645734912961_1_alg».proof.Proof.ReadP

noncomputable section

open scoped BigOperators

namespace Cert.Sage.Ref

open Idealize.ShloMosaic Idealize.ShloMosaic.ValueIdx Cert.ReferenceIdeal

/-- The embedding: entry (p, q) of x·W is Σ_k x(p,k)·W(k,q) over the 28 input features. -/
theorem ref_embed (a0 : (⟨S131072x28, .f32⟩ : BufTy).Contents (Elt Ideal)) (a2 : (⟨S28x128, .f32⟩ : BufTy).Contents (Elt Ideal)) :
    ReadP.val_main_v18 (F := Ideal) a0 a2 = embed a0 a2 := by
  funext i
  obtain ⟨p, q, rfl⟩ : ∃ (p : Fin 131072) (q : Fin 128), i = ix2 p q := ⟨i 0, i 1, eq_ix2 i⟩
  have hl : ∀ k : Fin 28, ReadP.lidx_main_v18 (ix2 p q) k = ix2 p k := fun k =>
    funext fun a => Fin.ext (by match a with | ⟨0, _⟩ => rfl | ⟨1, _⟩ => rfl)
  have hr : ∀ k : Fin 28, ReadP.ridx_main_v18 (ix2 p q) k = ix2 k q := fun k =>
    funext fun a => Fin.ext (by match a with | ⟨0, _⟩ => rfl | ⟨1, _⟩ => rfl)
  rw [ReadP.val_main_v18_apply]
  exact Finset.sum_congr rfl fun k _ => by rw [hl k, hr k]

/-- 1 / max(in-degree, 1) per node: the same chain of operations on the destination numbers. -/
theorem ref_invdeg (a9 : (⟨S2097152, .i32⟩ : BufTy).Contents (Elt Ideal)) :
    ReadP.val_main_v8 (F := Ideal) a9 = invDeg a9 := by
  unfold invDeg ReadP.val_main_v8 ReadP.val_main_v7 ReadP.val_main_v6 ReadP.val_main_cst_2 ReadP.val_main_v5 ReadP.val_main_v4
    ReadP.val_main_cst_1 ReadP.val_main_v3 ReadP.val_main_v2 ReadP.val_main_v1 ReadP.val_main_cst_0 ReadP.val_main_v0 ReadP.val_main_cst
  rfl

/-- 1 / max(node count, 1) per graph: the same chain of operations on the graph numbers. -/
theorem ref_invgcnt (a10 : (⟨S131072, .i32⟩ : BufTy).Contents (Elt Ideal)) :
    ReadP.val_main_v17 (F := Ideal) a10 = invCount a10 := by
  unfold invCount ReadP.val_main_v17 ReadP.val_main_v16 ReadP.val_main_v15 ReadP.val_main_cst_6 ReadP.val_main_v14 ReadP.val_main_v13
    ReadP.val_main_cst_5 ReadP.val_main_v12 ReadP.val_main_v11 ReadP.val_main_v10 ReadP.val_main_cst_4 ReadP.val_main_v9 ReadP.val_main_cst_3
  rfl

/-- The read-out projection: entry (p, q) of x·W is Σ_k x(p,k)·W(k,q) over the 128 features. -/
theorem ref_project (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a5 : (⟨S128x128, .f32⟩ : BufTy).Contents (Elt Ideal)) (a8 : (⟨S2097152, .i32⟩ : BufTy).Contents (Elt Ideal)) (a9 : (⟨S2097152, .i32⟩ : BufTy).Contents (Elt Ideal)) :
    ReadP.val_main_v119 (F := Ideal) a0 a1 a2 a3 a4 a5 a8 a9
      = project (ReadP.val_main_v118 (F := Ideal) a0 a1 a2 a3 a4 a8 a9) a5 := by
  funext i
  obtain ⟨p, q, rfl⟩ : ∃ (p : Fin 131072) (q : Fin 128), i = ix2 p q := ⟨i 0, i 1, eq_ix2 i⟩
  have hl : ∀ k : Fin 128, ReadP.lidx_main_v119 (ix2 p q) k = ix2 p k := fun k =>
    funext fun a => Fin.ext (by match a with | ⟨0, _⟩ => rfl | ⟨1, _⟩ => rfl)
  have hr : ∀ k : Fin 128, ReadP.ridx_main_v119 (ix2 p q) k = ix2 k q := fun k =>
    funext fun a => Fin.ext (by match a with | ⟨0, _⟩ => rfl | ⟨1, _⟩ => rfl)
  rw [ReadP.val_main_v119_apply]
  exact Finset.sum_congr rfl fun k _ => by rw [hl k, hr k]

/-- The mean per graph of the projected rows: the same scatter and scaling on the graph numbers. -/
theorem ref_mean (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a5 : (⟨S128x128, .f32⟩ : BufTy).Contents (Elt Ideal)) (a8 : (⟨S2097152, .i32⟩ : BufTy).Contents (Elt Ideal)) (a9 : (⟨S2097152, .i32⟩ : BufTy).Contents (Elt Ideal)) (a10 : (⟨S131072, .i32⟩ : BufTy).Contents (Elt Ideal)) :
    ReadP.val_main_v124 (F := Ideal) a0 a1 a2 a3 a4 a5 a8 a9 a10
      = graphMean a10 (invCount a10) (ReadP.val_main_v119 (F := Ideal) a0 a1 a2 a3 a4 a5 a8 a9) := by
  rw [← ref_invgcnt a10]
  unfold graphMean ReadP.val_main_v124 ReadP.val_main_v123 ReadP.val_main_v122 ReadP.val_main_v121 ReadP.val_main_v120 ReadP.val_main_cst_18
  rfl

/-- The prediction: entry (g, 0) is Σ_k m(g,k)·W(k,0) + b, with m the mean per graph of the projected rows. -/
theorem ref_predict (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a5 : (⟨S128x128, .f32⟩ : BufTy).Contents (Elt Ideal)) (a6 : (⟨S128x1, .f32⟩ : BufTy).Contents (Elt Ideal)) (a7 : (⟨S1, .f32⟩ : BufTy).Contents (Elt Ideal)) (a8 : (⟨S2097152, .i32⟩ : BufTy).Contents (Elt Ideal)) (a9 : (⟨S2097152, .i32⟩ : BufTy).Contents (Elt Ideal)) (a10 : (⟨S131072, .i32⟩ : BufTy).Contents (Elt Ideal)) :
    ReadP.val_main_v128 (F := Ideal) a0 a1 a2 a3 a4 a5 a6 a7 a8 a9 a10
      = predict (graphMean a10 (invCount a10) (ReadP.val_main_v119 (F := Ideal) a0 a1 a2 a3 a4 a5 a8 a9)) a6 (biasCell a7) := by
  rw [← ref_mean a0 a1 a2 a3 a4 a5 a8 a9 a10]
  funext i
  obtain ⟨p, q, rfl⟩ : ∃ (p : Fin 8192) (q : Fin 1), i = ix2 p q := ⟨i 0, i 1, eq_ix2 i⟩
  have hl : ∀ k : Fin 128, ReadP.lidx_main_v125 (ix2 p q) k = ix2 p k := fun k =>
    funext fun a => Fin.ext (by match a with | ⟨0, _⟩ => rfl | ⟨1, _⟩ => rfl)
  have hr : ∀ k : Fin 128, ReadP.ridx_main_v125 (ix2 p q) k = ix2 k q := fun k =>
    funext fun a => Fin.ext (by match a with | ⟨0, _⟩ => rfl | ⟨1, _⟩ => rfl)
  have hb : ReadP.idx_main_v126 (ReadP.idx_main_v127 (ix2 p q)) = ix1 0 :=
    funext fun a => Fin.ext (by match a with | ⟨0, _⟩ => rfl)
  rw [ReadP.val_main_v128_apply, ReadP.val_main_v125_apply, ReadP.val_main_v127_apply, ReadP.val_main_v126_apply, hb]
  simp only [hl, hr]
  rfl

end Cert.Sage.Ref

end
-- ==== Proof.RefConcatSum.lean ====
/-
  A product against a row-wise concatenation, split at the joint.

  Let x and c have 128 columns each and let [x, c] be their concatenation along the columns (256 columns).
  For any weights w on the 256 columns, the sum over all 256 columns of [x, c](p, k) · w(k) is the sum
  over x's columns against the first 128 weights plus the sum over c's columns against the last 128:
  a column k < 128 of the concatenation is column k of x, a column 128 + k is column k of c, and a sum
  over 128 + 128 terms is the sum of its two halves. Only the order of the terms is used, so this holds
  on the extended reals with no finiteness assumption.
-/
import Idealize.ShloMosaic.Lib.Pipeline.Value
import Idealize.ShloMosaic.Lib.ValueIdx

noncomputable section

open scoped BigOperators

namespace Cert.Sage.Ref

open Idealize.ShloMosaic Idealize.ShloMosaic.ValueIdx

/-- The 256-term sum against the concatenation [x, c] is the two 128-term sums against x and against c. -/
theorem sum_concat_split {M : Nat}
    (x c : (⟨2, ![M, 128]⟩ : Shape).Idx → EReal)
    (h : Shape.Concatenates [(⟨2, ![M, 128]⟩ : Shape), (⟨2, ![M, 128]⟩ : Shape)] (⟨2, ![M, 256]⟩ : Shape) 1)
    (p : Fin M) (w : Fin 256 → EReal) :
    ∑ k : Fin 256, concatenate (⟨2, ![M, 256]⟩ : Shape) 1 [⟨(⟨2, ![M, 128]⟩ : Shape), x⟩, ⟨(⟨2, ![M, 128]⟩ : Shape), c⟩] h (ix2 p k) * w k
      = (∑ k : Fin 128, x (ix2 p k) * w (Fin.castAdd 128 k)) + ∑ k : Fin 128, c (ix2 p k) * w (Fin.natAdd 128 k) := by
  -- a column below 128 falls in the first piece, at the same coordinates
  have hL : ∀ k : Fin 128,
      concatenate (⟨2, ![M, 256]⟩ : Shape) 1 [⟨(⟨2, ![M, 128]⟩ : Shape), x⟩, ⟨(⟨2, ![M, 128]⟩ : Shape), c⟩] h (ix2 p (Fin.castAdd 128 k))
        = x (ix2 p k) := fun k =>
    concatenate_pair_apply_left 1 x c h (ix2 p (Fin.castAdd 128 k)) rfl (ix2 p k)
      (fun b => by match b with | ⟨0, _⟩ => rfl | ⟨1, _⟩ => rfl)
  -- a column 128 + k falls in the second piece, at column k
  have hR : ∀ k : Fin 128,
      concatenate (⟨2, ![M, 256]⟩ : Shape) 1 [⟨(⟨2, ![M, 128]⟩ : Shape), x⟩, ⟨(⟨2, ![M, 128]⟩ : Shape), c⟩] h (ix2 p (Fin.natAdd 128 k))
        = c (ix2 p k) := fun k =>
    concatenate_pair_apply_right 1 x c h (ix2 p (Fin.natAdd 128 k)) rfl rfl (ix2 p k)
      (fun b hb => by match b, hb with | ⟨0, _⟩, _ => rfl | ⟨1, _⟩, hb => exact absurd rfl hb)
      (by show k.val + 128 = 128 + k.val; omega)
  refine (Fin.sum_univ_add (fun k : Fin (128 + 128) =>
    concatenate (⟨2, ![M, 256]⟩ : Shape) 1 [⟨(⟨2, ![M, 128]⟩ : Shape), x⟩, ⟨(⟨2, ![M, 128]⟩ : Shape), c⟩] h (ix2 p k) * w k)).trans ?_
  simp only [hL, hR]

end Cert.Sage.Ref

end
-- ==== Proof.RefLayer0.lean ====
/-
  The reference's first layer as the shared layer function of the stage before it.

  The reference multiplies the concatenation [x, c] of the node features x and the aggregated features c
  (256 columns) by the 256×128 matrix W[0]; the shared function multiplies x by rows 0..127 of W[0] and c by
  rows 128..255 and adds the two. The two agree because the 256-term sum splits at the joint into its two
  128-term halves, where the concatenation reads x and c. The rest is read entry by entry: the bias row is
  row 0 of the bias array, relu is the maximum with zero, then the scale by the node's factor and the
  residual x. The aggregated features are the same chain of gather, scatter and scaling on both sides, so
  that equation holds by unfolding names alone.
-/
import proofs.«153788_j67645734912961_1_alg».proof.Proof.Spec
import proofs.«153788_j67645734912961_1_alg».proof.Proof.ReadP
import proofs.«153788_j67645734912961_1_alg».proof.Proof.RefStages
import proofs.«153788_j67645734912961_1_alg».proof.Proof.RefConcatSum

noncomputable section

open scoped BigOperators

namespace Cert.Sage.Ref

open Idealize.ShloMosaic Idealize.ShloMosaic.ValueIdx Cert.ReferenceIdeal

/-- The mean over in-neighbours entering this layer: the same gather, scatter and scaling of the stage before. -/
theorem ref_agg0 (a0 : (⟨S131072x28, .f32⟩ : BufTy).Contents (Elt Ideal)) (a2 : (⟨S28x128, .f32⟩ : BufTy).Contents (Elt Ideal)) (a8 : (⟨S2097152, .i32⟩ : BufTy).Contents (Elt Ideal)) (a9 : (⟨S2097152, .i32⟩ : BufTy).Contents (Elt Ideal)) :
    ReadP.val_main_v30 (F := Ideal) a0 a2 a8 a9 = aggregate a8 a9 (invDeg a9) (ReadP.val_main_v18 (F := Ideal) a0 a2) := by
  rw [← ref_invdeg a9]
  unfold aggregate ReadP.val_main_v30 ReadP.val_main_v29 ReadP.val_main_v28 ReadP.val_main_v27 ReadP.val_main_v26 ReadP.val_main_cst_8 ReadP.val_main_v25 ReadP.val_main_v24 ReadP.val_main_v23 ReadP.val_main_v22 ReadP.val_main_v21 ReadP.val_main_c_7 ReadP.val_main_v20 ReadP.val_main_v19 ReadP.val_main_c
  rfl

/-- The layer: entry (p, q) is max (Σ_k x(p,k)·W(k,q) + Σ_k c(p,k)·W(128+k,q) + b(q)) 0 · s(p) + x(p,q). -/
theorem ref_layer0 (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a8 : (⟨S2097152, .i32⟩ : BufTy).Contents (Elt Ideal)) (a9 : (⟨S2097152, .i32⟩ : BufTy).Contents (Elt Ideal)) :
    ReadP.val_main_v43 (F := Ideal) a0 a1 a2 a3 a4 a8 a9 = layer a1 a3 a4 a8 a9 0 (ReadP.val_main_v18 (F := Ideal) a0 a2) := by
  funext i
  obtain ⟨p, q, rfl⟩ : ∃ (p : Fin 131072) (q : Fin 128), i = ix2 p q := ⟨i 0, i 1, eq_ix2 i⟩
  have hq : q.val < 128 := q.isLt
  -- the product's operands at (p, q) and column k: the concatenation at (p, k), the weight at (k, q)
  have hl : ∀ k : Fin 256, ReadP.lidx_main_v34 (ix2 p q) k = ix2 p k := fun k =>
    funext fun a => Fin.ext (by match a with | ⟨0, _⟩ => rfl | ⟨1, _⟩ => rfl)
  have hr : ∀ k : Fin 256, ReadP.ridx_main_v34 (ix2 p q) k = ix2 k q := fun k =>
    funext fun a => Fin.ext (by match a with | ⟨0, _⟩ => rfl | ⟨1, _⟩ => rfl)
  -- the sliced and reshaped weight at (k, q) is W at (0, k, q)
  have hw : ∀ k : Fin 256, ReadP.val_main_v33 (F := Ideal) a3 (ix2 k q) = a3 (ix3 (0 : Fin 4) k q) := fun k => by
    have hk : k.val < 256 := k.isLt
    rw [ReadP.val_main_v33_apply, ReadP.val_main_v32_apply]
    refine congrArg a3 (funext fun a => Fin.ext ?_)
    match a with
    | ⟨0, _⟩ => rfl
    | ⟨1, _⟩ => show (k.val * 128 + q.val) / 128 % 256 = k.val; omega
    | ⟨2, _⟩ => show (k.val * 128 + q.val) % 128 = q.val; omega
  -- the sliced, reshaped and twice broadcast bias at (p, q) is b at (0, q)
  have hb : ReadP.idx_main_v35 (ReadP.idx_main_v36 (ReadP.idx_main_v37 (ReadP.idx_main_v38 (ix2 p q)))) = ix2 (0 : Fin 4) q :=
    funext fun a => Fin.ext (by
      match a with
      | ⟨0, _⟩ => rfl
      | ⟨1, _⟩ => show q.val % 128 = q.val; omega)
  -- the broadcast scale at (p, q) is s at (p, 0)
  have hs : ReadP.idx_main_v41 (ix2 p q) = ix2 p (0 : Fin 1) :=
    funext fun a => Fin.ext (by match a with | ⟨0, _⟩ => rfl | ⟨1, _⟩ => rfl)
  -- the 256-term product against the concatenation is the two 128-term products
  have hsum : (∑ k : Fin 256, (ReadP.val_main_v31 (F := Ideal) a0 a2 a8 a9) (ReadP.lidx_main_v34 (ix2 p q) k)
        * (ReadP.val_main_v33 (F := Ideal) a3) (ReadP.ridx_main_v34 (ix2 p q) k))
      = (∑ k : Fin 128, (ReadP.val_main_v18 (F := Ideal) a0 a2) (ix2 p k) * wSelf a3 0 (ix2 k q))
        + ∑ k : Fin 128, (aggregate a8 a9 (invDeg a9) (ReadP.val_main_v18 (F := Ideal) a0 a2)) (ix2 p k) * wNbr a3 0 (ix2 k q) := by
    refine (Finset.sum_congr rfl fun k _ => ?_).trans
      (sum_concat_split (ReadP.val_main_v18 (F := Ideal) a0 a2) (aggregate a8 a9 (invDeg a9) (ReadP.val_main_v18 (F := Ideal) a0 a2))
        Gen.concatenates_S131072x128_S131072x128_S131072x256_d1 p (fun k => a3 (ix3 (0 : Fin 4) k q)))
    rw [hl k, hr k, hw k, ← ref_agg0 a0 a2 a8 a9]
    rfl
  rw [ReadP.val_main_v43_apply, ReadP.val_main_v42_apply, ReadP.val_main_v40_apply, ReadP.val_main_v39_apply,
    ReadP.val_main_v34_apply, hsum,
    ReadP.val_main_v38_apply, ReadP.val_main_v37_apply, ReadP.val_main_v36_apply, ReadP.val_main_v35_apply, hb,
    ReadP.val_main_call0_v0_apply, ReadP.val_main_call0_cst_apply, ReadP.val_main_v41_apply, hs]
  simp only [Ideal.addf_def, Ideal.mulf_def, Ideal.maximumf_def, Ideal.ofBits_def, Ideal.ofBits_zero_f32]
  rfl

end Cert.Sage.Ref

end
-- ==== Proof.RefLayer1.lean ====
/-
  The reference's second layer as the shared layer function of the stage before it.

  The reference multiplies the concatenation [x, c] of the node features x and the aggregated features c
  (256 columns) by the 256×128 matrix W[1]; the shared function multiplies x by rows 0..127 of W[1] and c by
  rows 128..255 and adds the two. The two agree because the 256-term sum splits at the joint into its two
  128-term halves, where the concatenation reads x and c. The rest is read entry by entry: the bias row is
  row 1 of the bias array, relu is the maximum with zero, then the scale by the node's factor and the
  residual x. The aggregated features are the same chain of gather, scatter and scaling on both sides, so
  that equation holds by unfolding names alone.
-/
import proofs.«153788_j67645734912961_1_alg».proof.Proof.Spec
import proofs.«153788_j67645734912961_1_alg».proof.Proof.ReadP
import proofs.«153788_j67645734912961_1_alg».proof.Proof.RefStages
import proofs.«153788_j67645734912961_1_alg».proof.Proof.RefConcatSum

noncomputable section

open scoped BigOperators

namespace Cert.Sage.Ref

open Idealize.ShloMosaic Idealize.ShloMosaic.ValueIdx Cert.ReferenceIdeal

/-- The mean over in-neighbours entering this layer: the same gather, scatter and scaling of the stage before. -/
theorem ref_agg1 (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a8 : (⟨S2097152, .i32⟩ : BufTy).Contents (Elt Ideal)) (a9 : (⟨S2097152, .i32⟩ : BufTy).Contents (Elt Ideal)) :
    ReadP.val_main_v55 (F := Ideal) a0 a1 a2 a3 a4 a8 a9 = aggregate a8 a9 (invDeg a9) (ReadP.val_main_v43 (F := Ideal) a0 a1 a2 a3 a4 a8 a9) := by
  rw [← ref_invdeg a9]
  unfold aggregate ReadP.val_main_v55 ReadP.val_main_v54 ReadP.val_main_v53 ReadP.val_main_v52 ReadP.val_main_v51 ReadP.val_main_cst_11 ReadP.val_main_v50 ReadP.val_main_v49 ReadP.val_main_v48 ReadP.val_main_v47 ReadP.val_main_v46 ReadP.val_main_c_10 ReadP.val_main_v45 ReadP.val_main_v44 ReadP.val_main_c_9
  rfl

/-- The layer: entry (p, q) is max (Σ_k x(p,k)·W(k,q) + Σ_k c(p,k)·W(128+k,q) + b(q)) 0 · s(p) + x(p,q). -/
theorem ref_layer1 (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a8 : (⟨S2097152, .i32⟩ : BufTy).Contents (Elt Ideal)) (a9 : (⟨S2097152, .i32⟩ : BufTy).Contents (Elt Ideal)) :
    ReadP.val_main_v68 (F := Ideal) a0 a1 a2 a3 a4 a8 a9 = layer a1 a3 a4 a8 a9 1 (ReadP.val_main_v43 (F := Ideal) a0 a1 a2 a3 a4 a8 a9) := by
  funext i
  obtain ⟨p, q, rfl⟩ : ∃ (p : Fin 131072) (q : Fin 128), i = ix2 p q := ⟨i 0, i 1, eq_ix2 i⟩
  have hq : q.val < 128 := q.isLt
  -- the product's operands at (p, q) and column k: the concatenation at (p, k), the weight at (k, q)
  have hl : ∀ k : Fin 256, ReadP.lidx_main_v59 (ix2 p q) k = ix2 p k := fun k =>
    funext fun a => Fin.ext (by match a with | ⟨0, _⟩ => rfl | ⟨1, _⟩ => rfl)
  have hr : ∀ k : Fin 256, ReadP.ridx_main_v59 (ix2 p q) k = ix2 k q := fun k =>
    funext fun a => Fin.ext (by match a with | ⟨0, _⟩ => rfl | ⟨1, _⟩ => rfl)
  -- the sliced and reshaped weight at (k, q) is W at (1, k, q)
  have hw : ∀ k : Fin 256, ReadP.val_main_v58 (F := Ideal) a3 (ix2 k q) = a3 (ix3 (1 : Fin 4) k q) := fun k => by
    have hk : k.val < 256 := k.isLt
    rw [ReadP.val_main_v58_apply, ReadP.val_main_v57_apply]
    refine congrArg a3 (funext fun a => Fin.ext ?_)
    match a with
    | ⟨0, _⟩ => rfl
    | ⟨1, _⟩ => show (k.val * 128 + q.val) / 128 % 256 = k.val; omega
    | ⟨2, _⟩ => show (k.val * 128 + q.val) % 128 = q.val; omega
  -- the sliced, reshaped and twice broadcast bias at (p, q) is b at (1, q)
  have hb : ReadP.idx_main_v60 (ReadP.idx_main_v61 (ReadP.idx_main_v62 (ReadP.idx_main_v63 (ix2 p q)))) = ix2 (1 : Fin 4) q :=
    funext fun a => Fin.ext (by
      match a with
      | ⟨0, _⟩ => rfl
      | ⟨1, _⟩ => show q.val % 128 = q.val; omega)
  -- the broadcast scale at (p, q) is s at (p, 0)
  have hs : ReadP.idx_main_v66 (ix2 p q) = ix2 p (0 : Fin 1) :=
    funext fun a => Fin.ext (by match a with | ⟨0, _⟩ => rfl | ⟨1, _⟩ => rfl)
  -- the 256-term product against the concatenation is the two 128-term products
  have hsum : (∑ k : Fin 256, (ReadP.val_main_v56 (F := Ideal) a0 a1 a2 a3 a4 a8 a9) (ReadP.lidx_main_v59 (ix2 p q) k)
        * (ReadP.val_main_v58 (F := Ideal) a3) (ReadP.ridx_main_v59 (ix2 p q) k))
      = (∑ k : Fin 128, (ReadP.val_main_v43 (F := Ideal) a0 a1 a2 a3 a4 a8 a9) (ix2 p k) * wSelf a3 1 (ix2 k q))
        + ∑ k : Fin 128, (aggregate a8 a9 (invDeg a9) (ReadP.val_main_v43 (F := Ideal) a0 a1 a2 a3 a4 a8 a9)) (ix2 p k) * wNbr a3 1 (ix2 k q) := by
    refine (Finset.sum_congr rfl fun k _ => ?_).trans
      (sum_concat_split (ReadP.val_main_v43 (F := Ideal) a0 a1 a2 a3 a4 a8 a9) (aggregate a8 a9 (invDeg a9) (ReadP.val_main_v43 (F := Ideal) a0 a1 a2 a3 a4 a8 a9))
        Gen.concatenates_S131072x128_S131072x128_S131072x256_d1 p (fun k => a3 (ix3 (1 : Fin 4) k q)))
    rw [hl k, hr k, hw k, ← ref_agg1 a0 a1 a2 a3 a4 a8 a9]
    rfl
  rw [ReadP.val_main_v68_apply, ReadP.val_main_v67_apply, ReadP.val_main_v65_apply, ReadP.val_main_v64_apply,
    ReadP.val_main_v59_apply, hsum,
    ReadP.val_main_v63_apply, ReadP.val_main_v62_apply, ReadP.val_main_v61_apply, ReadP.val_main_v60_apply, hb,
    ReadP.val_main_call1_v0_apply, ReadP.val_main_call1_cst_apply, ReadP.val_main_v66_apply, hs]
  simp only [Ideal.addf_def, Ideal.mulf_def, Ideal.maximumf_def, Ideal.ofBits_def, Ideal.ofBits_zero_f32]
  rfl

end Cert.Sage.Ref

end
-- ==== Proof.RefLayer2.lean ====
/-
  The reference's third layer as the shared layer function of the stage before it.

  The reference multiplies the concatenation [x, c] of the node features x and the aggregated features c
  (256 columns) by the 256×128 matrix W[2]; the shared function multiplies x by rows 0..127 of W[2] and c by
  rows 128..255 and adds the two. The two agree because the 256-term sum splits at the joint into its two
  128-term halves, where the concatenation reads x and c. The rest is read entry by entry: the bias row is
  row 2 of the bias array, relu is the maximum with zero, then the scale by the node's factor and the
  residual x. The aggregated features are the same chain of gather, scatter and scaling on both sides, so
  that equation holds by unfolding names alone.
-/
import proofs.«153788_j67645734912961_1_alg».proof.Proof.Spec
import proofs.«153788_j67645734912961_1_alg».proof.Proof.ReadP
import proofs.«153788_j67645734912961_1_alg».proof.Proof.RefStages
import proofs.«153788_j67645734912961_1_alg».proof.Proof.RefConcatSum

noncomputable section

open scoped BigOperators

namespace Cert.Sage.Ref

open Idealize.ShloMosaic Idealize.ShloMosaic.ValueIdx Cert.ReferenceIdeal

/-- The mean over in-neighbours entering this layer: the same gather, scatter and scaling of the stage before. -/
theorem ref_agg2 (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a8 : (⟨S2097152, .i32⟩ : BufTy).Contents (Elt Ideal)) (a9 : (⟨S2097152, .i32⟩ : BufTy).Contents (Elt Ideal)) :
    ReadP.val_main_v80 (F := Ideal) a0 a1 a2 a3 a4 a8 a9 = aggregate a8 a9 (invDeg a9) (ReadP.val_main_v68 (F := Ideal) a0 a1 a2 a3 a4 a8 a9) := by
  rw [← ref_invdeg a9]
  unfold aggregate ReadP.val_main_v80 ReadP.val_main_v79 ReadP.val_main_v78 ReadP.val_main_v77 ReadP.val_main_v76 ReadP.val_main_cst_14 ReadP.val_main_v75 ReadP.val_main_v74 ReadP.val_main_v73 ReadP.val_main_v72 ReadP.val_main_v71 ReadP.val_main_c_13 ReadP.val_main_v70 ReadP.val_main_v69 ReadP.val_main_c_12
  rfl

/-- The layer: entry (p, q) is max (Σ_k x(p,k)·W(k,q) + Σ_k c(p,k)·W(128+k,q) + b(q)) 0 · s(p) + x(p,q). -/
theorem ref_layer2 (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a8 : (⟨S2097152, .i32⟩ : BufTy).Contents (Elt Ideal)) (a9 : (⟨S2097152, .i32⟩ : BufTy).Contents (Elt Ideal)) :
    ReadP.val_main_v93 (F := Ideal) a0 a1 a2 a3 a4 a8 a9 = layer a1 a3 a4 a8 a9 2 (ReadP.val_main_v68 (F := Ideal) a0 a1 a2 a3 a4 a8 a9) := by
  funext i
  obtain ⟨p, q, rfl⟩ : ∃ (p : Fin 131072) (q : Fin 128), i = ix2 p q := ⟨i 0, i 1, eq_ix2 i⟩
  have hq : q.val < 128 := q.isLt
  -- the product's operands at (p, q) and column k: the concatenation at (p, k), the weight at (k, q)
  have hl : ∀ k : Fin 256, ReadP.lidx_main_v84 (ix2 p q) k = ix2 p k := fun k =>
    funext fun a => Fin.ext (by match a with | ⟨0, _⟩ => rfl | ⟨1, _⟩ => rfl)
  have hr : ∀ k : Fin 256, ReadP.ridx_main_v84 (ix2 p q) k = ix2 k q := fun k =>
    funext fun a => Fin.ext (by match a with | ⟨0, _⟩ => rfl | ⟨1, _⟩ => rfl)
  -- the sliced and reshaped weight at (k, q) is W at (2, k, q)
  have hw : ∀ k : Fin 256, ReadP.val_main_v83 (F := Ideal) a3 (ix2 k q) = a3 (ix3 (2 : Fin 4) k q) := fun k => by
    have hk : k.val < 256 := k.isLt
    rw [ReadP.val_main_v83_apply, ReadP.val_main_v82_apply]
    refine congrArg a3 (funext fun a => Fin.ext ?_)
    match a with
    | ⟨0, _⟩ => rfl
    | ⟨1, _⟩ => show (k.val * 128 + q.val) / 128 % 256 = k.val; omega
    | ⟨2, _⟩ => show (k.val * 128 + q.val) % 128 = q.val; omega
  -- the sliced, reshaped and twice broadcast bias at (p, q) is b at (2, q)
  have hb : ReadP.idx_main_v85 (ReadP.idx_main_v86 (ReadP.idx_main_v87 (ReadP.idx_main_v88 (ix2 p q)))) = ix2 (2 : Fin 4) q :=
    funext fun a => Fin.ext (by
      match a with
      | ⟨0, _⟩ => rfl
      | ⟨1, _⟩ => show q.val % 128 = q.val; omega)
  -- the broadcast scale at (p, q) is s at (p, 0)
  have hs : ReadP.idx_main_v91 (ix2 p q) = ix2 p (0 : Fin 1) :=
    funext fun a => Fin.ext (by match a with | ⟨0, _⟩ => rfl | ⟨1, _⟩ => rfl)
  -- the 256-term product against the concatenation is the two 128-term products
  have hsum : (∑ k : Fin 256, (ReadP.val_main_v81 (F := Ideal) a0 a1 a2 a3 a4 a8 a9) (ReadP.lidx_main_v84 (ix2 p q) k)
        * (ReadP.val_main_v83 (F := Ideal) a3) (ReadP.ridx_main_v84 (ix2 p q) k))
      = (∑ k : Fin 128, (ReadP.val_main_v68 (F := Ideal) a0 a1 a2 a3 a4 a8 a9) (ix2 p k) * wSelf a3 2 (ix2 k q))
        + ∑ k : Fin 128, (aggregate a8 a9 (invDeg a9) (ReadP.val_main_v68 (F := Ideal) a0 a1 a2 a3 a4 a8 a9)) (ix2 p k) * wNbr a3 2 (ix2 k q) := by
    refine (Finset.sum_congr rfl fun k _ => ?_).trans
      (sum_concat_split (ReadP.val_main_v68 (F := Ideal) a0 a1 a2 a3 a4 a8 a9) (aggregate a8 a9 (invDeg a9) (ReadP.val_main_v68 (F := Ideal) a0 a1 a2 a3 a4 a8 a9))
        Gen.concatenates_S131072x128_S131072x128_S131072x256_d1 p (fun k => a3 (ix3 (2 : Fin 4) k q)))
    rw [hl k, hr k, hw k, ← ref_agg2 a0 a1 a2 a3 a4 a8 a9]
    rfl
  rw [ReadP.val_main_v93_apply, ReadP.val_main_v92_apply, ReadP.val_main_v90_apply, ReadP.val_main_v89_apply,
    ReadP.val_main_v84_apply, hsum,
    ReadP.val_main_v88_apply, ReadP.val_main_v87_apply, ReadP.val_main_v86_apply, ReadP.val_main_v85_apply, hb,
    ReadP.val_main_call2_v0_apply, ReadP.val_main_call2_cst_apply, ReadP.val_main_v91_apply, hs]
  simp only [Ideal.addf_def, Ideal.mulf_def, Ideal.maximumf_def, Ideal.ofBits_def, Ideal.ofBits_zero_f32]
  rfl

end Cert.Sage.Ref

end
-- ==== Proof.RefLayer3.lean ====
/-
  The reference's fourth layer as the shared layer function of the stage before it.

  The reference multiplies the concatenation [x, c] of the node features x and the aggregated features c
  (256 columns) by the 256×128 matrix W[3]; the shared function multiplies x by rows 0..127 of W[3] and c by
  rows 128..255 and adds the two. The two agree because the 256-term sum splits at the joint into its two
  128-term halves, where the concatenation reads x and c. The rest is read entry by entry: the bias row is
  row 3 of the bias array, relu is the maximum with zero, then the scale by the node's factor and the
  residual x. The aggregated features are the same chain of gather, scatter and scaling on both sides, so
  that equation holds by unfolding names alone.
-/
import proofs.«153788_j67645734912961_1_alg».proof.Proof.Spec
import proofs.«153788_j67645734912961_1_alg».proof.Proof.ReadP
import proofs.«153788_j67645734912961_1_alg».proof.Proof.RefStages
import proofs.«153788_j67645734912961_1_alg».proof.Proof.RefConcatSum

noncomputable section

open scoped BigOperators

namespace Cert.Sage.Ref

open Idealize.ShloMosaic Idealize.ShloMosaic.ValueIdx Cert.ReferenceIdeal

/-- The mean over in-neighbours entering this layer: the same gather, scatter and scaling of the stage before. -/
theorem ref_agg3 (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a8 : (⟨S2097152, .i32⟩ : BufTy).Contents (Elt Ideal)) (a9 : (⟨S2097152, .i32⟩ : BufTy).Contents (Elt Ideal)) :
    ReadP.val_main_v105 (F := Ideal) a0 a1 a2 a3 a4 a8 a9 = aggregate a8 a9 (invDeg a9) (ReadP.val_main_v93 (F := Ideal) a0 a1 a2 a3 a4 a8 a9) := by
  rw [← ref_invdeg a9]
  unfold aggregate ReadP.val_main_v105 ReadP.val_main_v104 ReadP.val_main_v103 ReadP.val_main_v102 ReadP.val_main_v101 ReadP.val_main_cst_17 ReadP.val_main_v100 ReadP.val_main_v99 ReadP.val_main_v98 ReadP.val_main_v97 ReadP.val_main_v96 ReadP.val_main_c_16 ReadP.val_main_v95 ReadP.val_main_v94 ReadP.val_main_c_15
  rfl

/-- The layer: entry (p, q) is max (Σ_k x(p,k)·W(k,q) + Σ_k c(p,k)·W(128+k,q) + b(q)) 0 · s(p) + x(p,q). -/
theorem ref_layer3 (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a8 : (⟨S2097152, .i32⟩ : BufTy).Contents (Elt Ideal)) (a9 : (⟨S2097152, .i32⟩ : BufTy).Contents (Elt Ideal)) :
    ReadP.val_main_v118 (F := Ideal) a0 a1 a2 a3 a4 a8 a9 = layer a1 a3 a4 a8 a9 3 (ReadP.val_main_v93 (F := Ideal) a0 a1 a2 a3 a4 a8 a9) := by
  funext i
  obtain ⟨p, q, rfl⟩ : ∃ (p : Fin 131072) (q : Fin 128), i = ix2 p q := ⟨i 0, i 1, eq_ix2 i⟩
  have hq : q.val < 128 := q.isLt
  -- the product's operands at (p, q) and column k: the concatenation at (p, k), the weight at (k, q)
  have hl : ∀ k : Fin 256, ReadP.lidx_main_v109 (ix2 p q) k = ix2 p k := fun k =>
    funext fun a => Fin.ext (by match a with | ⟨0, _⟩ => rfl | ⟨1, _⟩ => rfl)
  have hr : ∀ k : Fin 256, ReadP.ridx_main_v109 (ix2 p q) k = ix2 k q := fun k =>
    funext fun a => Fin.ext (by match a with | ⟨0, _⟩ => rfl | ⟨1, _⟩ => rfl)
  -- the sliced and reshaped weight at (k, q) is W at (3, k, q)
  have hw : ∀ k : Fin 256, ReadP.val_main_v108 (F := Ideal) a3 (ix2 k q) = a3 (ix3 (3 : Fin 4) k q) := fun k => by
    have hk : k.val < 256 := k.isLt
    rw [ReadP.val_main_v108_apply, ReadP.val_main_v107_apply]
    refine congrArg a3 (funext fun a => Fin.ext ?_)
    match a with
    | ⟨0, _⟩ => rfl
    | ⟨1, _⟩ => show (k.val * 128 + q.val) / 128 % 256 = k.val; omega
    | ⟨2, _⟩ => show (k.val * 128 + q.val) % 128 = q.val; omega
  -- the sliced, reshaped and twice broadcast bias at (p, q) is b at (3, q)
  have hb : ReadP.idx_main_v110 (ReadP.idx_main_v111 (ReadP.idx_main_v112 (ReadP.idx_main_v113 (ix2 p q)))) = ix2 (3 : Fin 4) q :=
    funext fun a => Fin.ext (by
      match a with
      | ⟨0, _⟩ => rfl
      | ⟨1, _⟩ => show q.val % 128 = q.val; omega)
  -- the broadcast scale at (p, q) is s at (p, 0)
  have hs : ReadP.idx_main_v116 (ix2 p q) = ix2 p (0 : Fin 1) :=
    funext fun a => Fin.ext (by match a with | ⟨0, _⟩ => rfl | ⟨1, _⟩ => rfl)
  -- the 256-term product against the concatenation is the two 128-term products
  have hsum : (∑ k : Fin 256, (ReadP.val_main_v106 (F := Ideal) a0 a1 a2 a3 a4 a8 a9) (ReadP.lidx_main_v109 (ix2 p q) k)
        * (ReadP.val_main_v108 (F := Ideal) a3) (ReadP.ridx_main_v109 (ix2 p q) k))
      = (∑ k : Fin 128, (ReadP.val_main_v93 (F := Ideal) a0 a1 a2 a3 a4 a8 a9) (ix2 p k) * wSelf a3 3 (ix2 k q))
        + ∑ k : Fin 128, (aggregate a8 a9 (invDeg a9) (ReadP.val_main_v93 (F := Ideal) a0 a1 a2 a3 a4 a8 a9)) (ix2 p k) * wNbr a3 3 (ix2 k q) := by
    refine (Finset.sum_congr rfl fun k _ => ?_).trans
      (sum_concat_split (ReadP.val_main_v93 (F := Ideal) a0 a1 a2 a3 a4 a8 a9) (aggregate a8 a9 (invDeg a9) (ReadP.val_main_v93 (F := Ideal) a0 a1 a2 a3 a4 a8 a9))
        Gen.concatenates_S131072x128_S131072x128_S131072x256_d1 p (fun k => a3 (ix3 (3 : Fin 4) k q)))
    rw [hl k, hr k, hw k, ← ref_agg3 a0 a1 a2 a3 a4 a8 a9]
    rfl
  rw [ReadP.val_main_v118_apply, ReadP.val_main_v117_apply, ReadP.val_main_v115_apply, ReadP.val_main_v114_apply,
    ReadP.val_main_v109_apply, hsum,
    ReadP.val_main_v113_apply, ReadP.val_main_v112_apply, ReadP.val_main_v111_apply, ReadP.val_main_v110_apply, hb,
    ReadP.val_main_call3_v0_apply, ReadP.val_main_call3_cst_apply, ReadP.val_main_v116_apply, hs]
  simp only [Ideal.addf_def, Ideal.mulf_def, Ideal.maximumf_def, Ideal.ofBits_def, Ideal.ofBits_zero_f32]
  rfl

end Cert.Sage.Ref

end
-- ==== Proof.RefValue.lean ====
/-
  The reference's result as the whole network: the stages composed.

  Each stage of the reference is the shared function of the stage before it (the embedding, four layers,
  the projection, the mean per graph and the prediction), so the last stage is their composition applied
  to the eleven arguments.
-/
import proofs.«153788_j67645734912961_1_alg».proof.Proof.Spec
import proofs.«153788_j67645734912961_1_alg».proof.Proof.ReadP
import proofs.«153788_j67645734912961_1_alg».proof.Proof.RefStages
import proofs.«153788_j67645734912961_1_alg».proof.Proof.RefLayer0
import proofs.«153788_j67645734912961_1_alg».proof.Proof.RefLayer1
import proofs.«153788_j67645734912961_1_alg».proof.Proof.RefLayer2
import proofs.«153788_j67645734912961_1_alg».proof.Proof.RefLayer3

noncomputable section

namespace Cert.Sage.Ref

open Idealize.ShloMosaic Idealize.ShloMosaic.ValueIdx Cert.ReferenceIdeal

/-- The reference's result is the network of the eleven arguments. -/
theorem ref_value (a0 : (⟨S131072x28, .f32⟩ : BufTy).Contents (Elt Ideal)) (a1 : (⟨S131072x1, .f32⟩ : BufTy).Contents (Elt Ideal)) (a2 : (⟨S28x128, .f32⟩ : BufTy).Contents (Elt Ideal)) (a3 : (⟨S4x256x128, .f32⟩ : BufTy).Contents (Elt Ideal)) (a4 : (⟨S4x128, .f32⟩ : BufTy).Contents (Elt Ideal)) (a5 : (⟨S128x128, .f32⟩ : BufTy).Contents (Elt Ideal)) (a6 : (⟨S128x1, .f32⟩ : BufTy).Contents (Elt Ideal)) (a7 : (⟨S1, .f32⟩ : BufTy).Contents (Elt Ideal)) (a8 : (⟨S2097152, .i32⟩ : BufTy).Contents (Elt Ideal)) (a9 : (⟨S2097152, .i32⟩ : BufTy).Contents (Elt Ideal)) (a10 : (⟨S131072, .i32⟩ : BufTy).Contents (Elt Ideal)) :
    ReadP.val_main_v128 (F := Ideal) a0 a1 a2 a3 a4 a5 a6 a7 a8 a9 a10 = net a0 a1 a2 a3 a4 a5 a6 a7 a8 a9 a10 := by
  unfold net
  rw [ref_predict, ref_project, ref_layer3, ref_layer2, ref_layer1, ref_layer0, ref_embed]

end Cert.Sage.Ref

end
-- ==== Proof.RefRun.lean ====
/-
  The reference's run with its result named. Every weakly fair execution of the reference's program from a
  memory with zero counters terminates, nothing faulting; its buffers end at the fold of the 158 operations'
  results over the launch contents, which at the result buffer is the last stage's value — the network
  `net` of the launch arguments — and at every argument buffer what was launched.
-/
import proofs.«153788_j67645734912961_1_alg».proof.Proof.RefFold
import proofs.«153788_j67645734912961_1_alg».proof.Proof.RefValue

noncomputable section

namespace Cert.Sage.Ref

open Idealize.ShloMosaic Idealize.ShloMosaic.TcCoe Idealize.SL.Sem Idealize.ShloMosaic.StableHlo

/-- The reference's run: the result buffer ends at `net` of the launch arguments, the arguments as launched. -/
theorem run_value (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v128)
          = net (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)) :=
  (θ_run Cert.ReferenceIdeal.defs _ _).mono (fun r h c => by
    obtain ⟨hv, g0, g1, g2, g3, g4, g5, g6, g7, g8, g9, g10⟩ :=
      Cert.Sage.RefFold.fold_value (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))
        (launchContents m c) rfl rfl rfl rfl rfl rfl rfl rfl rfl rfl rfl
    exact ⟨(h c Cert.ReferenceIdeal.main_v128).trans (hv.trans (ref_value _ _ _ _ _ _ _ _ _ _ _)),
      (h c Cert.ReferenceIdeal.main_arg0).trans g0, (h c Cert.ReferenceIdeal.main_arg1).trans g1,
      (h c Cert.ReferenceIdeal.main_arg2).trans g2, (h c Cert.ReferenceIdeal.main_arg3).trans g3,
      (h c Cert.ReferenceIdeal.main_arg4).trans g4, (h c Cert.ReferenceIdeal.main_arg5).trans g5,
      (h c Cert.ReferenceIdeal.main_arg6).trans g6, (h c Cert.ReferenceIdeal.main_arg7).trans g7,
      (h c Cert.ReferenceIdeal.main_arg8).trans g8, (h c Cert.ReferenceIdeal.main_arg9).trans g9,
      (h c Cert.ReferenceIdeal.main_arg10).trans g10⟩)
    (Cert.ReferenceIdeal.ValueP.run_after (F := Ideal) m ρ)

end Cert.Sage.Ref

end
-- ==== Proof.lean ====
/-
  The certificate of the graph network's kernel against its reference, over the extended reals.

  Both programs compute, on every core, one function of the eleven argument arrays (`Cert.Sage.net`): the input
  embedding, four layers of mean aggregation over in-neighbours followed by the node update
  max (x·Wh + c·Wc + b) 0 · s + x, the read-out projection, the mean per graph and the prediction head. The
  gather and the accumulating scatters are the same host operations in both programs and are carried as such.
  The kernel's program is read segment by segment (each kernel region's output array as a function of its
  input arrays, each host stretch through its operations), the reference's straight line stretch by stretch and
  its stages operation by operation; the one
  place the two arrangements differ is a layer's product with W[l], two 128-term sums on one side and one
  256-term sum over the concatenated features on the other, equal because a finite sum splits over a
  concatenation — commutativity and associativity of addition only, so no finiteness of the inputs is used.
  The kernel's two frames are the generated frame runs, the reference's frame is its run with the result dropped; the idealization
  rewrote no operation, so the kernel's idealization claim is trivial.
-/
import proofs.«153788_j67645734912961_1_alg».proof.Defs
import proofs.«153788_j67645734912961_1_alg».proof.Proof.Gen.Kernel
import proofs.«153788_j67645734912961_1_alg».proof.Proof.Gen.Kernel.Frame
import proofs.«153788_j67645734912961_1_alg».proof.Proof.Gen.KernelIdeal
import proofs.«153788_j67645734912961_1_alg».proof.Proof.Gen.KernelIdeal.Frame
import proofs.«153788_j67645734912961_1_alg».proof.Proof.Gen.ReferenceIdeal
import proofs.«153788_j67645734912961_1_alg».proof.Proof.Gen.Pre_finite_inputs
import proofs.«153788_j67645734912961_1_alg».proof.Proof.KernelRun
import proofs.«153788_j67645734912961_1_alg».proof.Proof.KernelStages
import proofs.«153788_j67645734912961_1_alg».proof.Proof.RefRun

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.Sage.Ref.run_value m ρ)

/-- Both runs end with the result at `net` of the (agreeing) arguments. -/
theorem algebraic : Cert.algebraic_KernelIdeal_ReferenceIdeal := by
  intro m ρ m' ρ' _ hagree
  refine ⟨fun c => Cert.Sage.net
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun _ h c => ⟨(h c).1.trans (Cert.Sage.Fold.W13_out m ρ c), (h c).2⟩) (Cert.Sage.Fold.run_fold m ρ)
  · refine (θ_run Cert.ReferenceIdeal.defs _ _).mono (fun _ h c => ⟨(h c).1.trans ?_, (h c).2⟩)
      (Cert.Sage.Ref.run_value m' ρ')
    obtain ⟨h0, h1, h2, h3, h4, h5, h6, h7, h8, h9, h10⟩ := hagree c
    rw [h0, h1, h2, h3, h4, h5, h6, h7, h8, h9, h10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
